-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S64x128 : Shape := ⟨2, ![64, 128]⟩
abbrev S128x384 : Shape := ⟨2, ![128, 384]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S64x128 : S_.BroadcastsInDim S64x128 (![] : Fin 0 → Fin S64x128.rank)
  reducesTo_S64x128_S_d0_1 : S64x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128 .f32) (main_arg12 : FVec F S128 .f32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_v63 main_v67

def fn_part2 {F : FTy → Type} [FloatOps F] (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x128 .f32) (main_arg1 : FVec F S1600000x128 .f32) (main_arg2 : FVec F S64x128 .f32) (main_arg3 : FVec F S128x384 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : IVec S2x1600000 32) (main_arg16 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x128 : Shape := ⟨2, ![100000, 128]⟩
abbrev S1600000x128 : Shape := ⟨2, ![1600000, 128]⟩
abbrev S64x128 : Shape := ⟨2, ![64, 128]⟩
abbrev S128x384 : Shape := ⟨2, ![128, 384]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 116
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S64x128, .f32⟩
  | .hbm, ⟨3, _⟩ => ⟨S128x384, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S2x1600000, .i32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S1x128, .f32⟩
  | .hbm, ⟨51, _⟩ => ⟨S128x128, .f32⟩
  | .hbm, ⟨52, _⟩ => ⟨S1x128, .f32⟩
  | .hbm, ⟨53, _⟩ => ⟨S128x128, .f32⟩
  | .hbm, ⟨54, _⟩ => ⟨S1x128, .f32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S100000x128, .f32⟩
  | .hbm, ⟨96, _⟩ => ⟨S1x128, .f32⟩
  | .hbm, ⟨97, _⟩ => ⟨S1x128, .f32⟩
  | .hbm, ⟨98, _⟩ => ⟨S_, .f32⟩
  | .hbm, ⟨99, _⟩ => ⟨S1x128, .f32⟩
  | .hbm, ⟨100, _⟩ => ⟨S1x128, .f32⟩
  | .hbm, ⟨101, _⟩ => ⟨S_, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S_, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S1x128, .f32⟩
  | .hbm, ⟨112, _⟩ => ⟨S1x128, .f32⟩
  | .hbm, ⟨113, _⟩ => ⟨S1x128, .f32⟩
  | .hbm, ⟨114, _⟩ => ⟨S1x128, .f32⟩
  | .hbm, ⟨115, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v32_2 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_cst_7 : Ref sig .tc := ⟨.hbm, 78, rfl⟩
abbrev main_v48 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62_0 : Ref sig .tc := ⟨.hbm, 95, rfl⟩
abbrev main_v62_1 : Ref sig .tc := ⟨.hbm, 96, rfl⟩
abbrev main_v62_2 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_cst_11 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_12 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg7_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem7_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem7_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem3_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S64x128_S100000x1_S100000x128_1_0_n_n_0_1_1128_wf : GatherDims.WF S64x128 S100000x1 S100000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S64x128_S100000x1_S100000x128_1_0_n_n_0_1_1128 : GatherDims S64x128 S100000x1 S100000x128 where
  offsetDims := [1]
  collapsedSliceDims := [0]
  operandBatchingDims := []
  startIndicesBatchingDims := []
  startIndexMap := [0]
  indexVectorDim := 1
  sliceSizes := ![1, 128]
  wf := gather_S64x128_S100000x1_S100000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v32_1) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32_2) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v32_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v47_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v47_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v62_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S64x128 : Shape := ⟨2, ![64, 128]⟩
abbrev S128x384 : Shape := ⟨2, ![128, 384]⟩
abbrev S128 : Shape := ⟨1, ![128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x384 : Shape := ⟨2, ![100000, 384]⟩
abbrev S384x128 : Shape := ⟨2, ![384, 128]⟩
abbrev S1x128 : Shape := ⟨2, ![1, 128]⟩

abbrev nBuf : Space → Nat
  | .hbm => 201
  | .vmem => 0
  | .smem => 0
  | _ => 0

abbrev hbmTy0_0 (i : Nat) : BufTy := match i % 128 with
  | 0 => ⟨S100000x128, .f32⟩
  | 1 => ⟨S1600000x128, .f32⟩
  | 2 => ⟨S64x128, .f32⟩
  | 3 => ⟨S128x384, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S2x1600000, .i32⟩
  | 16 => ⟨S100000, .i32⟩
  | 17 => ⟨S1x1600000, .i32⟩
  | 18 => ⟨S1600000, .i32⟩
  | 19 => ⟨S_, .f32⟩
  | 20 => ⟨S100000x128, .f32⟩
  | 21 => ⟨S1600000x1, .i32⟩
  | 22 => ⟨S100000x128, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x128, .f32⟩
  | 44 => ⟨S100000x384, .f32⟩
  | 45 => ⟨S384x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S100000x128, .f32⟩
  | 66 => ⟨S100000x128, .f32⟩
  | 67 => ⟨S100000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S128, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S128x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S100000x128, .f32⟩
  | 118 => ⟨S100000x128, .f32⟩
  | 119 => ⟨S100000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S100000x128, .f32⟩

abbrev hbmTy0_1 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S128x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .f32⟩
  | 30 => ⟨S128, .f32⟩
  | 31 => ⟨S_, .f32⟩
  | 32 => ⟨S128, .f32⟩
  | 33 => ⟨S128, .f32⟩
  | 34 => ⟨S_, .i32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S_, .f32⟩
  | 46 => ⟨S_, .f32⟩
  | 47 => ⟨S_, .f32⟩
  | 48 => ⟨S128, .f32⟩
  | 49 => ⟨S128, .f32⟩
  | 50 => ⟨S128, .f32⟩
  | 51 => ⟨S_, .f32⟩
  | 52 => ⟨S_, .i1⟩
  | 53 => ⟨S_, .f32⟩
  | 54 => ⟨S_, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_cst : Ref sig .tc := ⟨.hbm, 50, rfl⟩
abbrev main_call0_v0 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_cst_3 : Ref sig .tc := ⟨.hbm, 75, rfl⟩
abbrev main_call1_v12 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_7 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_call2_cst : Ref sig .tc := ⟨.hbm, 102, rfl⟩
abbrev main_call2_v0 : Ref sig .tc := ⟨.hbm, 103, rfl⟩
abbrev main_v52 : Ref sig .tc := ⟨.hbm, 104, rfl⟩
abbrev main_cst_8 : Ref sig .tc := ⟨.hbm, 105, rfl⟩
abbrev main_v53 : Ref sig .tc := ⟨.hbm, 106, rfl⟩
abbrev main_cst_9 : Ref sig .tc := ⟨.hbm, 107, rfl⟩
abbrev main_v54 : Ref sig .tc := ⟨.hbm, 108, rfl⟩
abbrev main_v55 : Ref sig .tc := ⟨.hbm, 109, rfl⟩
abbrev main_c_10 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_cst_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_cst_1 : Ref sig .tc := ⟨.hbm, 121, rfl⟩
abbrev main_call3_v8 : Ref sig .tc := ⟨.hbm, 122, rfl⟩
abbrev main_call3_cst_2 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_cst_3 : Ref sig .tc := ⟨.hbm, 127, rfl⟩
abbrev main_call3_v12 : Ref sig .tc := ⟨.hbm, 128, rfl⟩
abbrev main_call3_cst_4 : Ref sig .tc := ⟨.hbm, 129, rfl⟩
abbrev main_call3_call0_v0 : Ref sig .tc := ⟨.hbm, 130, rfl⟩
abbrev main_call3_call0_v1 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_cst_11 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_call4_cst : Ref sig .tc := ⟨.hbm, 154, rfl⟩
abbrev main_call4_v0 : Ref sig .tc := ⟨.hbm, 155, rfl⟩
abbrev main_v77 : Ref sig .tc := ⟨.hbm, 156, rfl⟩
abbrev main_cst_12 : Ref sig .tc := ⟨.hbm, 157, rfl⟩
abbrev main_v78 : Ref sig .tc := ⟨.hbm, 158, rfl⟩
abbrev main_cst_13 : Ref sig .tc := ⟨.hbm, 159, rfl⟩
abbrev main_v79 : Ref sig .tc := ⟨.hbm, 160, rfl⟩
abbrev main_v80 : Ref sig .tc := ⟨.hbm, 161, rfl⟩
abbrev main_c_14 : Ref sig .tc := ⟨.hbm, 162, rfl⟩
abbrev main_call5_cst : Ref sig .tc := ⟨.hbm, 163, rfl⟩
abbrev main_call5_v0 : Ref sig .tc := ⟨.hbm, 164, rfl⟩
abbrev main_call5_v1 : Ref sig .tc := ⟨.hbm, 165, rfl⟩
abbrev main_call5_cst_0 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_v6 : Ref sig .tc := ⟨.hbm, 171, rfl⟩
abbrev main_call5_v7 : Ref sig .tc := ⟨.hbm, 172, rfl⟩
abbrev main_call5_cst_1 : Ref sig .tc := ⟨.hbm, 173, rfl⟩
abbrev main_call5_v8 : Ref sig .tc := ⟨.hbm, 174, rfl⟩
abbrev main_call5_cst_2 : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_cst_3 : Ref sig .tc := ⟨.hbm, 179, rfl⟩
abbrev main_call5_v12 : Ref sig .tc := ⟨.hbm, 180, rfl⟩
abbrev main_call5_cst_4 : Ref sig .tc := ⟨.hbm, 181, rfl⟩
abbrev main_call5_call0_v0 : Ref sig .tc := ⟨.hbm, 182, rfl⟩
abbrev main_call5_call0_v1 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_cst_15 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  transposes_S128x384_S384x128_1_0 : S128x384.Transposes [1, 0] S384x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S128x128_S128x128_1_0 : S128x128.Transposes [1, 0] S128x128
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S64x128_S100000x1_S100000x128_1_0_n_n_0_1_1128_wf : GatherDims.WF S64x128 S100000x1 S100000x128 [1] [0] [] [0] [] 1 ![1, 128]
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S64x128_S100000x1_S100000x128_1_0_n_n_0_1_1128 : GatherDims S64x128 S100000x1 S100000x128 where
  offsetDims := [1]
  collapsedSliceDims := [0]
  operandBatchingDims := []
  startIndicesBatchingDims := []
  startIndexMap := [0]
  indexVectorDim := 1
  sliceSizes := ![1, 128]
  wf := gather_S64x128_S100000x1_S100000x128_1_0_n_n_0_1_1128_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the node update, as plain functions over the extended reals — no program is imported here.

  A node table has 100000 rows of 128 features. Three times over, a row is sent through a linear layer and a
  rectifier, and every feature column is then standardised over ALL rows (a batch normalisation in training mode):
  with mu the column's mean and var its variance over the 100000 rows,

      h  ↦  (h - mu) · (var + eps)^(-1/2) · gamma + beta .

  The variance is written in two ways. One side centres first, var = mean ((h - mu)²); the other side keeps running
  column sums of h and of h², so var = mean (h²) - mu², and folds the standardisation into one affine map per
  column, h · s + t with s = gamma · (var + eps)^(-1/2) and t = beta - mu · s. Over the reals these agree; over the
  extended reals they agree where every entry is a real number, which is why finiteness of the inputs is used.

  The first linear layer acts on three tables laid side by side (384 features in): one side multiplies the
  joined table by the whole weight table, the other multiplies each of the three tables by its own block of
  128 weight rows and adds the three products. That is a sum over 384 split into three sums over 128, which
  needs no finiteness.

  Indices: a row is `Fin 100000`, a feature `Fin 128`, a joined feature `Fin 384`; the literals are kept as
  the words the programs spell (100000.0 and the single-precision value nearest 1e-5).
-/
import Idealize.ShloMosaic.PureOps.Ideal
import Idealize.ShloMosaic.Lib.ValueIdx

noncomputable section

namespace Cert.NodeMlp

open Idealize.ShloMosaic

/-- The row count as both programs spell it: the single-precision word of 100000.0. -/
def cN : EReal := Ideal.ofBits .f32 0x47C35000#32

/-- The variance offset as both programs spell it: the single-precision word nearest 1e-5. -/
def cEps : EReal := Ideal.ofBits .f32 0x3727C5AC#32

/-- An extended real that is a real number. -/
def IsReal (x : EReal) : Prop := ∃ r : ℝ, x = (r : EReal)

/-- Row `p` of tile `t`: the table's 100000 rows are 20 tiles of 5000 consecutive rows. -/
def rowOf (t : Fin 20) (p : Fin 5000) : Fin 100000 :=
  ⟨5000 * t.val + p.val, by have := t.isLt; have := p.isLt; omega⟩

/-! ## Column statistics over the 100000 rows -/

/-- The sum of feature column `j`. -/
def colSum (h : Fin 100000 → Fin 128 → EReal) (j : Fin 128) : EReal := ∑ i, h i j

/-- The sum of squares of feature column `j`. -/
def colSumSq (h : Fin 100000 → Fin 128 → EReal) (j : Fin 128) : EReal := ∑ i, h i j * h i j

/-- The mean of feature column `j`. -/
def mean (h : Fin 100000 → Fin 128 → EReal) (j : Fin 128) : EReal := Ideal.div (colSum h j) cN

/-! ## The standardisation, from running sums: one affine map per column -/

/-- The variance as mean of squares minus squared mean. -/
def varK (h : Fin 100000 → Fin 128 → EReal) (j : Fin 128) : EReal :=
  Ideal.div (colSumSq h j) cN - mean h j * mean h j

/-- The per-column scale `gamma · (var + eps)^(-1/2)`. -/
def scaleK (h : Fin 100000 → Fin 128 → EReal) (g : Fin 128 → EReal) (j : Fin 128) : EReal :=
  g j * Ideal.rsqrt (varK h j + cEps)

/-- The per-column shift `beta - mu · scale`. -/
def shiftK (h : Fin 100000 → Fin 128 → EReal) (g bt : Fin 128 → EReal) (j : Fin 128) : EReal :=
  bt j - mean h j * scaleK h g j

/-- One affine map per column: `h · s + t`. -/
def affine (h : Fin 100000 → Fin 128 → EReal) (s t : Fin 128 → EReal) : Fin 100000 → Fin 128 → EReal :=
  fun i k => h i k * s k + t k

/-- The standardisation in its folded form. -/
def bnK (h : Fin 100000 → Fin 128 → EReal) (g bt : Fin 128 → EReal) : Fin 100000 → Fin 128 → EReal :=
  affine h (scaleK h g) (shiftK h g bt)

/-! ## The standardisation, centred first -/

/-- The variance as the mean of the squared deviations. -/
def varR (h : Fin 100000 → Fin 128 → EReal) (j : Fin 128) : EReal :=
  Ideal.div (∑ i, (h i j - mean h j) * (h i j - mean h j)) cN

/-- The standardisation in its textbook form. -/
def bnR (h : Fin 100000 → Fin 128 → EReal) (g bt : Fin 128 → EReal) : Fin 100000 → Fin 128 → EReal :=
  fun i j => (h i j - mean h j) * Ideal.rsqrt (varR h j + cEps) * g j + bt j

/-! ## The linear layers with their rectifier. A weight table is read as `wt k j`: input feature `k`, output feature `j`. -/

/-- A linear layer on 128 features, then `max · 0`. -/
def linT (a : Fin 100000 → Fin 128 → EReal) (wt : Fin 128 → Fin 128 → EReal) (b : Fin 128 → EReal) :
    Fin 100000 → Fin 128 → EReal :=
  fun i j => max ((∑ k, a i k * wt k j) + b j) 0

/-- The first layer as three products added in order, then the bias, then `max · 0`. -/
def lin3T (x v u : Fin 100000 → Fin 128 → EReal) (wx wv wu : Fin 128 → Fin 128 → EReal) (b : Fin 128 → EReal) :
    Fin 100000 → Fin 128 → EReal :=
  fun i j => max ((((∑ k, x i k * wx k j) + (∑ k, v i k * wv k j)) + (∑ k, u i k * wu k j)) + b j) 0

/-- Three tables laid side by side along the features. -/
def cat3 (x v u : Fin 100000 → Fin 128 → EReal) : Fin 100000 → Fin 384 → EReal :=
  fun i k =>
    if h1 : k.val < 128 then x i ⟨k.val, h1⟩
    else if h2 : k.val < 256 then v i ⟨k.val - 128, by omega⟩
    else u i ⟨k.val - 256, by have := k.isLt; omega⟩

/-- The first layer as one product over the 384 joined features, then the bias, then `max · 0`. -/
def lin384T (a : Fin 100000 → Fin 384 → EReal) (wt : Fin 384 → Fin 128 → EReal) (b : Fin 128 → EReal) :
    Fin 100000 → Fin 128 → EReal :=
  fun i j => max ((∑ k, a i k * wt k j) + b j) 0

/-- Block `o` (0, 1 or 2) of 128 rows of a 384-row weight table. -/
def wblock (wt : Fin 384 → Fin 128 → EReal) (o : Nat) (ho : o + 128 ≤ 384) : Fin 128 → Fin 128 → EReal :=
  fun k j => wt ⟨o + k.val, by have := k.isLt; omega⟩ j

/-! ## The whole update, in the two forms -/

/-- Three layers with the folded standardisation and the split first layer. -/
def netK (x v u : Fin 100000 → Fin 128 → EReal) (w0 : Fin 384 → Fin 128 → EReal) (b0 : Fin 128 → EReal)
    (w1 : Fin 128 → Fin 128 → EReal) (b1 : Fin 128 → EReal) (w2 : Fin 128 → Fin 128 → EReal) (b2 : Fin 128 → EReal)
    (g0 bt0 g1 bt1 g2 bt2 : Fin 128 → EReal) : Fin 100000 → Fin 128 → EReal :=
  bnK (linT (bnK (linT (bnK (lin3T x v u (wblock w0 0 (by omega)) (wblock w0 128 (by omega)) (wblock w0 256 (by omega)) b0)
    g0 bt0) w1 b1) g1 bt1) w2 b2) g2 bt2

/-- Three layers with the textbook standardisation and the joined first layer. -/
def netR (x v u : Fin 100000 → Fin 128 → EReal) (w0 : Fin 384 → Fin 128 → EReal) (b0 : Fin 128 → EReal)
    (w1 : Fin 128 → Fin 128 → EReal) (b1 : Fin 128 → EReal) (w2 : Fin 128 → Fin 128 → EReal) (b2 : Fin 128 → EReal)
    (g0 bt0 g1 bt1 g2 bt2 : Fin 128 → EReal) : Fin 100000 → Fin 128 → EReal :=
  bnR (linT (bnR (linT (bnR (lin384T (cat3 x v u) w0 b0) g0 bt0) w1 b1) g1 bt1) w2 b2) g2 bt2

end Cert.NodeMlp

end
-- ==== Proof.HostSpec.lean ====
/-
  The per-column scale and shift of the folded standardisation as functions of one column's numbers: the weight
  gamma, the offset beta, the column's sum and sum of squares over the 100000 rows.

      scale = gamma · (sumsq / n - (sum / n)² + eps)^(-1/2),      shift = beta - (sum / n) · scale .
-/
import proofs.«146512_j36301063586429_1_alg».proof.Proof.Spec

noncomputable section

namespace Cert.NodeMlp

open Idealize.ShloMosaic

/-- One column's scale from its weight, its sum and its sum of squares. -/
def scaleOf (g s sq : EReal) : EReal :=
  g * Ideal.rsqrt ((Ideal.div sq cN - Ideal.div s cN * Ideal.div s cN) + cEps)

/-- One column's shift from its offset, its sum and its scale. -/
def shiftOf (bt s sc : EReal) : EReal := bt - Ideal.div s cN * sc

theorem scaleK_eq_scaleOf (h : Fin 100000 → Fin 128 → EReal) (g : Fin 128 → EReal) (j : Fin 128) :
    scaleK h g j = scaleOf (g j) (colSum h j) (colSumSq h j) := rfl

theorem shiftK_eq_shiftOf (h : Fin 100000 → Fin 128 → EReal) (g bt : Fin 128 → EReal) (j : Fin 128) :
    shiftK h g bt j = shiftOf (bt j) (colSum h j) (scaleK h g j) := rfl

end Cert.NodeMlp

end
-- ==== Proof.Algebra.lean ====
/-
  The algebra of the node update over the extended reals.

  Three facts are proved here. (1) A sum over the 100000 rows is the sum over 20 tiles of 5000 rows, and a sum over
  384 joined features is three sums over 128; both are re-indexings of finite sums and use no finiteness of the
  summands. (2) Real numbers are closed under every operation a layer uses, so each layer maps tables of reals to
  tables of reals. (3) On a table of reals the two spellings of the standardisation agree: with n the row count,
  S the column sum, mu = S / n and Q the column's sum of squares,

      sum (h - mu)^2 = Q - 2 mu S + n mu^2 = Q - n mu^2        (since S = n mu),

  so mean ((h - mu)^2) = Q / n - mu^2; this common variance is nonnegative, the offset is positive, hence the
  reciprocal square root is that of a positive real, and  h s + (beta - mu s) = (h - mu) r gamma + beta  with
  s = gamma r is an identity of the real field.
-/
import proofs.«146512_j36301063586429_1_alg».proof.Proof.Spec

noncomputable section

namespace Cert.NodeMlp

open Idealize.ShloMosaic

/-! ## The two literals -/

/-- The word 0x47C35000 has exponent field 143 and fraction 4411392: (2^23 + 4411392) · 2^(143 - 150) = 100000. -/
theorem cN_eq : cN = ((100000 : ℝ) : EReal) := by
  unfold cN
  simp [Ideal.ofBits, Ideal.ieee, -EReal.coe_mul]; norm_num

/-- The word 0x3727C5AC has a zero sign bit and exponent field 110, neither 0 nor 255: it is a positive real. -/
theorem cEps_pos : ∃ e : ℝ, 0 < e ∧ cEps = (e : EReal) := by
  unfold cEps
  simp [Ideal.ofBits, Ideal.ieee, -EReal.coe_mul]

/-! ## Reals are closed under the operations of a layer -/

theorem isReal_coe (r : ℝ) : IsReal (r : EReal) := ⟨r, rfl⟩

theorem isReal_zero : IsReal (0 : EReal) := ⟨0, EReal.coe_zero.symm⟩

theorem isReal_add {x y : EReal} (hx : IsReal x) (hy : IsReal y) : IsReal (x + y) := by
  obtain ⟨a, rfl⟩ := hx; obtain ⟨b, rfl⟩ := hy
  exact ⟨a + b, (EReal.coe_add a b).symm⟩

theorem isReal_sub {x y : EReal} (hx : IsReal x) (hy : IsReal y) : IsReal (x - y) := by
  obtain ⟨a, rfl⟩ := hx; obtain ⟨b, rfl⟩ := hy
  exact ⟨a - b, (EReal.coe_sub a b).symm⟩

theorem isReal_mul {x y : EReal} (hx : IsReal x) (hy : IsReal y) : IsReal (x * y) := by
  obtain ⟨a, rfl⟩ := hx; obtain ⟨b, rfl⟩ := hy
  exact ⟨a * b, (EReal.coe_mul a b).symm⟩

theorem isReal_max {x y : EReal} (hx : IsReal x) (hy : IsReal y) : IsReal (max x y) := by
  rcases le_total x y with h | h
  · rw [max_eq_right h]; exact hy
  · rw [max_eq_left h]; exact hx

theorem isReal_sum {ι : Type*} (s : Finset ι) (f : ι → EReal) (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (hf a (Finset.mem_insert_self a s))
      (ih (fun i hi => hf i (Finset.mem_insert_of_mem hi)))

theorem isReal_div_of_ne_zero {x : EReal} {y : ℝ} (hx : IsReal x) (hy : y ≠ 0) :
    IsReal (Ideal.div x (y : EReal)) := by
  rw [Ideal.div_coe hy]
  exact isReal_mul hx (isReal_coe _)

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Re-indexing the rows by tiles -/

/-- A pair (tile, row within the tile) is a row, and conversely by quotient and remainder by 5000. -/
def rowEquiv : Fin 20 × Fin 5000 ≃ Fin 100000 where
  toFun tp := rowOf tp.1 tp.2
  invFun i := (⟨i.val / 5000, by have := i.isLt; omega⟩, ⟨i.val % 5000, by omega⟩)
  left_inv := by
    rintro ⟨t, p⟩
    have ht := t.isLt; have hp := p.isLt
    refine Prod.ext (Fin.ext ?_) (Fin.ext ?_)
    · show (5000 * t.val + p.val) / 5000 = t.val
      omega
    · show (5000 * t.val + p.val) % 5000 = p.val
      omega
  right_inv := by
    intro i
    refine Fin.ext ?_
    show 5000 * (i.val / 5000) + i.val % 5000 = i.val
    omega

theorem sum_tiles (f : Fin 100000 → EReal) : ∑ t : Fin 20, ∑ p : Fin 5000, f (rowOf t p) = ∑ i, f i := by
  rw [← Equiv.sum_comp rowEquiv f, Fintype.sum_prod_type]
  rfl

/-! ## Re-indexing the joined features by blocks -/

/-- A sum over 384 joined features is the sum over its three blocks of 128. -/
theorem sum_blocks (f : Fin 384 → EReal) :
    ∑ k, f k = ((∑ k : Fin 128, f ⟨0 + k.val, by have := k.isLt; omega⟩)
      + (∑ k : Fin 128, f ⟨128 + k.val, by have := k.isLt; omega⟩))
      + (∑ k : Fin 128, f ⟨256 + k.val, by have := k.isLt; omega⟩) := by
  have h1 := Fin.sum_univ_add (a := 128) (b := 256) f
  have h2 := Fin.sum_univ_add (a := 128) (b := 128) (fun k : Fin 256 => f (Fin.natAdd 128 k))
  rw [h1, h2, ← add_assoc]
  refine congrArg₂ (· + ·) (congrArg₂ (· + ·) ?_ ?_) ?_
  · refine Finset.sum_congr rfl (fun k _ => congrArg f (Fin.ext ?_))
    show k.val = 0 + k.val
    omega
  · refine Finset.sum_congr rfl (fun k _ => congrArg f (Fin.ext ?_))
    show 128 + k.val = 128 + k.val
    rfl
  · refine Finset.sum_congr rfl (fun k _ => congrArg f (Fin.ext ?_))
    show 128 + (128 + k.val) = 256 + k.val
    omega

theorem cat3_block0 (x v u : Fin 100000 → Fin 128 → EReal) (i : Fin 100000) (k : Fin 128) (hk : 0 + k.val < 384) :
    cat3 x v u i ⟨0 + k.val, hk⟩ = x i k := by
  have h1 : (⟨0 + k.val, hk⟩ : Fin 384).val < 128 := by have := k.isLt; show 0 + k.val < 128; omega
  unfold cat3
  rw [dif_pos h1]
  exact congrArg (x i) (Fin.ext (by show 0 + k.val = k.val; omega))

theorem cat3_block1 (x v u : Fin 100000 → Fin 128 → EReal) (i : Fin 100000) (k : Fin 128) (hk : 128 + k.val < 384) :
    cat3 x v u i ⟨128 + k.val, hk⟩ = v i k := by
  have h1 : ¬ (⟨128 + k.val, hk⟩ : Fin 384).val < 128 := by show ¬ 128 + k.val < 128; omega
  have h2 : (⟨128 + k.val, hk⟩ : Fin 384).val < 256 := by have := k.isLt; show 128 + k.val < 256; omega
  unfold cat3
  rw [dif_neg h1, dif_pos h2]
  exact congrArg (v i) (Fin.ext (by show 128 + k.val - 128 = k.val; omega))

theorem cat3_block2 (x v u : Fin 100000 → Fin 128 → EReal) (i : Fin 100000) (k : Fin 128) (hk : 256 + k.val < 384) :
    cat3 x v u i ⟨256 + k.val, hk⟩ = u i k := by
  have h1 : ¬ (⟨256 + k.val, hk⟩ : Fin 384).val < 128 := by show ¬ 256 + k.val < 128; omega
  have h2 : ¬ (⟨256 + k.val, hk⟩ : Fin 384).val < 256 := by show ¬ 256 + k.val < 256; omega
  unfold cat3
  rw [dif_neg h1, dif_neg h2]
  exact congrArg (u i) (Fin.ext (by show 256 + k.val - 256 = k.val; omega))

theorem lin3T_eq_lin384T (x v u : Fin 100000 → Fin 128 → EReal) (w0 : Fin 384 → Fin 128 → EReal) (b0 : Fin 128 → EReal) :
    lin3T x v u (wblock w0 0 (by omega)) (wblock w0 128 (by omega)) (wblock w0 256 (by omega)) b0 = lin384T (cat3 x v u) w0 b0 := by
  funext i j
  unfold lin3T lin384T
  rw [sum_blocks (fun k => cat3 x v u i k * w0 k j)]
  simp only [cat3_block0, cat3_block1, cat3_block2, wblock]

theorem cat3_isReal (x v u : Fin 100000 → Fin 128 → EReal) (hx : ∀ i k, IsReal (x i k)) (hv : ∀ i k, IsReal (v i k)) (hu : ∀ i k, IsReal (u i k)) :
    ∀ i k, IsReal (cat3 x v u i k) := by
  intro i k
  unfold cat3
  split_ifs
  · exact hx _ _
  · exact hv _ _
  · exact hu _ _

/-! ## The layers map reals to reals -/

theorem linT_isReal (a : Fin 100000 → Fin 128 → EReal) (wt : Fin 128 → Fin 128 → EReal) (b : Fin 128 → EReal)
    (ha : ∀ i k, IsReal (a i k)) (hw : ∀ k j, IsReal (wt k j)) (hb : ∀ j, IsReal (b j)) : ∀ i j, IsReal (linT a wt b i j) := by
  intro i j
  unfold linT
  exact isReal_max (isReal_add (isReal_sum _ _ (fun k _ => isReal_mul (ha i k) (hw k j))) (hb j)) isReal_zero

theorem lin384T_isReal (a : Fin 100000 → Fin 384 → EReal) (wt : Fin 384 → Fin 128 → EReal) (b : Fin 128 → EReal)
    (ha : ∀ i k, IsReal (a i k)) (hw : ∀ k j, IsReal (wt k j)) (hb : ∀ j, IsReal (b j)) : ∀ i j, IsReal (lin384T a wt b i j) := by
  intro i j
  unfold lin384T
  exact isReal_max (isReal_add (isReal_sum _ _ (fun k _ => isReal_mul (ha i k) (hw k j))) (hb j)) isReal_zero

/-! ## The column statistics of a table of reals -/

/-- The mean of a real column. -/
def Algebra.meanR (f : Fin 100000 → ℝ) : ℝ := (∑ i, f i) * (1 / 100000)

/-- The variance of a real column, centred first. -/
def Algebra.varRR (f : Fin 100000 → ℝ) : ℝ :=
  (∑ i, (f i - Algebra.meanR f) * (f i - Algebra.meanR f)) * (1 / 100000)

/-- sum (f - mu)^2 = Q - n mu^2 with n mu = S, divided by n. -/
theorem Algebra.varRR_eq (f : Fin 100000 → ℝ) :
    Algebra.varRR f = (∑ i, f i * f i) * (1 / 100000) - Algebra.meanR f * Algebra.meanR f := by
  unfold Algebra.varRR
  have hS : ∑ i, f i = 100000 * Algebra.meanR f := by unfold Algebra.meanR; ring
  have hexp : ∀ i, (f i - Algebra.meanR f) * (f i - Algebra.meanR f)
      = f i * f i - 2 * Algebra.meanR f * f i + Algebra.meanR f * Algebra.meanR f := fun i => by ring
  simp only [hexp]
  rw [Finset.sum_add_distrib, Finset.sum_sub_distrib, ← Finset.mul_sum, hS, Finset.sum_const,
    Finset.card_univ, Fintype.card_fin, nsmul_eq_mul]
  push_cast
  ring

theorem Algebra.varRR_nonneg (f : Fin 100000 → ℝ) : 0 ≤ Algebra.varRR f :=
  mul_nonneg (Finset.sum_nonneg (fun i _ => mul_self_nonneg _)) (by norm_num)

theorem colSum_coe (hr : Fin 100000 → Fin 128 → ℝ) (j : Fin 128) :
    colSum (fun i j => (hr i j : EReal)) j = ((∑ i, hr i j : ℝ) : EReal) := by
  unfold colSum
  rw [coe_sum]

theorem colSumSq_coe (hr : Fin 100000 → Fin 128 → ℝ) (j : Fin 128) :
    colSumSq (fun i j => (hr i j : EReal)) j = ((∑ i, hr i j * hr i j : ℝ) : EReal) := by
  unfold colSumSq
  rw [coe_sum]
  exact Finset.sum_congr rfl (fun i _ => (EReal.coe_mul _ _).symm)

theorem mean_coe (hr : Fin 100000 → Fin 128 → ℝ) (j : Fin 128) :
    mean (fun i j => (hr i j : EReal)) j = ((Algebra.meanR (fun i => hr i j) : ℝ) : EReal) := by
  unfold mean Algebra.meanR
  rw [colSum_coe, cN_eq, Ideal.div_coe (by norm_num), ← EReal.coe_mul]

theorem varK_coe (hr : Fin 100000 → Fin 128 → ℝ) (j : Fin 128) :
    varK (fun i j => (hr i j : EReal)) j = ((Algebra.varRR (fun i => hr i j) : ℝ) : EReal) := by
  unfold varK
  rw [colSumSq_coe, mean_coe, cN_eq, Ideal.div_coe (by norm_num), ← EReal.coe_mul, ← EReal.coe_mul,
    ← EReal.coe_sub, Algebra.varRR_eq]

theorem varR_coe (hr : Fin 100000 → Fin 128 → ℝ) (j : Fin 128) :
    varR (fun i j => (hr i j : EReal)) j = ((Algebra.varRR (fun i => hr i j) : ℝ) : EReal) := by
  unfold varR Algebra.varRR
  rw [mean_coe, cN_eq, Ideal.div_coe (by norm_num)]
  have hterm : ∀ i, ((hr i j : EReal) - ((Algebra.meanR (fun i => hr i j) : ℝ) : EReal))
      * ((hr i j : EReal) - ((Algebra.meanR (fun i => hr i j) : ℝ) : EReal))
      = (((hr i j - Algebra.meanR (fun i => hr i j)) * (hr i j - Algebra.meanR (fun i => hr i j)) : ℝ) : EReal) :=
    fun i => by rw [← EReal.coe_sub, ← EReal.coe_mul]
  simp only [hterm]
  rw [← coe_sum, ← EReal.coe_mul]

/-- The reciprocal square root of a positive real is a real. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- Both standardisations of a table of reals, as the coercion of one real expression. -/
theorem bnR_coe (hr : Fin 100000 → Fin 128 → ℝ) (gr btr : Fin 128 → ℝ) (e : ℝ) (he : 0 < e) (hce : cEps = (e : EReal))
    (i : Fin 100000) (j : Fin 128) :
    bnR (fun i j => (hr i j : EReal)) (fun j => (gr j : EReal)) (fun j => (btr j : EReal)) i j
      = (((hr i j - Algebra.meanR (fun i => hr i j)) * (Real.sqrt (Algebra.varRR (fun i => hr i j) + e))⁻¹ * gr j + btr j : ℝ) : EReal) := by
  have hpos : 0 < Algebra.varRR (fun i => hr i j) + e := add_pos_of_nonneg_of_pos (Algebra.varRR_nonneg _) he
  unfold bnR
  rw [varR_coe, mean_coe, hce, ← EReal.coe_add, rsqrt_coe_of_pos hpos, ← EReal.coe_sub, ← EReal.coe_mul,
    ← EReal.coe_mul, ← EReal.coe_add]

theorem bnK_coe (hr : Fin 100000 → Fin 128 → ℝ) (gr btr : Fin 128 → ℝ) (e : ℝ) (he : 0 < e) (hce : cEps = (e : EReal))
    (i : Fin 100000) (j : Fin 128) :
    bnK (fun i j => (hr i j : EReal)) (fun j => (gr j : EReal)) (fun j => (btr j : EReal)) i j
      = (((hr i j - Algebra.meanR (fun i => hr i j)) * (Real.sqrt (Algebra.varRR (fun i => hr i j) + e))⁻¹ * gr j + btr j : ℝ) : EReal) := by
  have hpos : 0 < Algebra.varRR (fun i => hr i j) + e := add_pos_of_nonneg_of_pos (Algebra.varRR_nonneg _) he
  unfold bnK affine shiftK scaleK
  rw [varK_coe, mean_coe, hce, ← EReal.coe_add, rsqrt_coe_of_pos hpos, ← EReal.coe_mul, ← EReal.coe_mul,
    ← EReal.coe_mul, ← EReal.coe_sub, ← EReal.coe_add]
  congr 1
  ring

/-- A table of reals is the coercion of a real table. -/
theorem exists_real_table {α β : Type*} (h : α → β → EReal) (hh : ∀ i j, IsReal (h i j)) :
    ∃ hr : α → β → ℝ, h = fun i j => (hr i j : EReal) := by
  choose hr hhr using hh
  exact ⟨hr, funext (fun i => funext (fun j => hhr i j))⟩

theorem exists_real_row {β : Type*} (g : β → EReal) (hg : ∀ j, IsReal (g j)) :
    ∃ gr : β → ℝ, g = fun j => (gr j : EReal) := by
  choose gr hgr using hg
  exact ⟨gr, funext hgr⟩

theorem bnK_eq_bnR (h : Fin 100000 → Fin 128 → EReal) (g bt : Fin 128 → EReal)
    (hh : ∀ i j, IsReal (h i j)) (hg : ∀ j, IsReal (g j)) (hbt : ∀ j, IsReal (bt j)) : bnK h g bt = bnR h g bt := by
  obtain ⟨hr, rfl⟩ := exists_real_table h hh
  obtain ⟨gr, rfl⟩ := exists_real_row g hg
  obtain ⟨btr, rfl⟩ := exists_real_row bt hbt
  obtain ⟨e, he, hce⟩ := cEps_pos
  funext i j
  rw [bnK_coe hr gr btr e he hce, bnR_coe hr gr btr e he hce]

theorem bnR_isReal (h : Fin 100000 → Fin 128 → EReal) (g bt : Fin 128 → EReal)
    (hh : ∀ i j, IsReal (h i j)) (hg : ∀ j, IsReal (g j)) (hbt : ∀ j, IsReal (bt j)) : ∀ i j, IsReal (bnR h g bt i j) := by
  obtain ⟨hr, rfl⟩ := exists_real_table h hh
  obtain ⟨gr, rfl⟩ := exists_real_row g hg
  obtain ⟨btr, rfl⟩ := exists_real_row bt hbt
  obtain ⟨e, he, hce⟩ := cEps_pos
  intro i j
  rw [bnR_coe hr gr btr e he hce]
  exact isReal_coe _

/-! ## The whole update -/

/-- Layer by layer: the first layers agree by re-indexing; each linear layer and each standardisation keeps the
    table real, so each folded standardisation equals the centred one on the table it is applied to. -/
theorem netK_eq_netR (x v u : Fin 100000 → Fin 128 → EReal) (w0 : Fin 384 → Fin 128 → EReal) (b0 : Fin 128 → EReal)
    (w1 : Fin 128 → Fin 128 → EReal) (b1 : Fin 128 → EReal) (w2 : Fin 128 → Fin 128 → EReal) (b2 : Fin 128 → EReal)
    (g0 bt0 g1 bt1 g2 bt2 : Fin 128 → EReal)
    (hx : ∀ i k, IsReal (x i k)) (hv : ∀ i k, IsReal (v i k)) (hu : ∀ i k, IsReal (u i k))
    (hw0 : ∀ k j, IsReal (w0 k j)) (hb0 : ∀ j, IsReal (b0 j)) (hw1 : ∀ k j, IsReal (w1 k j)) (hb1 : ∀ j, IsReal (b1 j))
    (hw2 : ∀ k j, IsReal (w2 k j)) (hb2 : ∀ j, IsReal (b2 j))
    (hg0 : ∀ j, IsReal (g0 j)) (hbt0 : ∀ j, IsReal (bt0 j)) (hg1 : ∀ j, IsReal (g1 j)) (hbt1 : ∀ j, IsReal (bt1 j))
    (hg2 : ∀ j, IsReal (g2 j)) (hbt2 : ∀ j, IsReal (bt2 j)) :
    netK x v u w0 b0 w1 b1 w2 b2 g0 bt0 g1 bt1 g2 bt2 = netR x v u w0 b0 w1 b1 w2 b2 g0 bt0 g1 bt1 g2 bt2 := by
  have h0 := lin384T_isReal (cat3 x v u) w0 b0 (cat3_isReal x v u hx hv hu) hw0 hb0
  have r0 := bnR_isReal _ g0 bt0 h0 hg0 hbt0
  have h1 := linT_isReal _ w1 b1 r0 hw1 hb1
  have r1 := bnR_isReal _ g1 bt1 h1 hg1 hbt1
  have h2 := linT_isReal _ w2 b2 r1 hw2 hb2
  unfold netK netR
  rw [lin3T_eq_lin384T, bnK_eq_bnR _ g0 bt0 h0 hg0 hbt0, bnK_eq_bnR _ g1 bt1 h1 hg1 hbt1,
    bnK_eq_bnR _ g2 bt2 h2 hg2 hbt2]

end Cert.NodeMlp

end
-- ==== Proof.KDefs.lean ====
/-
  The host operations the kernel's program applies before its first kernel launch, as whole-array functions: the
  scatter-mean of the edge rows over their source nodes, and each node's row of the small graph table. They are the
  same operations, with the same dimension records, as the reference applies; written here in the kernel program's
  own names so that the contents of the first launch's operands can be stated.

    prefixV   the edge rows summed into their source node's row and divided by max(count, 1)
    prefixU   each node's row of the graph table, looked up through the node's (wrapped) graph index
-/
import proofs.«146512_j36301063586429_1_alg».proof.KernelIdeal

noncomputable section

namespace Cert.KernelIdeal.Stage

open Idealize.ShloMosaic Cert.KernelIdeal

variable {F : FTy → Type} [FloatOps F] [Facts]
open Facts₀ Facts

/-- The source-node index of every edge as a column: row 0 of the edge index table, reshaped and laid as [E, 1]. -/
def srcCol (ei : (⟨S2x1600000, .i32⟩ : BufTy).Contents (Elt F)) : (⟨S1600000x1, .i32⟩ : BufTy).Contents (Elt F) :=
  broadcastInDim S1600000x1 ![0] bcast_S1600000_S1600000x1_0
    (shapeCast S1600000 (extractStridedSlice S1x1600000 ![0, 0] ei slices_S2x1600000_S1x1600000_0_0) shapeCasts_S1x1600000_S1600000)

/-- The scatter-mean of the edge rows over their source nodes. -/
def prefixV (ea : (⟨S1600000x128, .f32⟩ : BufTy).Contents (Elt F)) (ei : (⟨S2x1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32)) (srcCol ei) ea)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32)) (srcCol ei)
            (broadcastInDim S1600000 ![] bcast_S_S1600000 (constant S_ .f32 0x3F800000#32)))
          (broadcastInDim S100000 ![] bcast_S_S100000 (constant S_ .f32 0x3F800000#32)))))

/-- Each node's row of the graph table: the index wrapped when negative, laid as a column, gathered. -/
def prefixU (u : (⟨S64x128, .f32⟩ : BufTy).Contents (Elt F)) (batch : (⟨S100000, .i32⟩ : BufTy).Contents (Elt F)) :
    (⟨S100000x128, .f32⟩ : BufTy).Contents (Elt F) :=
  Host.gather gather_S64x128_S100000x1_S100000x128_1_0_n_n_0_1_1128 u
    (broadcastInDim S100000x1 ![0] bcast_S100000_S100000x1_0
      (select (cmpi .slt batch (broadcastInDim S100000 ![] bcast_S_S100000 (constantI S_ 32 0#32)))
        (addi batch (broadcastInDim S100000 ![] bcast_S_S100000 (constantI S_ 32 64#32))) batch))

end Cert.KernelIdeal.Stage

end
-- ==== Proof.RefDefs.lean ====
/-
  The reference program's stages as whole-array functions: each definition below is the composition of the host
  operations the reference's @main applies between two named values, written with the same operations and the
  same dimension records as the printed program, so that the run's composed result term IS a composition of these.

    prefixV   the edge rows summed into their source node's row and divided by max(count, 1): a scatter-mean
    prefixU   each node's row of the small graph table, looked up through the node's (wrapped) graph index
    lin0      the three tables joined along the features, times the transposed first weight table, plus the bias, rectified
    lin       a table times a transposed 128 × 128 weight table, plus the bias, rectified
    varOf     a table's column variances as the mean of the squared deviations from the column means
    bn        the standardisation (h - mean) · (var + eps)^(-1/2) · gamma + beta, column by column
    out       the three layers in order
-/
import proofs.«146512_j36301063586429_1_alg».proof.ReferenceIdeal

noncomputable section

namespace Cert.ReferenceIdeal.Stage

open Idealize.ShloMosaic Cert.ReferenceIdeal

variable {F : FTy → Type} [FloatOps F] [Facts]
open Facts₀ Facts

/-- The source-node index of every edge as a column: row 0 of the edge index table, reshaped and laid as [E, 1]. -/
def srcCol (ei : (⟨S2x1600000, .i32⟩ : BufTy).Contents (Elt F)) : (⟨S1600000x1, .i32⟩ : BufTy).Contents (Elt F) :=
  broadcastInDim S1600000x1 ![0] bcast_S1600000_S1600000x1_0
    (shapeCast S1600000 (extractStridedSlice S1x1600000 ![0, 0] ei slices_S2x1600000_S1x1600000_0_0) shapeCasts_S1x1600000_S1600000)

/-- The scatter-mean of the edge rows over their source nodes. -/
def prefixV (ea : (⟨S1600000x128, .f32⟩ : BufTy).Contents (Elt F)) (ei : (⟨S2x1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32)) (srcCol ei) ea)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32)) (srcCol ei)
            (broadcastInDim S1600000 ![] bcast_S_S1600000 (constant S_ .f32 0x3F800000#32)))
          (broadcastInDim S100000 ![] bcast_S_S100000 (constant S_ .f32 0x3F800000#32)))))

/-- Each node's row of the graph table: the index wrapped when negative, laid as a column, gathered. -/
def prefixU (u : (⟨S64x128, .f32⟩ : BufTy).Contents (Elt F)) (batch : (⟨S100000, .i32⟩ : BufTy).Contents (Elt F)) :
    (⟨S100000x128, .f32⟩ : BufTy).Contents (Elt F) :=
  Host.gather gather_S64x128_S100000x1_S100000x128_1_0_n_n_0_1_1128 u
    (broadcastInDim S100000x1 ![0] bcast_S100000_S100000x1_0
      (select (cmpi .slt batch (broadcastInDim S100000 ![] bcast_S_S100000 (constantI S_ 32 0#32)))
        (addi batch (broadcastInDim S100000 ![] bcast_S_S100000 (constantI S_ 32 64#32))) batch))

/-- The rectifier as the reference's outlined function applies it. -/
def relu (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- A bias vector laid as a row and repeated down the rows. -/
def biasRows (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- The first layer: the three tables joined along the features against the transposed 128 × 384 weight table. -/
def lin0 (x v u : (⟨S100000x128, .f32⟩ : BufTy).Contents (Elt F)) (w0 : (⟨S128x384, .f32⟩ : BufTy).Contents (Elt F))
    (b0 : (⟨S128, .f32⟩ : BufTy).Contents (Elt F)) : (⟨S100000x128, .f32⟩ : BufTy).Contents (Elt F) :=
  relu (addf
    (Host.dotGeneral dot_S100000x384_S384x128_S100000x128_1_0_0_1_n_n none
      (concatenate S100000x384 1 [⟨S100000x128, x⟩, ⟨S100000x128, v⟩, ⟨S100000x128, u⟩] concatenates_S100000x128_S100000x128_S100000x128_S100000x384_d1)
      (transpose S384x128 [1, 0] w0 transposes_S128x384_S384x128_1_0))
    (biasRows b0))

/-- A later layer: a table against the transposed 128 × 128 weight table. -/
def lin (h : (⟨S100000x128, .f32⟩ : BufTy).Contents (Elt F)) (w : (⟨S128x128, .f32⟩ : BufTy).Contents (Elt F))
    (b : (⟨S128, .f32⟩ : BufTy).Contents (Elt F)) : (⟨S100000x128, .f32⟩ : BufTy).Contents (Elt F) :=
  relu (addf
    (Host.dotGeneral dot_S100000x128_S128x128_S100000x128_1_0_0_1_n_n none h
      (transpose S128x128 [1, 0] w transposes_S128x128_S128x128_1_0))
    (biasRows b))

/-- The column means as the main line computes them: the column sums over the row count. -/
def meanOf (h : (⟨S100000x128, .f32⟩ : BufTy).Contents (Elt F)) : (⟨S128, .f32⟩ : BufTy).Contents (Elt F) :=
  Host.divf (Host.reduceAdd h (constant S_ .f32 0x00000000#32) reducesTo_S100000x128_S128_d0 h_S_)
    (broadcastInDim S128 ![] bcast_S_S128 (constant S_ .f32 0x47C35000#32))

/-- The divisor of the variance: the row count minus the (zero) degrees-of-freedom correction, as a float scalar. -/
def varDen : (⟨S_, .f32⟩ : BufTy).Contents (Elt F) :=
  subf (constant S_ .f32 0x47C35000#32) (sitofp .f32 (constantI S_ 32 0#32))

/-- The column variances as the outlined variance function computes them: deviations from the column means
    (the means kept as a row), squared, summed, divided; the result guarded by "divisor positive". -/
def varOf (h : (⟨S100000x128, .f32⟩ : BufTy).Contents (Elt F)) : (⟨S128, .f32⟩ : BufTy).Contents (Elt F) :=
  select (broadcastInDim S128 ![] bcast_S_S128 (cmpf .ogt (varDen (F := F)) (constant S_ .f32 0x00000000#32)))
    (Host.divf
      (Host.reduceAdd
        (mulf
          (subf h (broadcastInDim S100000x128 ![0, 1] bcast_S1x128_S100000x128_0_1
            (Host.divf
              (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32)))))
          (subf h (broadcastInDim S100000x128 ![0, 1] bcast_S1x128_S100000x128_0_1
            (Host.divf
              (broadcastInDim S1x128 ![1] bcast_S128_S1x128_1
                (Host.reduceAdd h (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128 (varDen (F := F))))
    (broadcastInDim S128 ![] bcast_S_S128 (id (constant S_ .f32 0x7FC00000#32)))

/-- The standardisation of a table, column by column. -/
def bn (h : (⟨S100000x128, .f32⟩ : BufTy).Contents (Elt F)) (g bt : (⟨S128, .f32⟩ : BufTy).Contents (Elt F)) :
    (⟨S100000x128, .f32⟩ : BufTy).Contents (Elt F) :=
  addf
    (mulf
      (mulf (subf h (biasRows (meanOf h)))
        (biasRows (Host.rsqrt (addf (varOf h) (broadcastInDim S128 ![] bcast_S_S128 (constant S_ .f32 0x3727C5AC#32))))))
      (biasRows g))
    (biasRows bt)

/-- The reference's result as a function of its seventeen arguments. -/
def out (x : (⟨S100000x128, .f32⟩ : BufTy).Contents (Elt F)) (ea : (⟨S1600000x128, .f32⟩ : BufTy).Contents (Elt F))
    (u : (⟨S64x128, .f32⟩ : BufTy).Contents (Elt F)) (w0 : (⟨S128x384, .f32⟩ : BufTy).Contents (Elt F))
    (b0 : (⟨S128, .f32⟩ : BufTy).Contents (Elt F)) (w1 : (⟨S128x128, .f32⟩ : BufTy).Contents (Elt F))
    (b1 : (⟨S128, .f32⟩ : BufTy).Contents (Elt F)) (w2 : (⟨S128x128, .f32⟩ : BufTy).Contents (Elt F))
    (b2 g0 bt0 g1 bt1 g2 bt2 : (⟨S128, .f32⟩ : BufTy).Contents (Elt F))
    (ei : (⟨S2x1600000, .i32⟩ : BufTy).Contents (Elt F)) (batch : (⟨S100000, .i32⟩ : BufTy).Contents (Elt F)) :
    (⟨S100000x128, .f32⟩ : BufTy).Contents (Elt F) :=
  bn (lin (bn (lin (bn (lin0 x (prefixV ea ei) (prefixU u batch) w0 b0) g0 bt0) w1 b1) g1 bt1) w2 b2) g2 bt2

end Cert.ReferenceIdeal.Stage

end
-- ==== Proof.PrefixEq.lean ====
/-
  The host operations before the first kernel launch are the same in the two programs.

  Each program names its own shapes, its own dimension records and its own side conditions, but the shapes are the
  same literal shapes, the records have the same fields, and the side conditions are proofs of the same
  propositions. So the two spellings of

    prefixV   the edge rows summed into their source node's row and divided by max(count, 1)
    prefixU   each node's row of the graph table, looked up through the node's (wrapped) graph index

  are the same function: the records are equal field by field (their well-formedness fields are proofs), and after
  rewriting with these equalities the two sides differ only in proofs of equal propositions. Neither the scatter
  nor the gather is ever evaluated.
-/
import Idealize.ShloMosaic.PureOps.Ideal
import proofs.«146512_j36301063586429_1_alg».proof.Proof.KDefs
import proofs.«146512_j36301063586429_1_alg».proof.Proof.RefDefs
import proofs.«146512_j36301063586429_1_alg».proof.Proof.Gen.KernelIdeal
import proofs.«146512_j36301063586429_1_alg».proof.Proof.Gen.ReferenceIdeal

noncomputable section

namespace Cert.PrefixEq

open Idealize.ShloMosaic

/-- The record of the row scatter ([E, 128] rows into [N, 128]) has the same fields in both programs. -/
theorem scatterRows_eq [hr : Cert.ReferenceIdeal.Facts₀] [hk : Cert.KernelIdeal.Facts₀] :
    @Cert.ReferenceIdeal.scatter_S100000x128_S1600000x1_S1600000x128_1_0_0_1 hr
      = @Cert.KernelIdeal.scatter_S100000x128_S1600000x1_S1600000x128_1_0_0_1 hk := rfl

/-- The record of the count scatter ([E] ones into [N]) has the same fields in both programs. -/
theorem scatterCount_eq [hr : Cert.ReferenceIdeal.Facts₀] [hk : Cert.KernelIdeal.Facts₀] :
    @Cert.ReferenceIdeal.scatter_S100000_S1600000x1_S1600000_n_0_0_1 hr
      = @Cert.KernelIdeal.scatter_S100000_S1600000x1_S1600000_n_0_0_1 hk := rfl

/-- The record of the row gather ([64, 128] table through [N, 1] indices) has the same fields in both programs. -/
theorem gatherRows_eq [hr : Cert.ReferenceIdeal.Facts₀] [hk : Cert.KernelIdeal.Facts₀] :
    @Cert.ReferenceIdeal.gather_S64x128_S100000x1_S100000x128_1_0_n_n_0_1_1128 hr
      = @Cert.KernelIdeal.gather_S64x128_S100000x1_S100000x128_1_0_n_n_0_1_1128 hk := rfl

/-- The source-node column is the same slice, reshape and broadcast in both programs. -/
theorem srcCol_eq (ei : (⟨Cert.KernelIdeal.S2x1600000, .i32⟩ : BufTy).Contents (Elt Ideal)) :
    Cert.ReferenceIdeal.Stage.srcCol (F := Ideal) ei = Cert.KernelIdeal.Stage.srcCol (F := Ideal) ei := rfl

theorem prefixV_eq (ea : (⟨Cert.KernelIdeal.S1600000x128, .f32⟩ : BufTy).Contents (Elt Ideal)) (ei : (⟨Cert.KernelIdeal.S2x1600000, .i32⟩ : BufTy).Contents (Elt Ideal)) :
    Cert.ReferenceIdeal.Stage.prefixV (F := Ideal) ea ei = Cert.KernelIdeal.Stage.prefixV (F := Ideal) ea ei := by
  unfold Cert.ReferenceIdeal.Stage.prefixV Cert.KernelIdeal.Stage.prefixV
  rw [srcCol_eq, scatterRows_eq, scatterCount_eq]

theorem prefixU_eq (u : (⟨Cert.KernelIdeal.S64x128, .f32⟩ : BufTy).Contents (Elt Ideal)) (batch : (⟨Cert.KernelIdeal.S100000, .i32⟩ : BufTy).Contents (Elt Ideal)) :
    Cert.ReferenceIdeal.Stage.prefixU (F := Ideal) u batch = Cert.KernelIdeal.Stage.prefixU (F := Ideal) u batch := by
  unfold Cert.ReferenceIdeal.Stage.prefixU Cert.KernelIdeal.Stage.prefixU
  rw [gatherRows_eq]

end Cert.PrefixEq

end
-- ==== Proof.KRun.lean ====
/-
  The idealized kernel program's run with its result named. The generated frame certificate follows the
  TensorCore's buffer contents from the launch through the four kernel regions and the host operations between
  them, a fold `W0 … W8` of boundary contents; it reads only the argument buffers off the last boundary. Reading
  the result buffer off the same boundary as well gives: every weakly fair execution terminates with the
  result at `W8`'s contents of that buffer, the arguments as launched.
-/
import proofs.«146512_j36301063586429_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents of it and the argument arrays as launched. -/
theorem run_named : θ_run defs (onTc (τ := τ) (main (F := F))) ⟨m, fun _ => 0, ρ⟩ (fun r => ∀ c : Dev nD,
      r.2.mem ((c.tc : Thread nD τ).loc main_v77) = W8 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v77 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.RunV

end
-- ==== Proof.KHost.lean ====
/-
  The host operations between the kernel launches, read over any buffer contents.

  Before the first launch: the edge rows are averaged into their source nodes and each node's row of the graph table
  is looked up (the two composed prefixes), the 128 x 384 weight table is cut into three 128 x 128 blocks of columns
  and each block transposed, the two later weight tables are transposed, and the three bias vectors are laid as
  1 x 128 rows. So block o of the first layer reads, at (k, j), the weight table at (j, o + k); a transposed table
  reads at (k, j) the table at (j, k); a bias row reads at (0, j) the bias at j.

  After each of the first three launches: from a column's sum s and sum of squares q over the n = 100000 rows, its
  weight g and offset b,

      scale = g · (q / n - (s / n)² + eps)^(-1/2),      shift = b - (s / n) · scale ,

  one 1 x 128 row each. Every other buffer a later launch consumes is left as it was: no operation of the stretch
  writes it.
-/
import proofs.«146512_j36301063586429_1_alg».proof.Proof.Gen.KernelIdeal.Launch
import proofs.«146512_j36301063586429_1_alg».proof.Proof.KDefs
import proofs.«146512_j36301063586429_1_alg».proof.Proof.Spec
import proofs.«146512_j36301063586429_1_alg».proof.Proof.HostSpec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.Tactic

set_option maxRecDepth 16384

noncomputable section

namespace Cert.KernelIdeal.Host

open Idealize.ShloMosaic Idealize.ShloMosaic.TcCoe Idealize.SL.Sem Idealize.ShloMosaic.StableHlo Idealize.ShloMosaic.ValueIdx
open Cert.KernelIdeal Cert.KernelIdeal.Gen Cert.NodeMlp

/-! ## The scale and shift rows as whole-array expressions, and read at a column -/

/-- The row count 100000.0 along a 1 x 128 row. -/
def rowN : FVec Ideal S1x128 .f32 :=
  broadcastInDim S1x128 ![] bcast_S_S1x128 (constant (F := Ideal) S_ .f32 0x47C35000#32)

/-- The variance offset along a 1 x 128 row. -/
def rowEps : FVec Ideal S1x128 .f32 :=
  broadcastInDim S1x128 ![] bcast_S_S1x128 (constant (F := Ideal) S_ .f32 0x3727C5AC#32)

/-- The scale row from the weight vector and the rows of sums and of sums of squares. -/
def scaleV (g : FVec Ideal S128 .f32) (s sq : FVec Ideal S1x128 .f32) :
    FVec Ideal S1x128 .f32 :=
  mulf (shapeCast S1x128 g shapeCasts_S128_S1x128)
    (Host.rsqrt (addf (subf (Host.divf sq rowN) (mulf (Host.divf s rowN) (Host.divf s rowN))) rowEps))

/-- The shift row from the offset vector, the row of sums and the scale row. -/
def shiftV (bt : FVec Ideal S128 .f32) (s sc : FVec Ideal S1x128 .f32) :
    FVec Ideal S1x128 .f32 :=
  subf (shapeCast S1x128 bt shapeCasts_S128_S1x128) (mulf (Host.divf s rowN) sc)

theorem rowN_apply (i : S1x128.Idx) : rowN i = cN :=
  broadcastInDim_scalar_apply bcast_S_S1x128 _ i

theorem rowEps_apply (i : S1x128.Idx) : rowEps i = cEps :=
  broadcastInDim_scalar_apply bcast_S_S1x128 _ i

/-- A vector laid as a 1 x 128 row reads, at (0, k), the vector at k. -/
theorem row_apply (v : FVec Ideal S128 .f32) (k : Fin 128) :
    shapeCast S1x128 v shapeCasts_S128_S1x128 (ix2 (0 : Fin 1) k) = v (ix1 k) :=
  shapeCast_a_1a_apply v shapeCasts_S128_S1x128 0 k

theorem scaleV_apply (g : FVec Ideal S128 .f32) (s sq : FVec Ideal S1x128 .f32)
    (k : Fin 128) : scaleV g s sq (ix2 (0 : Fin 1) k) = scaleOf (g (ix1 k)) (s (ix2 (0 : Fin 1) k)) (sq (ix2 (0 : Fin 1) k)) := by
  show shapeCast S1x128 g shapeCasts_S128_S1x128 (ix2 (0 : Fin 1) k)
      * Ideal.rsqrt ((Ideal.div (sq (ix2 (0 : Fin 1) k)) (rowN (ix2 (0 : Fin 1) k))
          - Ideal.div (s (ix2 (0 : Fin 1) k)) (rowN (ix2 (0 : Fin 1) k)) * Ideal.div (s (ix2 (0 : Fin 1) k)) (rowN (ix2 (0 : Fin 1) k)))
        + rowEps (ix2 (0 : Fin 1) k)) = _
  rw [row_apply, rowN_apply, rowEps_apply]
  rfl

theorem shiftV_apply (bt : FVec Ideal S128 .f32) (s sc : FVec Ideal S1x128 .f32)
    (k : Fin 128) : shiftV bt s sc (ix2 (0 : Fin 1) k) = shiftOf (bt (ix1 k)) (s (ix2 (0 : Fin 1) k)) (sc (ix2 (0 : Fin 1) k)) := by
  show shapeCast S1x128 bt shapeCasts_S128_S1x128 (ix2 (0 : Fin 1) k)
      - Ideal.div (s (ix2 (0 : Fin 1) k)) (rowN (ix2 (0 : Fin 1) k)) * sc (ix2 (0 : Fin 1) k) = _
  rw [row_apply, rowN_apply]
  rfl

/-! ## A buffer no operation of a stretch writes -/

/-- Each operation of the named stretch writes one buffer, and it is not the one asked about. -/
local macro "not_written" ops:ident : tactic =>
  `(tactic| (
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

variable (W : Valuation τ sig (Elt Ideal))

/-! ## Reading a transposed table, a transposed block of columns, a bias row -/

/-- A 128 x 128 table transposed reads, at (k, j), the table at (j, k). -/
theorem transposed_apply (x : FVec Ideal S128x128 .f32) (k j : Fin 128) :
    transpose S128x128 [1, 0] x transposes_S128x128_S128x128_1_0 (ix2 k j) = x (ix2 j k) :=
  transpose_ix2_apply x transposes_S128x128_S128x128_1_0 k j

/-- The 128 columns from column `o` of a 128 x 384 table, transposed, read at (k, j) the table at (j, o + k). -/
theorem block_apply (o : Nat) (x : FVec Ideal S128x384 .f32) (hs : S128x384.Slices ![0, o] S128x128) (k j : Fin 128)
    (c : Fin 384) (hc : c.val = o + k.val) :
    transpose S128x128 [1, 0] (extractStridedSlice S128x128 ![0, o] x hs) transposes_S128x128_S128x128_1_0 (ix2 k j)
      = x (ix2 j c) :=
  (transposed_apply _ k j).trans (slice2_axis1_apply o x hs j k c hc)

/-! ## Before the first launch -/

theorem h0_v13 : StableHlo.after hostOps0 W (Proc.devRef .tc main_v13) = Stage.prefixV (W (Proc.devRef .tc main_arg1)) (W (Proc.devRef .tc main_arg15)) := by
  after_results_simp; rfl

theorem h0_v20 : StableHlo.after hostOps0 W (Proc.devRef .tc main_v20) = Stage.prefixU (W (Proc.devRef .tc main_arg2)) (W (Proc.devRef .tc main_arg16)) := by
  after_results_simp; rfl

/-- The first block of the first layer's weights, as one whole-array expression. -/
theorem h0_v22_eq : StableHlo.after hostOps0 W (Proc.devRef .tc main_v22)
    = transpose S128x128 [1, 0] (extractStridedSlice S128x128 ![0, 0] (W (Proc.devRef .tc main_arg3)) slices_S128x384_S128x128_0_0) transposes_S128x128_S128x128_1_0 := by
  after_results_simp

/-- The second block. -/
theorem h0_v24_eq : StableHlo.after hostOps0 W (Proc.devRef .tc main_v24)
    = transpose S128x128 [1, 0] (extractStridedSlice S128x128 ![0, 128] (W (Proc.devRef .tc main_arg3)) slices_S128x384_S128x128_0_128) transposes_S128x128_S128x128_1_0 := by
  after_results_simp

/-- The third block. -/
theorem h0_v26_eq : StableHlo.after hostOps0 W (Proc.devRef .tc main_v26)
    = transpose S128x128 [1, 0] (extractStridedSlice S128x128 ![0, 256] (W (Proc.devRef .tc main_arg3)) slices_S128x384_S128x128_0_256) transposes_S128x128_S128x128_1_0 := by
  after_results_simp

theorem h0_v22 (k j : Fin 128) : StableHlo.after hostOps0 W (Proc.devRef .tc main_v22) (ix2 k j) = W (Proc.devRef .tc main_arg3) (ix2 j (⟨k.val, by have := k.isLt; omega⟩ : Fin 384)) := by
  rw [h0_v22_eq]; exact block_apply 0 _ _ k j _ (Nat.zero_add _).symm

theorem h0_v24 (k j : Fin 128) : StableHlo.after hostOps0 W (Proc.devRef .tc main_v24) (ix2 k j) = W (Proc.devRef .tc main_arg3) (ix2 j (⟨128 + k.val, by have := k.isLt; omega⟩ : Fin 384)) := by
  rw [h0_v24_eq]; exact block_apply 128 _ _ k j _ rfl

theorem h0_v26 (k j : Fin 128) : StableHlo.after hostOps0 W (Proc.devRef .tc main_v26) (ix2 k j) = W (Proc.devRef .tc main_arg3) (ix2 j (⟨256 + k.val, by have := k.isLt; omega⟩ : Fin 384)) := by
  rw [h0_v26_eq]; exact block_apply 256 _ _ k j _ rfl

theorem h0_v27_eq : StableHlo.after hostOps0 W (Proc.devRef .tc main_v27) = shapeCast S1x128 (W (Proc.devRef .tc main_arg4)) shapeCasts_S128_S1x128 := by
  after_results_simp; rfl

theorem h0_v27 (j : Fin 128) : StableHlo.after hostOps0 W (Proc.devRef .tc main_v27) (ix2 (0 : Fin 1) j) = W (Proc.devRef .tc main_arg4) (ix1 j) := by
  rw [h0_v27_eq]; exact row_apply _ j

theorem h0_v29_eq : StableHlo.after hostOps0 W (Proc.devRef .tc main_v29) = shapeCast S1x128 (W (Proc.devRef .tc main_arg6)) shapeCasts_S128_S1x128 := by
  after_results_simp; rfl

theorem h0_v29 (j : Fin 128) : StableHlo.after hostOps0 W (Proc.devRef .tc main_v29) (ix2 (0 : Fin 1) j) = W (Proc.devRef .tc main_arg6) (ix1 j) := by
  rw [h0_v29_eq]; exact row_apply _ j

theorem h0_v31_eq : StableHlo.after hostOps0 W (Proc.devRef .tc main_v31) = shapeCast S1x128 (W (Proc.devRef .tc main_arg8)) shapeCasts_S128_S1x128 := by
  after_results_simp; rfl

theorem h0_v31 (j : Fin 128) : StableHlo.after hostOps0 W (Proc.devRef .tc main_v31) (ix2 (0 : Fin 1) j) = W (Proc.devRef .tc main_arg8) (ix1 j) := by
  rw [h0_v31_eq]; exact row_apply _ j

theorem h0_v28_eq : StableHlo.after hostOps0 W (Proc.devRef .tc main_v28) = transpose S128x128 [1, 0] (W (Proc.devRef .tc main_arg5)) transposes_S128x128_S128x128_1_0 := by
  after_results_simp

theorem h0_v28 (k j : Fin 128) : StableHlo.after hostOps0 W (Proc.devRef .tc main_v28) (ix2 k j) = W (Proc.devRef .tc main_arg5) (ix2 j k) := by
  rw [h0_v28_eq]; exact transposed_apply _ k j

theorem h0_v30_eq : StableHlo.after hostOps0 W (Proc.devRef .tc main_v30) = transpose S128x128 [1, 0] (W (Proc.devRef .tc main_arg7)) transposes_S128x128_S128x128_1_0 := by
  after_results_simp

theorem h0_v30 (k j : Fin 128) : StableHlo.after hostOps0 W (Proc.devRef .tc main_v30) (ix2 k j) = W (Proc.devRef .tc main_arg7) (ix2 j k) := by
  rw [h0_v30_eq]; exact transposed_apply _ k j

theorem h0_keep_arg0 : StableHlo.after hostOps0 W (Proc.devRef .tc main_arg0) = W (Proc.devRef .tc main_arg0) :=
  StableHlo.after_of_forall_not_mem (b := Proc.devRef .tc main_arg0) _ _ (List.forall_iff_forall_mem.mp (by not_written hostOps0))
theorem h0_keep_arg9 : StableHlo.after hostOps0 W (Proc.devRef .tc main_arg9) = W (Proc.devRef .tc main_arg9) :=
  StableHlo.after_of_forall_not_mem (b := Proc.devRef .tc main_arg9) _ _ (List.forall_iff_forall_mem.mp (by not_written hostOps0))
theorem h0_keep_arg10 : StableHlo.after hostOps0 W (Proc.devRef .tc main_arg10) = W (Proc.devRef .tc main_arg10) :=
  StableHlo.after_of_forall_not_mem (b := Proc.devRef .tc main_arg10) _ _ (List.forall_iff_forall_mem.mp (by not_written hostOps0))
theorem h0_keep_arg11 : StableHlo.after hostOps0 W (Proc.devRef .tc main_arg11) = W (Proc.devRef .tc main_arg11) :=
  StableHlo.after_of_forall_not_mem (b := Proc.devRef .tc main_arg11) _ _ (List.forall_iff_forall_mem.mp (by not_written hostOps0))
theorem h0_keep_arg12 : StableHlo.after hostOps0 W (Proc.devRef .tc main_arg12) = W (Proc.devRef .tc main_arg12) :=
  StableHlo.after_of_forall_not_mem (b := Proc.devRef .tc main_arg12) _ _ (List.forall_iff_forall_mem.mp (by not_written hostOps0))
theorem h0_keep_arg13 : StableHlo.after hostOps0 W (Proc.devRef .tc main_arg13) = W (Proc.devRef .tc main_arg13) :=
  StableHlo.after_of_forall_not_mem (b := Proc.devRef .tc main_arg13) _ _ (List.forall_iff_forall_mem.mp (by not_written hostOps0))
theorem h0_keep_arg14 : StableHlo.after hostOps0 W (Proc.devRef .tc main_arg14) = W (Proc.devRef .tc main_arg14) :=
  StableHlo.after_of_forall_not_mem (b := Proc.devRef .tc main_arg14) _ _ (List.forall_iff_forall_mem.mp (by not_written hostOps0))

/-! ## After the first launch -/

/-- The scale row after the stretch, as one whole-array expression of the weight and the two running sums. -/
theorem h1_scale_eq : StableHlo.after hostOps1 W (Proc.devRef .tc main_v43)
    = scaleV (W (Proc.devRef .tc main_arg9)) (W (Proc.devRef .tc main_v32_1)) (W (Proc.devRef .tc main_v32_2)) := by
  after_results_simp; rfl

/-- The shift row after the stretch, as one whole-array expression of the offset, the sum and the scale row. -/
theorem h1_shift_eq : StableHlo.after hostOps1 W (Proc.devRef .tc main_v46)
    = shiftV (W (Proc.devRef .tc main_arg10)) (W (Proc.devRef .tc main_v32_1)) (StableHlo.after hostOps1 W (Proc.devRef .tc main_v43)) := by
  rw [h1_scale_eq]; after_results_simp; rfl

theorem h1_scale (k : Fin 128) : StableHlo.after hostOps1 W (Proc.devRef .tc main_v43) (ix2 (0 : Fin 1) k)
    = scaleOf (W (Proc.devRef .tc main_arg9) (ix1 k)) (W (Proc.devRef .tc main_v32_1) (ix2 (0 : Fin 1) k)) (W (Proc.devRef .tc main_v32_2) (ix2 (0 : Fin 1) k)) := by
  rw [h1_scale_eq]; exact scaleV_apply _ _ _ k

theorem h1_shift (k : Fin 128) : StableHlo.after hostOps1 W (Proc.devRef .tc main_v46) (ix2 (0 : Fin 1) k)
    = shiftOf (W (Proc.devRef .tc main_arg10) (ix1 k)) (W (Proc.devRef .tc main_v32_1) (ix2 (0 : Fin 1) k)) (StableHlo.after hostOps1 W (Proc.devRef .tc main_v43) (ix2 (0 : Fin 1) k)) := by
  rw [h1_shift_eq]; exact shiftV_apply _ _ _ k
theorem h1_keep_v32_0 : StableHlo.after hostOps1 W (Proc.devRef .tc main_v32_0) = W (Proc.devRef .tc main_v32_0) :=
  StableHlo.after_of_forall_not_mem (b := Proc.devRef .tc main_v32_0) _ _ (List.forall_iff_forall_mem.mp (by not_written hostOps1))
theorem h1_keep_v28 : StableHlo.after hostOps1 W (Proc.devRef .tc main_v28) = W (Proc.devRef .tc main_v28) :=
  StableHlo.after_of_forall_not_mem (b := Proc.devRef .tc main_v28) _ _ (List.forall_iff_forall_mem.mp (by not_written hostOps1))
theorem h1_keep_v29 : StableHlo.after hostOps1 W (Proc.devRef .tc main_v29) = W (Proc.devRef .tc main_v29) :=
  StableHlo.after_of_forall_not_mem (b := Proc.devRef .tc main_v29) _ _ (List.forall_iff_forall_mem.mp (by not_written hostOps1))
theorem h1_keep_v30 : StableHlo.after hostOps1 W (Proc.devRef .tc main_v30) = W (Proc.devRef .tc main_v30) :=
  StableHlo.after_of_forall_not_mem (b := Proc.devRef .tc main_v30) _ _ (List.forall_iff_forall_mem.mp (by not_written hostOps1))
theorem h1_keep_v31 : StableHlo.after hostOps1 W (Proc.devRef .tc main_v31) = W (Proc.devRef .tc main_v31) :=
  StableHlo.after_of_forall_not_mem (b := Proc.devRef .tc main_v31) _ _ (List.forall_iff_forall_mem.mp (by not_written hostOps1))
theorem h1_keep_arg11 : StableHlo.after hostOps1 W (Proc.devRef .tc main_arg11) = W (Proc.devRef .tc main_arg11) :=
  StableHlo.after_of_forall_not_mem (b := Proc.devRef .tc main_arg11) _ _ (List.forall_iff_forall_mem.mp (by not_written hostOps1))
theorem h1_keep_arg12 : StableHlo.after hostOps1 W (Proc.devRef .tc main_arg12) = W (Proc.devRef .tc main_arg12) :=
  StableHlo.after_of_forall_not_mem (b := Proc.devRef .tc main_arg12) _ _ (List.forall_iff_forall_mem.mp (by not_written hostOps1))
theorem h1_keep_arg13 : StableHlo.after hostOps1 W (Proc.devRef .tc main_arg13) = W (Proc.devRef .tc main_arg13) :=
  StableHlo.after_of_forall_not_mem (b := Proc.devRef .tc main_arg13) _ _ (List.forall_iff_forall_mem.mp (by not_written hostOps1))
theorem h1_keep_arg14 : StableHlo.after hostOps1 W (Proc.devRef .tc main_arg14) = W (Proc.devRef .tc main_arg14) :=
  StableHlo.after_of_forall_not_mem (b := Proc.devRef .tc main_arg14) _ _ (List.forall_iff_forall_mem.mp (by not_written hostOps1))

/-! ## After the second launch -/

/-- The scale row after the stretch, as one whole-array expression of the weight and the two running sums. -/
theorem h2_scale_eq : StableHlo.after hostOps2 W (Proc.devRef .tc main_v58)
    = scaleV (W (Proc.devRef .tc main_arg11)) (W (Proc.devRef .tc main_v47_1)) (W (Proc.devRef .tc main_v47_2)) := by
  after_results_simp; rfl

/-- The shift row after the stretch, as one whole-array expression of the offset, the sum and the scale row. -/
theorem h2_shift_eq : StableHlo.after hostOps2 W (Proc.devRef .tc main_v61)
    = shiftV (W (Proc.devRef .tc main_arg12)) (W (Proc.devRef .tc main_v47_1)) (StableHlo.after hostOps2 W (Proc.devRef .tc main_v58)) := by
  rw [h2_scale_eq]; after_results_simp; rfl

theorem h2_scale (k : Fin 128) : StableHlo.after hostOps2 W (Proc.devRef .tc main_v58) (ix2 (0 : Fin 1) k)
    = scaleOf (W (Proc.devRef .tc main_arg11) (ix1 k)) (W (Proc.devRef .tc main_v47_1) (ix2 (0 : Fin 1) k)) (W (Proc.devRef .tc main_v47_2) (ix2 (0 : Fin 1) k)) := by
  rw [h2_scale_eq]; exact scaleV_apply _ _ _ k

theorem h2_shift (k : Fin 128) : StableHlo.after hostOps2 W (Proc.devRef .tc main_v61) (ix2 (0 : Fin 1) k)
    = shiftOf (W (Proc.devRef .tc main_arg12) (ix1 k)) (W (Proc.devRef .tc main_v47_1) (ix2 (0 : Fin 1) k)) (StableHlo.after hostOps2 W (Proc.devRef .tc main_v58) (ix2 (0 : Fin 1) k)) := by
  rw [h2_shift_eq]; exact shiftV_apply _ _ _ k
theorem h2_keep_v47_0 : StableHlo.after hostOps2 W (Proc.devRef .tc main_v47_0) = W (Proc.devRef .tc main_v47_0) :=
  StableHlo.after_of_forall_not_mem (b := Proc.devRef .tc main_v47_0) _ _ (List.forall_iff_forall_mem.mp (by not_written hostOps2))
theorem h2_keep_v30 : StableHlo.after hostOps2 W (Proc.devRef .tc main_v30) = W (Proc.devRef .tc main_v30) :=
  StableHlo.after_of_forall_not_mem (b := Proc.devRef .tc main_v30) _ _ (List.forall_iff_forall_mem.mp (by not_written hostOps2))
theorem h2_keep_v31 : StableHlo.after hostOps2 W (Proc.devRef .tc main_v31) = W (Proc.devRef .tc main_v31) :=
  StableHlo.after_of_forall_not_mem (b := Proc.devRef .tc main_v31) _ _ (List.forall_iff_forall_mem.mp (by not_written hostOps2))
theorem h2_keep_arg13 : StableHlo.after hostOps2 W (Proc.devRef .tc main_arg13) = W (Proc.devRef .tc main_arg13) :=
  StableHlo.after_of_forall_not_mem (b := Proc.devRef .tc main_arg13) _ _ (List.forall_iff_forall_mem.mp (by not_written hostOps2))
theorem h2_keep_arg14 : StableHlo.after hostOps2 W (Proc.devRef .tc main_arg14) = W (Proc.devRef .tc main_arg14) :=
  StableHlo.after_of_forall_not_mem (b := Proc.devRef .tc main_arg14) _ _ (List.forall_iff_forall_mem.mp (by not_written hostOps2))

/-! ## After the third launch -/

/-- The scale row after the stretch, as one whole-array expression of the weight and the two running sums. -/
theorem h3_scale_eq : StableHlo.after hostOps3 W (Proc.devRef .tc main_v73)
    = scaleV (W (Proc.devRef .tc main_arg13)) (W (Proc.devRef .tc main_v62_1)) (W (Proc.devRef .tc main_v62_2)) := by
  after_results_simp; rfl

/-- The shift row after the stretch, as one whole-array expression of the offset, the sum and the scale row. -/
theorem h3_shift_eq : StableHlo.after hostOps3 W (Proc.devRef .tc main_v76)
    = shiftV (W (Proc.devRef .tc main_arg14)) (W (Proc.devRef .tc main_v62_1)) (StableHlo.after hostOps3 W (Proc.devRef .tc main_v73)) := by
  rw [h3_scale_eq]; after_results_simp; rfl

theorem h3_scale (k : Fin 128) : StableHlo.after hostOps3 W (Proc.devRef .tc main_v73) (ix2 (0 : Fin 1) k)
    = scaleOf (W (Proc.devRef .tc main_arg13) (ix1 k)) (W (Proc.devRef .tc main_v62_1) (ix2 (0 : Fin 1) k)) (W (Proc.devRef .tc main_v62_2) (ix2 (0 : Fin 1) k)) := by
  rw [h3_scale_eq]; exact scaleV_apply _ _ _ k

theorem h3_shift (k : Fin 128) : StableHlo.after hostOps3 W (Proc.devRef .tc main_v76) (ix2 (0 : Fin 1) k)
    = shiftOf (W (Proc.devRef .tc main_arg14) (ix1 k)) (W (Proc.devRef .tc main_v62_1) (ix2 (0 : Fin 1) k)) (StableHlo.after hostOps3 W (Proc.devRef .tc main_v73) (ix2 (0 : Fin 1) k)) := by
  rw [h3_shift_eq]; exact shiftV_apply _ _ _ k
theorem h3_keep_v62_0 : StableHlo.after hostOps3 W (Proc.devRef .tc main_v62_0) = W (Proc.devRef .tc main_v62_0) :=
  StableHlo.after_of_forall_not_mem (b := Proc.devRef .tc main_v62_0) _ _ (List.forall_iff_forall_mem.mp (by not_written hostOps3))

end Cert.KernelIdeal.Host

end
-- ==== Proof.Region0.lean ====
/-
  What the first stage leaves in its three result arrays, index by index over the extended reals.

  The stage walks the 100000 rows in 20 tiles of 5000 consecutive rows. At each tile it forms the rectified first
  layer h = max (x·wx + v·wv + u·wu + b) 0 of the tile's rows and stores it; it also keeps two running rows of 128
  numbers, the column sums of h and of h·h, set to zero at the first tile and written out once after the last.

  Read here: the value each tile's stores leave, as the tile's arithmetic applied to the seven blocks the tile reads
  (`out_A_7` … `out_B_9`); that arithmetic at an index — a product with a weight table is a sum over the 128 shared
  features, a column sum of a tile is a sum over its 5000 rows (`pay5_apply`, `pay1_apply`, `pay2_apply`); a tile's
  blocks as rows 5000 t … 5000 t + 4999 of the tables, so that each tile's store is the layer at those rows
  (`tileAt_apply`); after tile n the running rows hold the sums over tiles 0 … n (`sums_after`, by induction on the
  tile); the 20 tile sums are the sum over all rows (`sum_tiles`). So the three arrays end holding the layer, its
  column sums and its column sums of squares: `arr_h`, `arr_sum`, `arr_sumsq`.
-/
import proofs.«146512_j36301063586429_1_alg».proof.Proof.Gen.KernelIdeal.Frame
import proofs.«146512_j36301063586429_1_alg».proof.Proof.Spec
import proofs.«146512_j36301063586429_1_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen Cert.NodeMlp

variable {F : FTy → Type} [FloatOps F]

theorem hz : (![0, 0] : Fin 2 → Nat) = fun _ => 0 := funext fun a => by fin_cases a <;> rfl

/-- At the first tile the rectified layer of the seven loaded blocks is what the tile's store leaves. -/
theorem out_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i) (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) :
    out0_A_7 c i arg1 harg1 arg2 harg2 arg3 harg3 arg4 harg4 arg5 harg5 arg6 harg6 arg7 harg7 arg8 harg8 arg9 harg9 arg10 harg10 hc0 x0 x1 x2 x3 x4 x5 x6 = k0_pay5 x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  rw [View.canon_unit_zero hz]
  simp only [View.readAt_eq_ld, harg1.read_unread, harg2.read_unread, harg3.read_unread, harg4.read_unread, harg5.read_unread, harg6.read_unread, harg7.read_unread, View.ld_unit_zero (S := S5000x128) hz, View.ld_unit_zero (S := S128x128) hz, View.ld_unit_zero (S := S1x128) hz]

/-- At the first tile the running column sum is zeroed, read back, and the tile's column sums are added. -/
theorem out_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i) (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) :
    out0_A_8 c i arg1 harg1 arg2 harg2 arg3 harg3 arg4 harg4 arg5 harg5 arg6 harg6 arg7 harg7 arg8 harg8 arg9 harg9 arg10 harg10 hc0 x0 x1 x2 x3 x4 x5 x6 = k0_pay1 (k0_pay5 x0 x1 x2 x3 x4 x5 x6) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S128x128) hz, View.ld_unit_zero (S := S1x128) hz]

/-- At the first tile the running column sum of squares is zeroed, read back, and the tile's are added. -/
theorem out_A_9 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i) (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) :
    out0_A_9 c i arg1 harg1 arg2 harg2 arg3 harg3 arg4 harg4 arg5 harg5 arg6 harg6 arg7 harg7 arg8 harg8 arg9 harg9 arg10 harg10 hc0 x0 x1 x2 x3 x4 x5 x6 = k0_pay2 (k0_pay5 x0 x1 x2 x3 x4 x5 x6) k0_pay4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, harg7.read_unread, View.ld_unit_zero (S := S5000x128) hz, View.ld_unit_zero (S := S128x128) hz, View.ld_unit_zero (S := S1x128) hz]

/-- At a later tile the rectified layer of the seven loaded blocks is what the tile's store leaves. -/
theorem out_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (xo8 xo9 : Vec F S1x128 .f32) :
    out0_B_7 c i arg1 harg1 arg2 harg2 arg3 harg3 arg4 harg4 arg5 harg5 arg6 harg6 arg7 harg7 arg8 harg8 arg9 harg9 arg10 harg10 hc0 x0 x1 x2 x3 x4 x5 x6 xo8 xo9 = k0_pay5 x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  rw [View.canon_unit_zero hz]
  simp only [View.readAt_eq_ld, harg1.read_unread, harg2.read_unread, harg3.read_unread, harg4.read_unread, harg5.read_unread, harg6.read_unread, harg7.read_unread, View.ld_unit_zero (S := S5000x128) hz, View.ld_unit_zero (S := S128x128) hz, View.ld_unit_zero (S := S1x128) hz]

/-- At a later tile the tile's column sums are added onto the running column sum. -/
theorem out_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (xo8 xo9 : Vec F S1x128 .f32) :
    out0_B_8 c i arg1 harg1 arg2 harg2 arg3 harg3 arg4 harg4 arg5 harg5 arg6 harg6 arg7 harg7 arg8 harg8 arg9 harg9 arg10 harg10 hc0 x0 x1 x2 x3 x4 x5 x6 xo8 xo9 = k0_pay1 (k0_pay5 x0 x1 x2 x3 x4 x5 x6) xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  (try sl_unfold_words)
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S128x128) hz, View.ld_unit_zero (S := S1x128) hz]

/-- At a later tile the tile's column sums of squares are added onto the running one. -/
theorem out_B_9 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (xo8 xo9 : Vec F S1x128 .f32) :
    out0_B_9 c i arg1 harg1 arg2 harg2 arg3 harg3 arg4 harg4 arg5 harg5 arg6 harg6 arg7 harg7 arg8 harg8 arg9 harg9 arg10 harg10 hc0 x0 x1 x2 x3 x4 x5 x6 xo8 xo9 = k0_pay2 (k0_pay5 x0 x1 x2 x3 x4 x5 x6) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  (try sl_unfold_words)
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S5000x128) hz, View.ld_unit_zero (S := S128x128) hz, View.ld_unit_zero (S := S1x128) hz]

/-! ## The tile's arithmetic, read at an index over the extended reals -/

/-- A 5000-row tile times a 128×128 weight table, accumulated from zero: entry (p, q) is the sum over the 128
    shared features. -/
theorem matmul_tile_apply {φ₁ φ₂ : FTy} (A : FVec Ideal S5000x128 φ₁) (B : FVec Ideal S128x128 φ₂) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  refine (Ideal.matmul_constant_zero_apply dot_S5000x128_S128x128_S5000x128_1_0_0_1_n_n none A B (ix2 p q)).trans ?_
  rw [← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have l : dot_S5000x128_S128x128_S5000x128_1_0_0_1_n_n.lhsIdx (ix2 p q) ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have r : dot_S5000x128_S128x128_S5000x128_1_0_0_1_n_n.rhsIdx (ix2 p q) ((contrEquiv1 dot_S5000x128_S128x128_S5000x128_1_0_0_1_n_n 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [l, r]

/-- The column sums of a 5000-row tile, laid out as one row: entry (0, q) is the sum of column q. -/
theorem colsum_tile_apply (h : FVec Ideal S5000x128 .f32) (hφ : FKind.Formats .f32)
    (hacc : (0x00000000#32 : BitVec 32) = 0x00000000#32) (q : Fin 128) :
    shapeCast S1x128 (multiReduction (F := Ideal) .add [0] S128 h 0x00000000#32 reduces_S5000x128_S128 hφ hacc) shapeCasts_S128_S1x128
      (ix2 (0 : Fin 1) q) = ∑ p : Fin 5000, h (ix2 p q) := by
  refine (shapeCast_a_1a_apply _ shapeCasts_S128_S1x128 (0 : Fin 1) q).trans ?_
  refine (Ideal.multiReduction_add_single h 0x00000000#32 reduces_S5000x128_S128 hφ hacc (ix1 q)).trans ?_
  refine Finset.sum_congr rfl fun p _ => ?_
  refine congrArg h ?_
  funext ax; apply Fin.ext
  match ax with
  | ⟨0, _⟩ => rfl
  | ⟨1, _⟩ => rfl

/-- The rectified first layer of one tile at (p, q): the three products added in order, the bias, then max · 0. -/
theorem pay5_apply (x0 x1 x2 : Vec Ideal S5000x128 .f32) (x3 x4 x5 : Vec Ideal S128x128 .f32) (x6 : Vec Ideal S1x128 .f32)
    (p : Fin 5000) (q : Fin 128) :
    k0_pay5 x0 x1 x2 x3 x4 x5 x6 (ix2 p q)
      = max ((((∑ k : Fin 128, x0 (ix2 p k) * x3 (ix2 k q)) + (∑ k : Fin 128, x1 (ix2 p k) * x4 (ix2 k q)))
          + (∑ k : Fin 128, x2 (ix2 p k) * x5 (ix2 k q))) + x6 (ix2 (0 : Fin 1) q)) 0 := by
  unfold k0_pay5
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply x6 broadcasts_S1x128_S5000x128 p q)
  refine (addf_apply _ _ _).trans ?_
  refine congrArg₂ (· + ·) ?_ (matmul_tile_apply _ _ p q)
  refine (addf_apply _ _ _).trans ?_
  exact congrArg₂ (· + ·) (matmul_tile_apply _ _ p q) (matmul_tile_apply _ _ p q)

/-- The running column sum after one more tile: what was there plus the tile's column sums. -/
theorem pay1_apply (h : FVec Ideal S5000x128 .f32) (a : Vec Ideal S1x128 .f32) (q : Fin 128) :
    k0_pay1 h a (ix2 (0 : Fin 1) q) = a (ix2 (0 : Fin 1) q) + ∑ p : Fin 5000, h (ix2 p q) := by
  unfold k0_pay1
  simp only [shapeCast_self]
  refine (addf_apply _ _ _).trans ?_
  exact congrArg (a (ix2 (0 : Fin 1) q) + ·) (colsum_tile_apply h _ _ q)

/-- The running column sum of squares after one more tile. -/
theorem pay2_apply (h : FVec Ideal S5000x128 .f32) (a : Vec Ideal S1x128 .f32) (q : Fin 128) :
    k0_pay2 h a (ix2 (0 : Fin 1) q) = a (ix2 (0 : Fin 1) q) + ∑ p : Fin 5000, h (ix2 p q) * h (ix2 p q) := by
  unfold k0_pay2
  simp only [shapeCast_self]
  refine (addf_apply _ _ _).trans ?_
  exact congrArg (a (ix2 (0 : Fin 1) q) + ·) (colsum_tile_apply (mulf h h) _ _ q)

/-- The zeroed running sums are zero. -/
theorem pay3_apply (q : Fin 128) : (k0_pay3 (F := Ideal)) (ix2 (0 : Fin 1) q) = 0 := Ideal.ofBits_zero_f32
theorem pay4_apply (q : Fin 128) : (k0_pay4 (F := Ideal)) (ix2 (0 : Fin 1) q) = 0 := Ideal.ofBits_zero_f32

variable (V : (c : Dev nD) → (b : Ref sig .tc) → Buf (Elt Ideal) ((c : Thread nD τ).loc b)) (c : Dev nD)

/-! ## The windows' blocks as rows of the tables -/

/-- Decided over the 20 points: window 0 is at block (t, 0). -/
theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row p of window 0's tile at point t is row 5000 t + p of its table. -/
theorem iblk_rows0 (t : Fin cfg0.N) (p : Fin 5000) (k : Fin 128) (r : Fin 100000) (hr : r.val = 5000 * t.val + p.val) :
    (iblk0 V c 0 t : Vec Ideal S5000x128 .f32) (ix2 p k) = (V c main_arg0 : S100000x128.Idx → EReal) (ix2 r k) := by
  unfold iblk0
  rw [View.read_apply]
  show V c main_arg0 _ = V c main_arg0 _
  congr 1
  funext a
  apply Fin.ext
  match a with
  | ⟨0, _⟩ => show win0_0.index t 0 * 5000 + 1 * p.val = r.val; rw [(idx_rows0 t).1, hr]; omega
  | ⟨1, _⟩ => show win0_0.index t 1 * 128 + 1 * k.val = k.val; rw [(idx_rows0 t).2]; omega

/-- Decided over the 20 points: window 1 is at block (t, 0). -/
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row p of window 1's tile at point t is row 5000 t + p of its table. -/
theorem iblk_rows1 (t : Fin cfg0.N) (p : Fin 5000) (k : Fin 128) (r : Fin 100000) (hr : r.val = 5000 * t.val + p.val) :
    (iblk0 V c 1 t : Vec Ideal S5000x128 .f32) (ix2 p k) = (V c main_v13 : S100000x128.Idx → EReal) (ix2 r k) := by
  unfold iblk0
  rw [View.read_apply]
  show V c main_v13 _ = V c main_v13 _
  congr 1
  funext a
  apply Fin.ext
  match a with
  | ⟨0, _⟩ => show win0_1.index t 0 * 5000 + 1 * p.val = r.val; rw [(idx_rows1 t).1, hr]; omega
  | ⟨1, _⟩ => show win0_1.index t 1 * 128 + 1 * k.val = k.val; rw [(idx_rows1 t).2]; omega

/-- Decided over the 20 points: window 2 is at block (t, 0). -/
theorem idx_rows2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row p of window 2's tile at point t is row 5000 t + p of its table. -/
theorem iblk_rows2 (t : Fin cfg0.N) (p : Fin 5000) (k : Fin 128) (r : Fin 100000) (hr : r.val = 5000 * t.val + p.val) :
    (iblk0 V c 2 t : Vec Ideal S5000x128 .f32) (ix2 p k) = (V c main_v20 : S100000x128.Idx → EReal) (ix2 r k) := by
  unfold iblk0
  rw [View.read_apply]
  show V c main_v20 _ = V c main_v20 _
  congr 1
  funext a
  apply Fin.ext
  match a with
  | ⟨0, _⟩ => show win0_2.index t 0 * 5000 + 1 * p.val = r.val; rw [(idx_rows2 t).1, hr]; omega
  | ⟨1, _⟩ => show win0_2.index t 1 * 128 + 1 * k.val = k.val; rw [(idx_rows2 t).2]; omega

/-- Decided over the 20 points: window 3 stays at its one block. -/
theorem idx_one3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3's one block is its whole table. -/
theorem iblk_one3 (t : Fin cfg0.N) (a : Fin 128) (b : Fin 128) :
    (iblk0 V c 3 t : Vec Ideal S128x128 .f32) (ix2 a b) = (V c main_v22 : S128x128.Idx → EReal) (ix2 a b) := by
  unfold iblk0
  rw [View.read_apply]
  show V c main_v22 _ = V c main_v22 _
  congr 1
  funext ax
  apply Fin.ext
  match ax with
  | ⟨0, _⟩ => show win0_3.index t 0 * 128 + 1 * a.val = a.val; rw [(idx_one3 t).1]; omega
  | ⟨1, _⟩ => show win0_3.index t 1 * 128 + 1 * b.val = b.val; rw [(idx_one3 t).2]; omega

/-- Decided over the 20 points: window 4 stays at its one block. -/
theorem idx_one4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4's one block is its whole table. -/
theorem iblk_one4 (t : Fin cfg0.N) (a : Fin 128) (b : Fin 128) :
    (iblk0 V c 4 t : Vec Ideal S128x128 .f32) (ix2 a b) = (V c main_v24 : S128x128.Idx → EReal) (ix2 a b) := by
  unfold iblk0
  rw [View.read_apply]
  show V c main_v24 _ = V c main_v24 _
  congr 1
  funext ax
  apply Fin.ext
  match ax with
  | ⟨0, _⟩ => show win0_4.index t 0 * 128 + 1 * a.val = a.val; rw [(idx_one4 t).1]; omega
  | ⟨1, _⟩ => show win0_4.index t 1 * 128 + 1 * b.val = b.val; rw [(idx_one4 t).2]; omega

/-- Decided over the 20 points: window 5 stays at its one block. -/
theorem idx_one5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5's one block is its whole table. -/
theorem iblk_one5 (t : Fin cfg0.N) (a : Fin 128) (b : Fin 128) :
    (iblk0 V c 5 t : Vec Ideal S128x128 .f32) (ix2 a b) = (V c main_v26 : S128x128.Idx → EReal) (ix2 a b) := by
  unfold iblk0
  rw [View.read_apply]
  show V c main_v26 _ = V c main_v26 _
  congr 1
  funext ax
  apply Fin.ext
  match ax with
  | ⟨0, _⟩ => show win0_5.index t 0 * 128 + 1 * a.val = a.val; rw [(idx_one5 t).1]; omega
  | ⟨1, _⟩ => show win0_5.index t 1 * 128 + 1 * b.val = b.val; rw [(idx_one5 t).2]; omega

/-- Decided over the 20 points: window 6 stays at its one block. -/
theorem idx_one6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6's one block is its whole table. -/
theorem iblk_one6 (t : Fin cfg0.N) (a : Fin 1) (b : Fin 128) :
    (iblk0 V c 6 t : Vec Ideal S1x128 .f32) (ix2 a b) = (V c main_v27 : S1x128.Idx → EReal) (ix2 a b) := by
  unfold iblk0
  rw [View.read_apply]
  show V c main_v27 _ = V c main_v27 _
  congr 1
  funext ax
  apply Fin.ext
  match ax with
  | ⟨0, _⟩ => show win0_6.index t 0 * 1 + 1 * a.val = a.val; rw [(idx_one6 t).1]; omega
  | ⟨1, _⟩ => show win0_6.index t 1 * 128 + 1 * b.val = b.val; rw [(idx_one6 t).2]; omega

/-! ## What each point leaves -/

/-- Region 0's rectified first layer as a function of the region-entry tables. -/
def H : Fin 100000 → Fin 128 → EReal :=
  lin3T (fun i k => V c main_arg0 (ix2 i k)) (fun i k => V c main_v13 (ix2 i k)) (fun i k => V c main_v20 (ix2 i k))
    (fun k j => V c main_v22 (ix2 k j)) (fun k j => V c main_v24 (ix2 k j)) (fun k j => V c main_v26 (ix2 k j))
    (fun j => V c main_v27 (ix2 (0 : Fin 1) j))

/-- The tile of the rectified layer that point t computes from its seven blocks. -/
def tileAt (t : Fin cfg0.N) : Vec Ideal S5000x128 .f32 :=
  k0_pay5 (iblk0 V c 0 t) (iblk0 V c 1 t) (iblk0 V c 2 t) (iblk0 V c 3 t) (iblk0 V c 4 t) (iblk0 V c 5 t) (iblk0 V c 6 t)

/-- Entry (p, q) of point t's tile is the layer at row 5000 t + p. -/
theorem tileAt_apply (t : Fin cfg0.N) (t' : Fin 20) (ht : t'.val = t.val) (p : Fin 5000) (q : Fin 128) :
    tileAt V c t (ix2 p q) = H V c (rowOf t' p) q := by
  have hr : (rowOf t' p).val = 5000 * t.val + p.val := by show 5000 * t'.val + p.val = _; rw [ht]
  unfold tileAt
  refine (pay5_apply (iblk0 V c 0 t) (iblk0 V c 1 t) (iblk0 V c 2 t) (iblk0 V c 3 t) (iblk0 V c 4 t) (iblk0 V c 5 t) (iblk0 V c 6 t) p q).trans ?_
  unfold H lin3T
  refine congrArg₂ max ?_ rfl
  refine congrArg₂ (· + ·) (congrArg₂ (· + ·) (congrArg₂ (· + ·) ?_ ?_) ?_) (iblk_one6 V c t (0 : Fin 1) q)
  · exact Finset.sum_congr rfl fun k _ => congrArg₂ (· * ·) (iblk_rows0 V c t p k (rowOf t' p) hr) (iblk_one3 V c t k q)
  · exact Finset.sum_congr rfl fun k _ => congrArg₂ (· * ·) (iblk_rows1 V c t p k (rowOf t' p) hr) (iblk_one4 V c t k q)
  · exact Finset.sum_congr rfl fun k _ => congrArg₂ (· * ·) (iblk_rows2 V c t p k (rowOf t' p) hr) (iblk_one5 V c t k q)

/-- The first point: its tile, and the two running sums started from zero. -/
theorem outs_first (t : Fin cfg0.N) (h0 : t.val % 20 = 0) :
    (outsAt0 V c t.val t.isLt).1 = tileAt V c t
    ∧ (outsAt0 V c t.val t.isLt).2.1 = k0_pay1 (F := Ideal) (tileAt V c t) (k0_pay3 (F := Ideal))
    ∧ (outsAt0 V c t.val t.isLt).2.2 = k0_pay2 (F := Ideal) (tileAt V c t) (k0_pay4 (F := Ideal)) := by
  unfold tileAt
  rw [outsAt0_A V c t h0]
  dsimp only
  refine ⟨?_, ?_, ?_⟩
  · exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)
  · exact out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)
  · exact out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)

/-- A later point: its tile, and the two running sums continued from the point before. -/
theorem outs_later (t : Fin cfg0.N) (h0 : ¬t.val % 20 = 0) :
    (outsAt0 V c t.val t.isLt).1 = tileAt V c t
    ∧ (outsAt0 V c t.val t.isLt).2.1 = k0_pay1 (F := Ideal) (tileAt V c t) (outsAt0 V c (t.val - 1) (Nat.lt_of_le_of_lt (Nat.sub_le _ _) t.isLt)).2.1
    ∧ (outsAt0 V c t.val t.isLt).2.2 = k0_pay2 (F := Ideal) (tileAt V c t) (outsAt0 V c (t.val - 1) (Nat.lt_of_le_of_lt (Nat.sub_le _ _) t.isLt)).2.2 := by
  unfold tileAt
  rw [outsAt0_B V c t h0]
  dsimp only
  refine ⟨?_, ?_, ?_⟩
  · exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2
  · exact out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2
  · exact out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2

/-- Every point leaves its own tile in the first output. -/
theorem outs_tile (t : Fin cfg0.N) : (outsAt0 V c t.val t.isLt).1 = tileAt V c t := by
  by_cases h0 : t.val % 20 = 0
  · exact (outs_first V c t h0).1
  · exact (outs_later V c t h0).1

/-! ## The running sums after each point -/

/-- Column q summed over tile t of the layer (zero past the 20 tiles). -/
def tileSum (q : Fin 128) (t : ℕ) : EReal := if ht : t < 20 then ∑ p : Fin 5000, H V c (rowOf ⟨t, ht⟩ p) q else 0

/-- Column q's squares summed over tile t of the layer (zero past the 20 tiles). -/
def tileSumSq (q : Fin 128) (t : ℕ) : EReal :=
  if ht : t < 20 then ∑ p : Fin 5000, H V c (rowOf ⟨t, ht⟩ p) q * H V c (rowOf ⟨t, ht⟩ p) q else 0

theorem colsum_tileAt (t : Fin cfg0.N) (ht : t.val < 20) (q : Fin 128) :
    ∑ p : Fin 5000, tileAt V c t (ix2 p q) = tileSum V c q t.val := by
  unfold tileSum
  rw [dif_pos ht]
  exact Finset.sum_congr rfl fun p _ => tileAt_apply V c t ⟨t.val, ht⟩ rfl p q

theorem colsumsq_tileAt (t : Fin cfg0.N) (ht : t.val < 20) (q : Fin 128) :
    ∑ p : Fin 5000, tileAt V c t (ix2 p q) * tileAt V c t (ix2 p q) = tileSumSq V c q t.val := by
  unfold tileSumSq
  rw [dif_pos ht]
  exact Finset.sum_congr rfl fun p _ =>
    congrArg₂ (· * ·) (tileAt_apply V c t ⟨t.val, ht⟩ rfl p q) (tileAt_apply V c t ⟨t.val, ht⟩ rfl p q)

/-- After point n the two running sums hold the sums over tiles 0 … n: by induction on the point. -/
theorem sums_after (q : Fin 128) : ∀ (n : ℕ) (h : n < cfg0.N),
    (outsAt0 V c n h).2.1 (ix2 (0 : Fin 1) q) = ∑ t ∈ Finset.range (n + 1), tileSum V c q t
    ∧ (outsAt0 V c n h).2.2 (ix2 (0 : Fin 1) q) = ∑ t ∈ Finset.range (n + 1), tileSumSq V c q t
  | 0, h => by
    have hN : cfg0.N = 20 := N_0
    obtain ⟨-, e8, e9⟩ := outs_first V c ⟨0, h⟩ rfl
    constructor
    · rw [Finset.sum_range_one]
      refine (congrFun e8 (ix2 (0 : Fin 1) q)).trans ?_
      refine (pay1_apply (tileAt V c ⟨0, h⟩) (k0_pay3 (F := Ideal)) q).trans ?_
      rw [pay3_apply, zero_add]
      exact colsum_tileAt V c ⟨0, h⟩ (by show 0 < 20; decide) q
    · rw [Finset.sum_range_one]
      refine (congrFun e9 (ix2 (0 : Fin 1) q)).trans ?_
      refine (pay2_apply (tileAt V c ⟨0, h⟩) (k0_pay4 (F := Ideal)) q).trans ?_
      rw [pay4_apply, zero_add]
      exact colsumsq_tileAt V c ⟨0, h⟩ (by show 0 < 20; decide) q
  | n + 1, h => by
    have hN : cfg0.N = 20 := N_0
    have hB : ¬(⟨n + 1, h⟩ : Fin cfg0.N).val % 20 = 0 := by dsimp only; omega
    obtain ⟨-, e8, e9⟩ := outs_later V c ⟨n + 1, h⟩ hB
    obtain ⟨i8, i9⟩ := sums_after q n (Nat.lt_of_succ_lt h)
    constructor
    · rw [Finset.sum_range_succ]
      refine (congrFun e8 (ix2 (0 : Fin 1) q)).trans ?_
      refine (pay1_apply (tileAt V c ⟨n + 1, h⟩) _ q).trans ?_
      exact congrArg₂ (· + ·) i8 (colsum_tileAt V c ⟨n + 1, h⟩ (by dsimp only; omega) q)
    · rw [Finset.sum_range_succ]
      refine (congrFun e9 (ix2 (0 : Fin 1) q)).trans ?_
      refine (pay2_apply (tileAt V c ⟨n + 1, h⟩) _ q).trans ?_
      exact congrArg₂ (· + ·) i9 (colsumsq_tileAt V c ⟨n + 1, h⟩ (by dsimp only; omega) q)

/-! ## From the written-back blocks to the three arrays -/

/-- The 20 tile sums of column q add up to the column's sum over all rows. -/
theorem sum_tileSum (q : Fin 128) : ∑ t ∈ Finset.range 20, tileSum V c q t = colSum (H V c) q := by
  rw [Finset.sum_range]
  unfold colSum
  refine Eq.trans ?_ (sum_tiles (fun i => H V c i q))
  exact Finset.sum_congr rfl fun t _ => dif_pos t.isLt

/-- The 20 tile sums of column q's squares add up to the column's sum of squares over all rows. -/
theorem sum_tileSumSq (q : Fin 128) : ∑ t ∈ Finset.range 20, tileSumSq V c q t = colSumSq (H V c) q := by
  rw [Finset.sum_range]
  unfold colSumSq
  refine Eq.trans ?_ (sum_tiles (fun i => H V c i q * H V c i q))
  exact Finset.sum_congr rfl fun t _ => dif_pos t.isLt

/-- The rectified layer as the contents of the [100000,128] result. -/
def G7 : S100000x128.Idx → EReal := fun i => H V c (i 0) (i 1)
/-- The column sums as the contents of the first [1,128] result. -/
def G8 : S1x128.Idx → EReal := fun i => colSum (H V c) (i 1)
/-- The column sums of squares as the contents of the second [1,128] result. -/
def G9 : S1x128.Idx → EReal := fun i => colSumSq (H V c) (i 1)

/-- Decided over the 20 points: the layer's window is at block (t, 0). -/
theorem idx_rows7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- A write-back of the layer's window writes the whole staged tile. -/
theorem cut7 (t : Fin cfg0.N) (X : Vec Ideal S5000x128 .f32) : (cfg0.win 7).cut (grid0.coords t) X = X := rfl

/-- Block t of a [100000,128] table read through the layer's window: row p is row 5000 t + p. -/
theorem read_rows7 (t : Fin cfg0.N) (G : S100000x128.Idx → EReal) (p : Fin 5000) (q : Fin 128) (r : Fin 100000)
    (hr : r.val = 5000 * t.val + p.val) :
    (((cfg0.win 7).blk t).view.read (Elt Ideal) G : Vec Ideal S5000x128 .f32) (ix2 p q) = G (ix2 r q) := by
  rw [View.read_apply]
  show G _ = G _
  congr 1
  funext a
  apply Fin.ext
  match a with
  | ⟨0, _⟩ => show win0_7.index t 0 * 5000 + 1 * p.val = r.val; rw [(idx_rows7 t).1, hr]; omega
  | ⟨1, _⟩ => show win0_7.index t 1 * 128 + 1 * q.val = q.val; rw [(idx_rows7 t).2]; omega

/-- What point t writes back of the layer is block t of the layer. -/
theorem flushed7 (t : Fin cfg0.N) (hf : (cfg0.win 7).flush t = true) :
    (dat0 V c).flushed 7 t = ((cfg0.win 7).blk t).view.read (Elt Ideal) (G7 V c) := by
  have hN : cfg0.N = 20 := N_0
  have ht : t.val < 20 := hN ▸ t.isLt
  show (cfg0.win 7).cut (grid0.coords t) ((dat0 V c).after 7 t) = _
  rw [after0_7, outs_tile]
  refine (cut7 t (tileAt V c t)).trans ?_
  refine funext fun (y : S5000x128.Idx) => ?_
  obtain ⟨p, q, rfl⟩ : ∃ (p : Fin 5000) (q : Fin 128), y = ix2 p q := ⟨y 0, y 1, eq_ix2 y⟩
  exact (tileAt_apply V c t ⟨t.val, ht⟩ rfl p q).trans (read_rows7 t (G7 V c) p q (rowOf ⟨t.val, ht⟩ p) rfl).symm

/-- An index of the [100000,128] array is in point t's block iff each coordinate is in the block's range. -/
theorem mem_blk7 (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v32_0).slice (win0_7.rect t)).set ↔ _
  rw [View.set_slice_whole, Rect.mem_set_unit]
  exact Iff.rfl

/-- Row r of the array is in the block of point r / 5000. -/
theorem cover7 (i : S100000x128.Idx) :
    ∃ t : Fin cfg0.N, (cfg0.win 7).flush t = true ∧ i ∈ ((cfg0.win 7).blk t).view.set := by
  have hN : cfg0.N = 20 := N_0
  have hi0 : (i 0).val < 100000 := idx2_lt0 i
  have hi1 : (i 1).val < 128 := idx2_lt1 i
  have hlt : (i 0).val / 5000 < cfg0.N := by rw [hN]; omega
  refine ⟨⟨(i 0).val / 5000, hlt⟩, flush0_7 _, ?_⟩
  rw [mem_blk7]
  obtain ⟨e0, e1⟩ := idx_rows7 ⟨(i 0).val / 5000, hlt⟩
  intro a
  match a with
  | ⟨0, _⟩ =>
    show win0_7.index ⟨(i 0).val / 5000, hlt⟩ 0 * 5000 ≤ (i 0).val ∧ (i 0).val < win0_7.index ⟨(i 0).val / 5000, hlt⟩ 0 * 5000 + 5000
    rw [e0]; show (i 0).val / 5000 * 5000 ≤ (i 0).val ∧ (i 0).val < (i 0).val / 5000 * 5000 + 5000; omega
  | ⟨1, _⟩ =>
    show win0_7.index ⟨(i 0).val / 5000, hlt⟩ 1 * 128 ≤ (i 1).val ∧ (i 1).val < win0_7.index ⟨(i 0).val / 5000, hlt⟩ 1 * 128 + 128
    rw [e1]; omega

/-- The [100000,128] result ends holding the rectified layer. -/
theorem arr_h (i : Fin 100000) (j : Fin 128) : (dat0 V c).arrAt 7 cfg0.N (ix2 i j) = H V c i j :=
  congrFun ((dat0 V c).arrAt_eq_of_cover 7 (G7 V c) (flushed7 V c) cover7) (ix2 i j)

/-- Decided over the 20 points: window 8 stays at its one block. -/
theorem idx_one8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- A write-back of window 8 writes the whole staged row. -/
theorem cut8 (t : Fin cfg0.N) (X : Vec Ideal S1x128 .f32) : (cfg0.win 8).cut (grid0.coords t) X = X := rfl

/-- Window 8's one block read through the window is the [1,128] table itself. -/
theorem read_one8 (t : Fin cfg0.N) (G : S1x128.Idx → EReal) (q : Fin 128) :
    (((cfg0.win 8).blk t).view.read (Elt Ideal) G : Vec Ideal S1x128 .f32) (ix2 (0 : Fin 1) q) = G (ix2 (0 : Fin 1) q) := by
  rw [View.read_apply]
  show G _ = G _
  congr 1
  funext a
  apply Fin.ext
  match a with
  | ⟨0, _⟩ => show win0_8.index t 0 * 1 + 1 * 0 = 0; rw [(idx_one8 t).1]
  | ⟨1, _⟩ => show win0_8.index t 1 * 128 + 1 * q.val = q.val; rw [(idx_one8 t).2]; omega

/-- The one write-back of window 8, after the last point, writes the sums over all 20 tiles. -/
theorem flushed8 (t : Fin cfg0.N) (hf : (cfg0.win 8).flush t = true) :
    (dat0 V c).flushed 8 t = ((cfg0.win 8).blk t).view.read (Elt Ideal) (G8 V c) := by
  have hN : cfg0.N = 20 := N_0
  have h19 : t.val = 19 := by have := (flush0_8 t).mp hf; have := t.isLt; omega
  show (cfg0.win 8).cut (grid0.coords t) ((dat0 V c).after 8 t) = _
  rw [after0_8]
  refine (cut8 t _).trans ?_
  refine funext fun (y : S1x128.Idx) => ?_
  obtain ⟨u, q, rfl⟩ : ∃ (u : Fin 1) (q : Fin 128), y = ix2 u q := ⟨y 0, y 1, eq_ix2 y⟩
  obtain rfl : u = 0 := Subsingleton.elim _ _
  refine ((sums_after V c q t.val t.isLt).1).trans ?_
  refine Eq.trans ?_ (read_one8 t (G8 V c) q).symm
  rw [h19]
  exact sum_tileSum V c q

/-- An index of the [1,128] array is in point t's block iff each coordinate is in the block's range. -/
theorem mem_blk8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v32_1).slice (win0_8.rect t)).set ↔ _
  rw [View.set_slice_whole, Rect.mem_set_unit]
  exact Iff.rfl

/-- The last point's block is the whole [1,128] array. -/
theorem cover8 (i : S1x128.Idx) :
    ∃ t : Fin cfg0.N, (cfg0.win 8).flush t = true ∧ i ∈ ((cfg0.win 8).blk t).view.set := by
  have hN : cfg0.N = 20 := N_0
  have hi0 : (i 0).val < 1 := idx2_lt0 i
  have hi1 : (i 1).val < 128 := idx2_lt1 i
  have hlt : 19 < cfg0.N := by rw [hN]; decide
  refine ⟨⟨19, hlt⟩, (flush0_8 _).mpr rfl, ?_⟩
  rw [mem_blk8]
  obtain ⟨e0, e1⟩ := idx_one8 ⟨19, hlt⟩
  intro a
  match a with
  | ⟨0, _⟩ =>
    show win0_8.index ⟨19, hlt⟩ 0 * 1 ≤ (i 0).val ∧ (i 0).val < win0_8.index ⟨19, hlt⟩ 0 * 1 + 1
    rw [e0]; omega
  | ⟨1, _⟩ =>
    show win0_8.index ⟨19, hlt⟩ 1 * 128 ≤ (i 1).val ∧ (i 1).val < win0_8.index ⟨19, hlt⟩ 1 * 128 + 128
    rw [e1]; omega

/-- Decided over the 20 points: window 9 stays at its one block. -/
theorem idx_one9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- A write-back of window 9 writes the whole staged row. -/
theorem cut9 (t : Fin cfg0.N) (X : Vec Ideal S1x128 .f32) : (cfg0.win 9).cut (grid0.coords t) X = X := rfl

/-- Window 9's one block read through the window is the [1,128] table itself. -/
theorem read_one9 (t : Fin cfg0.N) (G : S1x128.Idx → EReal) (q : Fin 128) :
    (((cfg0.win 9).blk t).view.read (Elt Ideal) G : Vec Ideal S1x128 .f32) (ix2 (0 : Fin 1) q) = G (ix2 (0 : Fin 1) q) := by
  rw [View.read_apply]
  show G _ = G _
  congr 1
  funext a
  apply Fin.ext
  match a with
  | ⟨0, _⟩ => show win0_9.index t 0 * 1 + 1 * 0 = 0; rw [(idx_one9 t).1]
  | ⟨1, _⟩ => show win0_9.index t 1 * 128 + 1 * q.val = q.val; rw [(idx_one9 t).2]; omega

/-- The one write-back of window 9, after the last point, writes the sums over all 20 tiles. -/
theorem flushed9 (t : Fin cfg0.N) (hf : (cfg0.win 9).flush t = true) :
    (dat0 V c).flushed 9 t = ((cfg0.win 9).blk t).view.read (Elt Ideal) (G9 V c) := by
  have hN : cfg0.N = 20 := N_0
  have h19 : t.val = 19 := by have := (flush0_9 t).mp hf; have := t.isLt; omega
  show (cfg0.win 9).cut (grid0.coords t) ((dat0 V c).after 9 t) = _
  rw [after0_9]
  refine (cut9 t _).trans ?_
  refine funext fun (y : S1x128.Idx) => ?_
  obtain ⟨u, q, rfl⟩ : ∃ (u : Fin 1) (q : Fin 128), y = ix2 u q := ⟨y 0, y 1, eq_ix2 y⟩
  obtain rfl : u = 0 := Subsingleton.elim _ _
  refine ((sums_after V c q t.val t.isLt).2).trans ?_
  refine Eq.trans ?_ (read_one9 t (G9 V c) q).symm
  rw [h19]
  exact sum_tileSumSq V c q

/-- An index of the [1,128] array is in point t's block iff each coordinate is in the block's range. -/
theorem mem_blk9 (t : Fin cfg0.N) (i : S1x128.Idx) :
    i ∈ ((cfg0.win 9).blk t).view.set ↔ ∀ a : Fin 2, win0_9.index t a * S1x128.size a ≤ (i a).val
      ∧ (i a).val < win0_9.index t a * S1x128.size a + S1x128.size a := by
  show i ∈ ((View.whole main_v32_2).slice (win0_9.rect t)).set ↔ _
  rw [View.set_slice_whole, Rect.mem_set_unit]
  exact Iff.rfl

/-- The last point's block is the whole [1,128] array. -/
theorem cover9 (i : S1x128.Idx) :
    ∃ t : Fin cfg0.N, (cfg0.win 9).flush t = true ∧ i ∈ ((cfg0.win 9).blk t).view.set := by
  have hN : cfg0.N = 20 := N_0
  have hi0 : (i 0).val < 1 := idx2_lt0 i
  have hi1 : (i 1).val < 128 := idx2_lt1 i
  have hlt : 19 < cfg0.N := by rw [hN]; decide
  refine ⟨⟨19, hlt⟩, (flush0_9 _).mpr rfl, ?_⟩
  rw [mem_blk9]
  obtain ⟨e0, e1⟩ := idx_one9 ⟨19, hlt⟩
  intro a
  match a with
  | ⟨0, _⟩ =>
    show win0_9.index ⟨19, hlt⟩ 0 * 1 ≤ (i 0).val ∧ (i 0).val < win0_9.index ⟨19, hlt⟩ 0 * 1 + 1
    rw [e0]; omega
  | ⟨1, _⟩ =>
    show win0_9.index ⟨19, hlt⟩ 1 * 128 ≤ (i 1).val ∧ (i 1).val < win0_9.index ⟨19, hlt⟩ 1 * 128 + 128
    rw [e1]; omega

/-- The first [1,128] result ends holding the layer's column sums. -/
theorem arr_sum (j : Fin 128) : (dat0 V c).arrAt 8 cfg0.N (ix2 (0 : Fin 1) j) = colSum (H V c) j :=
  congrFun ((dat0 V c).arrAt_eq_of_cover 8 (G8 V c) (flushed8 V c) cover8) (ix2 (0 : Fin 1) j)

/-- The second [1,128] result ends holding the layer's column sums of squares. -/
theorem arr_sumsq (j : Fin 128) : (dat0 V c).arrAt 9 cfg0.N (ix2 (0 : Fin 1) j) = colSumSq (H V c) j :=
  congrFun ((dat0 V c).arrAt_eq_of_cover 9 (G9 V c) (flushed9 V c) cover9) (ix2 (0 : Fin 1) j)

end Cert.KernelIdeal.R0

end
-- ==== Proof.Region1.lean ====
import proofs.«146512_j36301063586429_1_alg».proof.Proof.Gen.KernelIdeal.Frame
import proofs.«146512_j36301063586429_1_alg».proof.Proof.Spec
import proofs.«146512_j36301063586429_1_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  Region 1: a linear layer with its rectifier over a table of 100000 rows, computed in 20 tiles of 5000 rows, with the
  column sums and column sums of squares of the result accumulated across the tiles.

  Each grid point sends its tile `h` through `max ((h · scale + shift) · w + bias) 0`, writes the tile back, and adds the
  tile's column sums (and column sums of squares) to two running rows that are reset to zero at the first point and
  written back once, after the last. Read index by index over the extended reals:

  * the tile array ends holding `H`, the layer of every row;
  * the first running row ends holding `colSum H`: the sums over the 20 tiles, taken in order from zero, are the sums
    over all 100000 rows;
  * the second ends holding `colSumSq H` likewise.
-/

noncomputable section

open Idealize.ShloMosaic Idealize.ShloMosaic.TcCoe Idealize.SL.Sem Idealize.ShloMosaic.ValueIdx Cert.KernelIdeal Cert.KernelIdeal.Gen Cert.NodeMlp
open Idealize.ShloMosaic.Pipeline (Dat)

namespace Cert.KernelIdeal.R1

section Cases
variable {F : FTy → Type} [FloatOps F]

theorem hz : (![0, 0] : Fin 2 → Nat) = fun _ => 0 := funext fun a => by fin_cases a <;> rfl

/-- Every point but the first: the tile's rectified layer is the one store into the tile window. -/
theorem out_B_5 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S5000x128 .f32) (x1 : Vec F S1x128 .f32) (x2 : Vec F S1x128 .f32) (x3 : Vec F S128x128 .f32) (x4 : Vec F S1x128 .f32) (xo6 xo7 : Vec F S1x128 .f32) :
    out1_B_5 c i a1 h1 a2 h2 a3 h3 a4 h4 a5 h5 a6 h6 a7 h7 a8 h8 hc x0 x1 x2 x3 x4 xo6 xo7 = k1_pay4 x0 x1 x2 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- Every point but the first: the running column sum gains the tile's column sums. -/
theorem out_B_6 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S5000x128 .f32) (x1 : Vec F S1x128 .f32) (x2 : Vec F S1x128 .f32) (x3 : Vec F S128x128 .f32) (x4 : Vec F S1x128 .f32) (xo6 xo7 : Vec F S1x128 .f32) :
    out1_B_6 c i a1 h1 a2 h2 a3 h3 a4 h4 a5 h5 a6 h6 a7 h7 a8 h8 hc x0 x1 x2 x3 x4 xo6 xo7 = k1_pay5 x0 x1 x2 x3 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- Every point but the first: the running column sum of squares gains the tile's. -/
theorem out_B_7 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 : Vec F S5000x128 .f32) (x1 : Vec F S1x128 .f32) (x2 : Vec F S1x128 .f32) (x3 : Vec F S128x128 .f32) (x4 : Vec F S1x128 .f32) (xo6 xo7 : Vec F S1x128 .f32) :
    out1_B_7 c i a1 h1 a2 h2 a3 h3 a4 h4 a5 h5 a6 h6 a7 h7 a8 h8 hc x0 x1 x2 x3 x4 xo6 xo7 = k1_pay1 (k1_pay4 x0 x1 x2 x3 x4) (k1_pay6 xo7) := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only

  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- The first point: the tile's rectified layer is the one store into the tile window. -/
theorem out_A_5 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 : Vec F S5000x128 .f32) (x1 : Vec F S1x128 .f32) (x2 : Vec F S1x128 .f32) (x3 : Vec F S128x128 .f32) (x4 : Vec F S1x128 .f32) :
    out1_A_5 c i a1 h1 a2 h2 a3 h3 a4 h4 a5 h5 a6 h6 a7 h7 a8 h8 hc x0 x1 x2 x3 x4 = k1_pay4 x0 x1 x2 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- The first point: the running column sum is reset to zero and then gains the tile's column sums. -/
theorem out_A_6 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 : Vec F S5000x128 .f32) (x1 : Vec F S1x128 .f32) (x2 : Vec F S1x128 .f32) (x3 : Vec F S128x128 .f32) (x4 : Vec F S1x128 .f32) :
    out1_A_6 c i a1 h1 a2 h2 a3 h3 a4 h4 a5 h5 a6 h6 a7 h7 a8 h8 hc x0 x1 x2 x3 x4 = k1_pay5 x0 x1 x2 x3 x4 k1_pay2 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz]

  rw [View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- The first point: the running column sum of squares is reset to zero and then gains the tile's. -/
theorem out_A_7 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 : Vec F S5000x128 .f32) (x1 : Vec F S1x128 .f32) (x2 : Vec F S1x128 .f32) (x3 : Vec F S128x128 .f32) (x4 : Vec F S1x128 .f32) :
    out1_A_7 c i a1 h1 a2 h2 a3 h3 a4 h4 a5 h5 a6 h6 a7 h7 a8 h8 hc x0 x1 x2 x3 x4 = k1_pay1 (k1_pay4 x0 x1 x2 x3 x4) (k1_pay6 k1_pay3) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz]

  rw [View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

end Cases

section Payloads

/-- The dot's left index on the row axis is the output's row. -/
theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The dot's right index on the column axis is the output's column. -/
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times the weight table, into zero, at an index: the sum over the 128 input features. -/
theorem matmul_tile_apply {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact dot_lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl _ _).trans hk
    | ⟨1, _⟩ => exact dot_rhs_1 _ _)
  rw [el, er]

/-- A column sum over a tile's 5000 rows, kept as a one-row table. -/
theorem tile_colsum_apply (v : FVec Ideal S5000x128 .f32) (hφ : FKind.Formats .f32)
    (hacc : (0x00000000#32 : BitVec 32) = FKind.add.neutral .f32 hφ) (q : Fin 128) :
    shapeCast S1x128 (multiReduction .add [0] S128 v 0x00000000#32 reduces_S5000x128_S128 hφ hacc) shapeCasts_S128_S1x128 (ix2 (0 : Fin 1) q)
      = ∑ p : Fin 5000, v (ix2 p q) := by
  refine (shapeCast_a_1a_apply _ shapeCasts_S128_S1x128 (0 : Fin 1) q).trans ?_
  refine (Ideal.multiReduction_add_single v 0x00000000#32 reduces_S5000x128_S128 hφ hacc (ix1 q)).trans ?_
  refine Finset.sum_congr rfl fun p _ => congrArg v (funext fun ax => Fin.ext (by
    match ax with
    | ⟨0, _⟩ => rfl
    | ⟨1, _⟩ => rfl))

/-- The tile's rectified layer at an index. -/
theorem pay4_apply (x0 : FVec Ideal S5000x128 .f32) (x1 x2 : FVec Ideal S1x128 .f32) (x3 : FVec Ideal S128x128 .f32) (x4 : FVec Ideal S1x128 .f32) (p : Fin 5000) (q : Fin 128) :
    k1_pay4 x0 x1 x2 x3 x4 (ix2 p q)
      = max ((∑ k : Fin 128, (x0 (ix2 p k) * x1 (ix2 (0 : Fin 1) k) + x2 (ix2 (0 : Fin 1) k)) * x3 (ix2 k q)) + x4 (ix2 (0 : Fin 1) q)) 0 := by
  unfold k1_pay4
  simp only [shapeCast_self, maximumf_apply, addf_apply, broadcast_apply, broadcastTo_1b_ab_apply, matmul_tile_apply, truncf_apply, mulf_apply]
  exact congrArg _ Ideal.ofBits_zero_f32

/-- The zero the running column sum is reset to. -/
theorem pay2_apply (q : Fin 128) : (k1_pay2 : FVec Ideal S1x128 .f32) (ix2 (0 : Fin 1) q) = 0 := Ideal.ofBits_zero_f32

/-- The zero the running column sum of squares is reset to. -/
theorem pay3_apply (q : Fin 128) : (k1_pay3 : FVec Ideal S1x128 .f32) (ix2 (0 : Fin 1) q) = 0 := Ideal.ofBits_zero_f32

/-- The tile's rectified layer as the layer of the table row it is a tile of. -/
theorem pay4_eq_linT (x0 : FVec Ideal S5000x128 .f32) (x1 x2 : FVec Ideal S1x128 .f32) (x3 : FVec Ideal S128x128 .f32) (x4 : FVec Ideal S1x128 .f32)
    (A : Fin 100000 → Fin 128 → EReal) (s b' : Fin 128 → EReal) (W : Fin 128 → Fin 128 → EReal) (b : Fin 128 → EReal)
    (i : Fin 100000) (p : Fin 5000) (q : Fin 128)
    (h0 : ∀ k, x0 (ix2 p k) = A i k) (h1 : ∀ k, x1 (ix2 (0 : Fin 1) k) = s k) (h2 : ∀ k, x2 (ix2 (0 : Fin 1) k) = b' k)
    (h3 : ∀ k j, x3 (ix2 k j) = W k j) (h4 : ∀ j, x4 (ix2 (0 : Fin 1) j) = b j) :
    k1_pay4 (F := Ideal) x0 x1 x2 x3 x4 (ix2 p q) = linT (affine A s b') W b i q := by
  rw [pay4_apply]
  unfold linT affine
  simp only [h0, h1, h2, h3, h4]

/-- The running column sum after a tile: what it held plus the tile's column sum. -/
theorem pay5_eq (x0 : FVec Ideal S5000x128 .f32) (x1 x2 : FVec Ideal S1x128 .f32) (x3 : FVec Ideal S128x128 .f32) (x4 : FVec Ideal S1x128 .f32) (acc : FVec Ideal S1x128 .f32) (q : Fin 128) (a : EReal) (g : Fin 5000 → EReal)
    (hacc : acc (ix2 (0 : Fin 1) q) = a) (hg : ∀ p, k1_pay4 (F := Ideal) x0 x1 x2 x3 x4 (ix2 p q) = g p) :
    k1_pay5 (F := Ideal) x0 x1 x2 x3 x4 acc (ix2 (0 : Fin 1) q) = a + ∑ p : Fin 5000, g p := by
  unfold k1_pay5
  simp only [shapeCast_self, addf_apply, hacc]
  refine congrArg (a + ·) ?_
  refine (tile_colsum_apply (k1_pay4 (F := Ideal) x0 x1 x2 x3 x4) _ _ q).trans ?_
  exact Finset.sum_congr rfl fun p _ => hg p

/-- The running column sum of squares after a tile: what it held plus the tile's column sum of squares. -/
theorem pay1_eq (v : FVec Ideal S5000x128 .f32) (acc : FVec Ideal S1x128 .f32) (q : Fin 128) (a : EReal) (g : Fin 5000 → EReal)
    (hacc : acc (ix2 (0 : Fin 1) q) = a) (hg : ∀ p, v (ix2 p q) = g p) :
    k1_pay1 (F := Ideal) v (k1_pay6 acc) (ix2 (0 : Fin 1) q) = a + ∑ p : Fin 5000, g p * g p := by
  unfold k1_pay1 k1_pay6
  simp only [shapeCast_self, addf_apply, hacc]
  refine congrArg (a + ·) ?_
  refine (tile_colsum_apply (mulf v v) _ _ q).trans ?_
  exact Finset.sum_congr rfl fun p _ => by rw [mulf_apply, hg p]

end Payloads

section Region
variable (V : (c : Dev nD) → (b : Ref sig .tc) → Buf (Elt Ideal) ((c : Thread nD τ).loc b)) (c : Dev nD)

/-- Region 1's rectified layer as a function of the region-entry tables. -/
def H : Fin 100000 → Fin 128 → EReal :=
  linT (affine (fun i k => V c main_v32_0 (ix2 i k)) (fun k => V c main_v43 (ix2 (0 : Fin 1) k)) (fun k => V c main_v46 (ix2 (0 : Fin 1) k)))
    (fun k j => V c main_v28 (ix2 k j)) (fun j => V c main_v29 (ix2 (0 : Fin 1) j))

/-! ## The windows' blocks, read off the tables -/

/-- The tile windows move one block of 5000 rows per grid point. -/
theorem idx_tile : ∀ t : Fin cfg1.N, win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

/-- The other windows keep their one block. -/
theorem idx_one : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem hN : cfg1.N = 20 := N_1

/-- A grid point as one of the 20 tiles. -/
def tileOf (t : Fin cfg1.N) : Fin 20 := ⟨t.val, lt_of_lt_of_eq t.isLt hN⟩

/-- The input tile at point `t` is rows 5000 t … 5000 t + 4999 of its table. -/
theorem read_blk0 (t : Fin cfg1.N) (A : S100000x128.Idx → EReal) (p : Fin 5000) (k : Fin 128) :
    ((cfg1.win 0).blk t).view.read (Elt Ideal) A (ix2 p k) = A (ix2 (rowOf (tileOf t) p) k) := by
  obtain ⟨e0, e1, -, -⟩ := idx_tile t
  rw [View.read_apply]
  show A (((cfg1.win 0).blk t).view.emb (ix2 p k)) = _
  refine congrArg A (funext fun ax => Fin.ext ?_)
  match ax with
  | ⟨0, _⟩ => show win1_0.index t (0 : Fin 2) * 5000 + 1 * p.val = 5000 * t.val + p.val; omega
  | ⟨1, _⟩ => show win1_0.index t (1 : Fin 2) * 128 + 1 * k.val = k.val; omega

/-- Window 1's one block is its one-row table. -/
theorem read_blk1 (t : Fin cfg1.N) (A : S1x128.Idx → EReal) (k : Fin 128) :
    ((cfg1.win 1).blk t).view.read (Elt Ideal) A (ix2 (0 : Fin 1) k) = A (ix2 (0 : Fin 1) k) := by
  obtain ⟨e10, e11, e20, e21, e30, e31, e40, e41, e60, e61, e70, e71⟩ := idx_one t
  rw [View.read_apply]
  show A (((cfg1.win 1).blk t).view.emb (ix2 (0 : Fin 1) k)) = _
  refine congrArg A (funext fun ax => Fin.ext ?_)
  match ax with
  | ⟨0, _⟩ => show win1_1.index t (0 : Fin 2) * 1 + 1 * 0 = 0; omega
  | ⟨1, _⟩ => show win1_1.index t (1 : Fin 2) * 128 + 1 * k.val = k.val; omega

/-- Window 2's one block is its one-row table. -/
theorem read_blk2 (t : Fin cfg1.N) (A : S1x128.Idx → EReal) (k : Fin 128) :
    ((cfg1.win 2).blk t).view.read (Elt Ideal) A (ix2 (0 : Fin 1) k) = A (ix2 (0 : Fin 1) k) := by
  obtain ⟨e10, e11, e20, e21, e30, e31, e40, e41, e60, e61, e70, e71⟩ := idx_one t
  rw [View.read_apply]
  show A (((cfg1.win 2).blk t).view.emb (ix2 (0 : Fin 1) k)) = _
  refine congrArg A (funext fun ax => Fin.ext ?_)
  match ax with
  | ⟨0, _⟩ => show win1_2.index t (0 : Fin 2) * 1 + 1 * 0 = 0; omega
  | ⟨1, _⟩ => show win1_2.index t (1 : Fin 2) * 128 + 1 * k.val = k.val; omega

/-- Window 4's one block is its one-row table. -/
theorem read_blk4 (t : Fin cfg1.N) (A : S1x128.Idx → EReal) (k : Fin 128) :
    ((cfg1.win 4).blk t).view.read (Elt Ideal) A (ix2 (0 : Fin 1) k) = A (ix2 (0 : Fin 1) k) := by
  obtain ⟨e10, e11, e20, e21, e30, e31, e40, e41, e60, e61, e70, e71⟩ := idx_one t
  rw [View.read_apply]
  show A (((cfg1.win 4).blk t).view.emb (ix2 (0 : Fin 1) k)) = _
  refine congrArg A (funext fun ax => Fin.ext ?_)
  match ax with
  | ⟨0, _⟩ => show win1_4.index t (0 : Fin 2) * 1 + 1 * 0 = 0; omega
  | ⟨1, _⟩ => show win1_4.index t (1 : Fin 2) * 128 + 1 * k.val = k.val; omega

/-- The weight window's one block is the weight table. -/
theorem read_blk3 (t : Fin cfg1.N) (A : S128x128.Idx → EReal) (k j : Fin 128) :
    ((cfg1.win 3).blk t).view.read (Elt Ideal) A (ix2 k j) = A (ix2 k j) := by
  obtain ⟨e10, e11, e20, e21, e30, e31, e40, e41, e60, e61, e70, e71⟩ := idx_one t
  rw [View.read_apply]
  show A (((cfg1.win 3).blk t).view.emb (ix2 k j)) = _
  refine congrArg A (funext fun ax => Fin.ext ?_)
  match ax with
  | ⟨0, _⟩ => show win1_3.index t (0 : Fin 2) * 128 + 1 * k.val = k.val; omega
  | ⟨1, _⟩ => show win1_3.index t (1 : Fin 2) * 128 + 1 * j.val = j.val; omega

theorem iblk_0 (t : Fin cfg1.N) (p : Fin 5000) (k : Fin 128) :
    (iblk1 V c 0 t : FVec Ideal S5000x128 .f32) (ix2 p k) = V c main_v32_0 (ix2 (rowOf (tileOf t) p) k) :=
  read_blk0 t (V c main_v32_0) p k
theorem iblk_1 (t : Fin cfg1.N) (k : Fin 128) :
    (iblk1 V c 1 t : FVec Ideal S1x128 .f32) (ix2 (0 : Fin 1) k) = V c main_v43 (ix2 (0 : Fin 1) k) :=
  read_blk1 t (V c main_v43) k
theorem iblk_2 (t : Fin cfg1.N) (k : Fin 128) :
    (iblk1 V c 2 t : FVec Ideal S1x128 .f32) (ix2 (0 : Fin 1) k) = V c main_v46 (ix2 (0 : Fin 1) k) :=
  read_blk2 t (V c main_v46) k
theorem iblk_3 (t : Fin cfg1.N) (k j : Fin 128) :
    (iblk1 V c 3 t : FVec Ideal S128x128 .f32) (ix2 k j) = V c main_v28 (ix2 k j) :=
  read_blk3 t (V c main_v28) k j
theorem iblk_4 (t : Fin cfg1.N) (k : Fin 128) :
    (iblk1 V c 4 t : FVec Ideal S1x128 .f32) (ix2 (0 : Fin 1) k) = V c main_v29 (ix2 (0 : Fin 1) k) :=
  read_blk4 t (V c main_v29) k

/-! ## The tile each point computes, and the running sums -/

/-- The rectified layer of the tile at point `t`, from the windows' blocks. -/
def tile (t : Fin cfg1.N) : FVec Ideal S5000x128 .f32 :=
  k1_pay4 (iblk1 V c 0 t) (iblk1 V c 1 t) (iblk1 V c 2 t) (iblk1 V c 3 t) (iblk1 V c 4 t)

/-- It is the layer of the table rows the tile holds. -/
theorem tile_apply (t : Fin cfg1.N) (p : Fin 5000) (q : Fin 128) :
    tile V c t (ix2 p q) = H V c (rowOf (tileOf t) p) q :=
  pay4_eq_linT (iblk1 V c 0 t) (iblk1 V c 1 t) (iblk1 V c 2 t) (iblk1 V c 3 t) (iblk1 V c 4 t)
    (fun i k => V c main_v32_0 (ix2 i k)) (fun k => V c main_v43 (ix2 (0 : Fin 1) k)) (fun k => V c main_v46 (ix2 (0 : Fin 1) k))
    (fun k j => V c main_v28 (ix2 k j)) (fun j => V c main_v29 (ix2 (0 : Fin 1) j)) (rowOf (tileOf t) p) p q
    (fun k => iblk_0 V c t p k) (fun k => iblk_1 V c t k) (fun k => iblk_2 V c t k) (fun k j => iblk_3 V c t k j)
    (fun j => iblk_4 V c t j)

/-- A running total of per-tile terms, in the grid's order. -/
def runTot (g : (n : ℕ) → n < 20 → EReal) : (n : ℕ) → n < 20 → EReal
  | 0, h => g 0 h
  | n + 1, h => runTot g n (Nat.lt_of_succ_lt h) + g (n + 1) h

/-- The running total after tile `n` is the sum of the terms of tiles 0 … n. -/
theorem runTot_eq_sum (g : (n : ℕ) → n < 20 → EReal) : ∀ (n : ℕ) (h : n < 20),
    runTot g n h = ∑ s : Fin (n + 1), g s.val (Nat.lt_of_lt_of_le s.isLt (Nat.succ_le_of_lt h))
  | 0, h => by rw [Fin.sum_univ_one]; rfl
  | n + 1, h => by rw [runTot, Fin.sum_univ_castSucc, runTot_eq_sum g n]; rfl

/-- After the last tile it is the sum over all 20 tiles. -/
theorem runTot_last (g : (n : ℕ) → n < 20 → EReal) (n : ℕ) (h : n < 20) (hn : n = 19) :
    runTot g n h = ∑ s : Fin 20, g s.val s.isLt := by
  subst hn; exact runTot_eq_sum g 19 h

/-- What the three output windows' buffers hold after each point: the point's tile, and the column sums and column
    sums of squares of the tiles so far. -/
theorem outs_inv : ∀ (n : ℕ) (h : n < cfg1.N),
    (outsAt1 V c n h).1 = tile V c ⟨n, h⟩
    ∧ (∀ q : Fin 128, (outsAt1 V c n h).2.1 (ix2 (0 : Fin 1) q)
        = runTot (fun s hs => ∑ p : Fin 5000, H V c (rowOf ⟨s, hs⟩ p) q) n (lt_of_lt_of_eq h hN))
    ∧ (∀ q : Fin 128, (outsAt1 V c n h).2.2 (ix2 (0 : Fin 1) q)
        = runTot (fun s hs => ∑ p : Fin 5000, H V c (rowOf ⟨s, hs⟩ p) q * H V c (rowOf ⟨s, hs⟩ p) q) n (lt_of_lt_of_eq h hN))
  | 0, h => by
    rw [outsAt1_A V c ⟨0, h⟩ rfl]
    dsimp only
    refine ⟨out_A_5 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩), fun q => ?_, fun q => ?_⟩
    · refine (congrFun (out_A_6 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩)) (ix2 (0 : Fin 1) q)).trans ?_
      refine (pay5_eq (iblk1 V c 0 ⟨0, h⟩) (iblk1 V c 1 ⟨0, h⟩) (iblk1 V c 2 ⟨0, h⟩) (iblk1 V c 3 ⟨0, h⟩) (iblk1 V c 4 ⟨0, h⟩) k1_pay2 q 0 (fun p => H V c (rowOf (tileOf ⟨0, h⟩) p) q) (pay2_apply q)
        (fun p => tile_apply V c ⟨0, h⟩ p q)).trans ?_
      exact zero_add _
    · refine (congrFun (out_A_7 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩)) (ix2 (0 : Fin 1) q)).trans ?_
      refine (pay1_eq (k1_pay4 (iblk1 V c 0 ⟨0, h⟩) (iblk1 V c 1 ⟨0, h⟩) (iblk1 V c 2 ⟨0, h⟩) (iblk1 V c 3 ⟨0, h⟩) (iblk1 V c 4 ⟨0, h⟩)) k1_pay3 q 0 (fun p => H V c (rowOf (tileOf ⟨0, h⟩) p) q) (pay3_apply q)
        (fun p => tile_apply V c ⟨0, h⟩ p q)).trans ?_
      exact zero_add _
  | n + 1, h => by
    have hN' : cfg1.N = 20 := hN
    have hB : ¬(⟨n + 1, h⟩ : Fin cfg1.N).val % 20 = 0 := by dsimp only; omega
    obtain ⟨-, ih6, ih7⟩ := outs_inv n (Nat.lt_of_succ_lt h)
    rw [outsAt1_B V c ⟨n + 1, h⟩ hB]
    dsimp only
    refine ⟨out_B_5 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
        (outsAt1 V c n (Nat.lt_of_succ_lt h)).2.1 (outsAt1 V c n (Nat.lt_of_succ_lt h)).2.2, fun q => ?_, fun q => ?_⟩
    · refine (congrFun (out_B_6 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
        (outsAt1 V c n (Nat.lt_of_succ_lt h)).2.1 (outsAt1 V c n (Nat.lt_of_succ_lt h)).2.2) (ix2 (0 : Fin 1) q)).trans ?_
      refine (pay5_eq (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n (Nat.lt_of_succ_lt h)).2.1 q
        (runTot (fun s hs => ∑ p : Fin 5000, H V c (rowOf ⟨s, hs⟩ p) q) n (lt_of_lt_of_eq (Nat.lt_of_succ_lt h) hN))
        (fun p => H V c (rowOf (tileOf ⟨n + 1, h⟩) p) q) (ih6 q) (fun p => tile_apply V c ⟨n + 1, h⟩ p q)).trans ?_
      rfl
    · refine (congrFun (out_B_7 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
        (outsAt1 V c n (Nat.lt_of_succ_lt h)).2.1 (outsAt1 V c n (Nat.lt_of_succ_lt h)).2.2) (ix2 (0 : Fin 1) q)).trans ?_
      refine (pay1_eq (k1_pay4 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)) (outsAt1 V c n (Nat.lt_of_succ_lt h)).2.2 q
        (runTot (fun s hs => ∑ p : Fin 5000, H V c (rowOf ⟨s, hs⟩ p) q * H V c (rowOf ⟨s, hs⟩ p) q) n (lt_of_lt_of_eq (Nat.lt_of_succ_lt h) hN))
        (fun p => H V c (rowOf (tileOf ⟨n + 1, h⟩) p) q) (ih7 q) (fun p => tile_apply V c ⟨n + 1, h⟩ p q)).trans ?_
      rfl

end Region

section Arrays
variable (V : (c : Dev nD) → (b : Ref sig .tc) → Buf (Elt Ideal) ((c : Thread nD τ).loc b)) (c : Dev nD)

/-! ## From the blocks the points write back to the arrays -/

/-- A tile window's write-back at point `t` lands on rows 5000 t … 5000 t + 4999 of its array. -/
theorem cut_read5 (t : Fin cfg1.N) (X : FVec Ideal S5000x128 .f32) (G : S100000x128.Idx → EReal)
    (h : ∀ (p : Fin 5000) (q : Fin 128), X (ix2 p q) = G (ix2 (rowOf (tileOf t) p) q)) :
    (cfg1.win 5).cut (grid1.coords t) X = ((cfg1.win 5).blk t).view.read (Elt Ideal) G := by
  obtain ⟨-, -, e0, e1⟩ := idx_tile t
  funext y
  rw [View.read_apply]
  show X y = G (((cfg1.win 5).blk t).view.emb y)
  have hy : (y : S5000x128.Idx) = ix2 (n0 := 5000) (n1 := 128) (y 0) (y 1) := eq_ix2 (n0 := 5000) (n1 := 128) y
  have he : ((cfg1.win 5).blk t).view.emb y = ix2 (rowOf (tileOf t) (y 0)) (y 1) := funext fun ax => Fin.ext (by
    match ax with
    | ⟨0, _⟩ => show win1_5.index t (0 : Fin 2) * 5000 + 1 * (y 0).val = 5000 * t.val + (y 0).val; omega
    | ⟨1, _⟩ => show win1_5.index t (1 : Fin 2) * 128 + 1 * (y 1).val = (y 1).val; omega)
  exact ((congrArg X hy).trans (h (y 0) (y 1))).trans (congrArg G he.symm)

/-- Window 6's write-back lands on its whole one-row array. -/
theorem cut_read6 (t : Fin cfg1.N) (X : FVec Ideal S1x128 .f32) (G : S1x128.Idx → EReal)
    (h : ∀ q : Fin 128, X (ix2 (0 : Fin 1) q) = G (ix2 (0 : Fin 1) q)) :
    (cfg1.win 6).cut (grid1.coords t) X = ((cfg1.win 6).blk t).view.read (Elt Ideal) G := by
  obtain ⟨e10, e11, e20, e21, e30, e31, e40, e41, e60, e61, e70, e71⟩ := idx_one t
  funext y
  rw [View.read_apply]
  show X y = G (((cfg1.win 6).blk t).view.emb y)
  have hy0 : (y 0).val < 1 := (y 0).isLt
  have h0 : @Eq (Fin 1) (y 0) (0 : Fin 1) := Fin.ext (by show (y 0).val = (0 : ℕ); omega)
  have hy : (y : S1x128.Idx) = ix2 (0 : Fin 1) (y 1) := (eq_ix2 (n0 := 1) (n1 := 128) y).trans (congrArg (fun z : Fin 1 => ix2 (n1 := 128) z (y 1)) h0)
  have he : ((cfg1.win 6).blk t).view.emb y = ix2 (0 : Fin 1) (y 1) := funext fun ax => Fin.ext (by
    match ax with
    | ⟨0, _⟩ => show win1_6.index t (0 : Fin 2) * 1 + 1 * (y 0).val = 0; omega
    | ⟨1, _⟩ => show win1_6.index t (1 : Fin 2) * 128 + 1 * (y 1).val = (y 1).val; omega)
  exact ((congrArg X hy).trans (h (y 1))).trans (congrArg G he.symm)

/-- Window 7's write-back lands on its whole one-row array. -/
theorem cut_read7 (t : Fin cfg1.N) (X : FVec Ideal S1x128 .f32) (G : S1x128.Idx → EReal)
    (h : ∀ q : Fin 128, X (ix2 (0 : Fin 1) q) = G (ix2 (0 : Fin 1) q)) :
    (cfg1.win 7).cut (grid1.coords t) X = ((cfg1.win 7).blk t).view.read (Elt Ideal) G := by
  obtain ⟨e10, e11, e20, e21, e30, e31, e40, e41, e60, e61, e70, e71⟩ := idx_one t
  funext y
  rw [View.read_apply]
  show X y = G (((cfg1.win 7).blk t).view.emb y)
  have hy0 : (y 0).val < 1 := (y 0).isLt
  have h0 : @Eq (Fin 1) (y 0) (0 : Fin 1) := Fin.ext (by show (y 0).val = (0 : ℕ); omega)
  have hy : (y : S1x128.Idx) = ix2 (0 : Fin 1) (y 1) := (eq_ix2 (n0 := 1) (n1 := 128) y).trans (congrArg (fun z : Fin 1 => ix2 (n1 := 128) z (y 1)) h0)
  have he : ((cfg1.win 7).blk t).view.emb y = ix2 (0 : Fin 1) (y 1) := funext fun ax => Fin.ext (by
    match ax with
    | ⟨0, _⟩ => show win1_7.index t (0 : Fin 2) * 1 + 1 * (y 0).val = 0; omega
    | ⟨1, _⟩ => show win1_7.index t (1 : Fin 2) * 128 + 1 * (y 1).val = (y 1).val; omega)
  exact ((congrArg X hy).trans (h (y 1))).trans (congrArg G he.symm)

/-- An index of the tile array is in point `t`'s block iff its row is among the block's 5000. -/
theorem mem_blk5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v47_0).slice (win1_5.rect t)).set ↔ _
  rw [View.set_slice_whole, Rect.mem_set_unit]
  exact Iff.rfl

theorem mem_blk6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v47_1).slice (win1_6.rect t)).set ↔ _
  rw [View.set_slice_whole, Rect.mem_set_unit]
  exact Iff.rfl

theorem mem_blk7 (t : Fin cfg1.N) (i : S1x128.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v47_2).slice (win1_7.rect t)).set ↔ _
  rw [View.set_slice_whole, Rect.mem_set_unit]
  exact Iff.rfl

/-- Every row of the tile array is in the block of the point that computes its tile. -/
theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 5000, by rw [hN]; omega⟩, flush1_5 _, ?_⟩
  rw [mem_blk5]
  obtain ⟨-, -, e0, e1⟩ := idx_tile (⟨(i 0).val / 5000, by rw [hN]; omega⟩ : Fin cfg1.N)
  intro ax
  match ax with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]; dsimp only; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]; omega

/-- The last grid point. -/
def tLast : Fin cfg1.N := ⟨19, by rw [hN]; decide⟩

/-- The one-row array of window 6 is the last point's block. -/
theorem cover6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  refine ⟨tLast, (flush1_6 tLast).mpr rfl, ?_⟩
  rw [mem_blk6]
  obtain ⟨e10, e11, e20, e21, e30, e31, e40, e41, e60, e61, e70, e71⟩ := idx_one tLast
  intro ax
  match ax with
  | ⟨0, _⟩ =>
    show win1_6.index tLast (0 : Fin 2) * 1 ≤ (i 0).val ∧ (i 0).val < win1_6.index tLast (0 : Fin 2) * 1 + 1
    omega
  | ⟨1, _⟩ =>
    show win1_6.index tLast (1 : Fin 2) * 128 ≤ (i 1).val ∧ (i 1).val < win1_6.index tLast (1 : Fin 2) * 128 + 128
    omega

/-- The one-row array of window 7 is the last point's block. -/
theorem cover7 (i : S1x128.Idx) :
    ∃ t : Fin cfg1.N, (cfg1.win 7).flush t = true ∧ i ∈ ((cfg1.win 7).blk t).view.set := by
  have hi0 : (i 0).val < 1 := (i 0).isLt
  have hi1 : (i 1).val < 128 := (i 1).isLt
  refine ⟨tLast, (flush1_7 tLast).mpr rfl, ?_⟩
  rw [mem_blk7]
  obtain ⟨e10, e11, e20, e21, e30, e31, e40, e41, e60, e61, e70, e71⟩ := idx_one tLast
  intro ax
  match ax with
  | ⟨0, _⟩ =>
    show win1_7.index tLast (0 : Fin 2) * 1 ≤ (i 0).val ∧ (i 0).val < win1_7.index tLast (0 : Fin 2) * 1 + 1
    omega
  | ⟨1, _⟩ =>
    show win1_7.index tLast (1 : Fin 2) * 128 ≤ (i 1).val ∧ (i 1).val < win1_7.index tLast (1 : Fin 2) * 128 + 128
    omega

/-- The tile array after the run, as one function of the region-entry tables. -/
def G5 : S100000x128.Idx → EReal := fun i => H V c (i 0) (i 1)
/-- The column sums after the run. -/
def G6 : S1x128.Idx → EReal := fun i => colSum (H V c) (i 1)
/-- The column sums of squares after the run. -/
def G7 : S1x128.Idx → EReal := fun i => colSumSq (H V c) (i 1)

/-- What point `t` writes back through the tile window is its block of the rectified layer. -/
theorem flushed5 (t : Fin cfg1.N) :
    (dat1 V c).flushed 5 t = ((cfg1.win 5).blk t).view.read (Elt Ideal) (G5 V c) := by
  show (cfg1.win 5).cut (grid1.coords t) ((dat1 V c).after 5 t) = _
  rw [after1_5, (outs_inv V c t.val t.isLt).1]
  exact cut_read5 t (tile V c t) (G5 V c) fun p q => tile_apply V c t p q

/-- The sums over the 20 tiles of a column are the column's sums over the 100000 rows. -/
theorem tot_colSum (q : Fin 128) (n : ℕ) (h : n < 20) (hn : n = 19) :
    runTot (fun s hs => ∑ p : Fin 5000, H V c (rowOf ⟨s, hs⟩ p) q) n h = colSum (H V c) q :=
  (runTot_last _ n h hn).trans (sum_tiles fun i => H V c i q)

theorem tot_colSumSq (q : Fin 128) (n : ℕ) (h : n < 20) (hn : n = 19) :
    runTot (fun s hs => ∑ p : Fin 5000, H V c (rowOf ⟨s, hs⟩ p) q * H V c (rowOf ⟨s, hs⟩ p) q) n h = colSumSq (H V c) q :=
  (runTot_last _ n h hn).trans (sum_tiles fun i => H V c i q * H V c i q)

/-- The one write-back of the running column sum, after the last point, writes the column sums. -/
theorem flushed6 (t : Fin cfg1.N) (hf : (cfg1.win 6).flush t = true) :
    (dat1 V c).flushed 6 t = ((cfg1.win 6).blk t).view.read (Elt Ideal) (G6 V c) := by
  have hN' : cfg1.N = 20 := hN
  have h19 : t.val = 19 := by have := (flush1_6 t).mp hf; have := t.isLt; omega
  show (cfg1.win 6).cut (grid1.coords t) ((dat1 V c).after 6 t) = _
  rw [after1_6]
  exact cut_read6 t (outsAt1 V c t.val t.isLt).2.1 (G6 V c) fun q =>
    ((outs_inv V c t.val t.isLt).2.1 q).trans (tot_colSum V c q t.val (lt_of_lt_of_eq t.isLt hN) h19)

/-- The one write-back of the running column sum of squares, after the last point, writes the column sums of squares. -/
theorem flushed7 (t : Fin cfg1.N) (hf : (cfg1.win 7).flush t = true) :
    (dat1 V c).flushed 7 t = ((cfg1.win 7).blk t).view.read (Elt Ideal) (G7 V c) := by
  have hN' : cfg1.N = 20 := hN
  have h19 : t.val = 19 := by have := (flush1_7 t).mp hf; have := t.isLt; omega
  show (cfg1.win 7).cut (grid1.coords t) ((dat1 V c).after 7 t) = _
  rw [after1_7]
  exact cut_read7 t (outsAt1 V c t.val t.isLt).2.2 (G7 V c) fun q =>
    ((outs_inv V c t.val t.isLt).2.2 q).trans (tot_colSumSq V c q t.val (lt_of_lt_of_eq t.isLt hN) h19)

theorem arr5 : (dat1 V c).arrAt 5 cfg1.N = G5 V c :=
  (dat1 V c).arrAt_eq_of_cover 5 (G5 V c) (fun t _ => flushed5 V c t) cover5
theorem arr6 : (dat1 V c).arrAt 6 cfg1.N = G6 V c :=
  (dat1 V c).arrAt_eq_of_cover 6 (G6 V c) (flushed6 V c) cover6
theorem arr7 : (dat1 V c).arrAt 7 cfg1.N = G7 V c :=
  (dat1 V c).arrAt_eq_of_cover 7 (G7 V c) (flushed7 V c) cover7

/-- The tile array ends holding the rectified layer of every row. -/
theorem arr_h (i : Fin 100000) (j : Fin 128) : (dat1 V c).arrAt 5 cfg1.N (ix2 i j) = H V c i j :=
  congrFun (arr5 V c) (ix2 i j)
/-- The running column sum ends holding each column's sum over all rows. -/
theorem arr_sum (j : Fin 128) : (dat1 V c).arrAt 6 cfg1.N (ix2 (0 : Fin 1) j) = colSum (H V c) j :=
  congrFun (arr6 V c) (ix2 (0 : Fin 1) j)
/-- The running column sum of squares ends holding each column's sum of squares over all rows. -/
theorem arr_sumsq (j : Fin 128) : (dat1 V c).arrAt 7 cfg1.N (ix2 (0 : Fin 1) j) = colSumSq (H V c) j :=
  congrFun (arr7 V c) (ix2 (0 : Fin 1) j)

end Arrays

end Cert.KernelIdeal.R1
end
-- ==== Proof.Region2.lean ====
import proofs.«146512_j36301063586429_1_alg».proof.Proof.Gen.KernelIdeal.Frame
import proofs.«146512_j36301063586429_1_alg».proof.Proof.Spec
import proofs.«146512_j36301063586429_1_alg».proof.Proof.Algebra
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
  Region 2: a linear layer with its rectifier over a table of 100000 rows, computed in 20 tiles of 5000 rows, with the
  column sums and column sums of squares of the result accumulated across the tiles.

  Each grid point sends its tile `h` through `max ((h · scale + shift) · w + bias) 0`, writes the tile back, and adds the
  tile's column sums (and column sums of squares) to two running rows that are reset to zero at the first point and
  written back once, after the last. Read index by index over the extended reals:

  * the tile array ends holding `H`, the layer of every row;
  * the first running row ends holding `colSum H`: the sums over the 20 tiles, taken in order from zero, are the sums
    over all 100000 rows;
  * the second ends holding `colSumSq H` likewise.
-/

noncomputable section

open Idealize.ShloMosaic Idealize.ShloMosaic.TcCoe Idealize.SL.Sem Idealize.ShloMosaic.ValueIdx Cert.KernelIdeal Cert.KernelIdeal.Gen Cert.NodeMlp
open Idealize.ShloMosaic.Pipeline (Dat)

namespace Cert.KernelIdeal.R2

section Cases
variable {F : FTy → Type} [FloatOps F]

theorem hz : (![0, 0] : Fin 2 → Nat) = fun _ => 0 := funext fun a => by fin_cases a <;> rfl

/-- Every point but the first: the tile's rectified layer is the one store into the tile window. -/
theorem out_B_5 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S1x128 .f32) (x2 : Vec F S1x128 .f32) (x3 : Vec F S128x128 .f32) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- Every point but the first: the running column sum gains the tile's column sums. -/
theorem out_B_6 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S1x128 .f32) (x2 : Vec F S1x128 .f32) (x3 : Vec F S128x128 .f32) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- Every point but the first: the running column sum of squares gains the tile's. -/
theorem out_B_7 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 : Vec F S5000x128 .f32) (x1 : Vec F S1x128 .f32) (x2 : Vec F S1x128 .f32) (x3 : Vec F S128x128 .f32) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay4 x0 x1 x2 x3 x4) (k2_pay6 xo7) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only

  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- The first point: the tile's rectified layer is the one store into the tile window. -/
theorem out_A_5 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S1x128 .f32) (x2 : Vec F S1x128 .f32) (x3 : Vec F S128x128 .f32) (x4 : Vec F S1x128 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- The first point: the running column sum is reset to zero and then gains the tile's column sums. -/
theorem out_A_6 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S1x128 .f32) (x2 : Vec F S1x128 .f32) (x3 : Vec F S128x128 .f32) (x4 : Vec F S1x128 .f32) :
    out2_A_6 c i a1 h1 a2 h2 a3 h3 a4 h4 a5 h5 a6 h6 a7 h7 a8 h8 hc x0 x1 x2 x3 x4 = k2_pay5 x0 x1 x2 x3 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz]

  rw [View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

/-- The first point: the running column sum of squares is reset to zero and then gains the tile's. -/
theorem out_A_7 (c : Dev nD) (i : grid2.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 : Vec F S5000x128 .f32) (x1 : Vec F S1x128 .f32) (x2 : Vec F S1x128 .f32) (x3 : Vec F S128x128 .f32) (x4 : Vec F S1x128 .f32) :
    out2_A_7 c i a1 h1 a2 h2 a3 h3 a4 h4 a5 h5 a6 h6 a7 h7 a8 h8 hc x0 x1 x2 x3 x4 = k2_pay1 (k2_pay4 x0 x1 x2 x3 x4) (k2_pay6 k2_pay3) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz]

  rw [View.readCov_unit_zero (S := S1x128) _ hz]
  simp only [View.readAt_eq_ld, h1.read_unread, h2.read_unread, h3.read_unread, h4.read_unread, h5.read_unread, h7.read_unread, h8.read_unread, View.ld_unit_zero (S := S5000x128) hz, View.ld_unit_zero (S := S1x128) hz, View.ld_unit_zero (S := S128x128) hz]

end Cases

section Payloads

/-- The dot's left index on the row axis is the output's row. -/
theorem dot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The dot's right index on the column axis is the output's column. -/
theorem dot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times the weight table, into zero, at an index: the sum over the 128 input features. -/
theorem matmul_tile_apply {φ₁ φ₂ : FTy} (a : FVec Ideal S5000x128 φ₁) (w : FVec Ideal S128x128 φ₂) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact dot_lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl _ _).trans hk
    | ⟨1, _⟩ => exact dot_rhs_1 _ _)
  rw [el, er]

/-- A column sum over a tile's 5000 rows, kept as a one-row table. -/
theorem tile_colsum_apply (v : FVec Ideal S5000x128 .f32) (hφ : FKind.Formats .f32)
    (hacc : (0x00000000#32 : BitVec 32) = FKind.add.neutral .f32 hφ) (q : Fin 128) :
    shapeCast S1x128 (multiReduction .add [0] S128 v 0x00000000#32 reduces_S5000x128_S128 hφ hacc) shapeCasts_S128_S1x128 (ix2 (0 : Fin 1) q)
      = ∑ p : Fin 5000, v (ix2 p q) := by
  refine (shapeCast_a_1a_apply _ shapeCasts_S128_S1x128 (0 : Fin 1) q).trans ?_
  refine (Ideal.multiReduction_add_single v 0x00000000#32 reduces_S5000x128_S128 hφ hacc (ix1 q)).trans ?_
  refine Finset.sum_congr rfl fun p _ => congrArg v (funext fun ax => Fin.ext (by
    match ax with
    | ⟨0, _⟩ => rfl
    | ⟨1, _⟩ => rfl))

/-- The tile's rectified layer at an index. -/
theorem pay4_apply (x0 : FVec Ideal S5000x128 .f32) (x1 x2 : FVec Ideal S1x128 .f32) (x3 : FVec Ideal S128x128 .f32) (x4 : FVec Ideal S1x128 .f32) (p : Fin 5000) (q : Fin 128) :
    k2_pay4 x0 x1 x2 x3 x4 (ix2 p q)
      = max ((∑ k : Fin 128, (x0 (ix2 p k) * x1 (ix2 (0 : Fin 1) k) + x2 (ix2 (0 : Fin 1) k)) * x3 (ix2 k q)) + x4 (ix2 (0 : Fin 1) q)) 0 := by
  unfold k2_pay4
  simp only [shapeCast_self, maximumf_apply, addf_apply, broadcast_apply, broadcastTo_1b_ab_apply, matmul_tile_apply, truncf_apply, mulf_apply]
  exact congrArg _ Ideal.ofBits_zero_f32

/-- The zero the running column sum is reset to. -/
theorem pay2_apply (q : Fin 128) : (k2_pay2 : FVec Ideal S1x128 .f32) (ix2 (0 : Fin 1) q) = 0 := Ideal.ofBits_zero_f32

/-- The zero the running column sum of squares is reset to. -/
theorem pay3_apply (q : Fin 128) : (k2_pay3 : FVec Ideal S1x128 .f32) (ix2 (0 : Fin 1) q) = 0 := Ideal.ofBits_zero_f32

/-- The tile's rectified layer as the layer of the table row it is a tile of. -/
theorem pay4_eq_linT (x0 : FVec Ideal S5000x128 .f32) (x1 x2 : FVec Ideal S1x128 .f32) (x3 : FVec Ideal S128x128 .f32) (x4 : FVec Ideal S1x128 .f32)
    (A : Fin 100000 → Fin 128 → EReal) (s b' : Fin 128 → EReal) (W : Fin 128 → Fin 128 → EReal) (b : Fin 128 → EReal)
    (i : Fin 100000) (p : Fin 5000) (q : Fin 128)
    (h0 : ∀ k, x0 (ix2 p k) = A i k) (h1 : ∀ k, x1 (ix2 (0 : Fin 1) k) = s k) (h2 : ∀ k, x2 (ix2 (0 : Fin 1) k) = b' k)
    (h3 : ∀ k j, x3 (ix2 k j) = W k j) (h4 : ∀ j, x4 (ix2 (0 : Fin 1) j) = b j) :
    k2_pay4 (F := Ideal) x0 x1 x2 x3 x4 (ix2 p q) = linT (affine A s b') W b i q := by
  rw [pay4_apply]
  unfold linT affine
  simp only [h0, h1, h2, h3, h4]

/-- The running column sum after a tile: what it held plus the tile's column sum. -/
theorem pay5_eq (x0 : FVec Ideal S5000x128 .f32) (x1 x2 : FVec Ideal S1x128 .f32) (x3 : FVec Ideal S128x128 .f32) (x4 : FVec Ideal S1x128 .f32) (acc : FVec Ideal S1x128 .f32) (q : Fin 128) (a : EReal) (g : Fin 5000 → EReal)
    (hacc : acc (ix2 (0 : Fin 1) q) = a) (hg : ∀ p, k2_pay4 (F := Ideal) x0 x1 x2 x3 x4 (ix2 p q) = g p) :
    k2_pay5 (F := Ideal) x0 x1 x2 x3 x4 acc (ix2 (0 : Fin 1) q) = a + ∑ p : Fin 5000, g p := by
  unfold k2_pay5
  simp only [shapeCast_self, addf_apply, hacc]
  refine congrArg (a + ·) ?_
  refine (tile_colsum_apply (k2_pay4 (F := Ideal) x0 x1 x2 x3 x4) _ _ q).trans ?_
  exact Finset.sum_congr rfl fun p _ => hg p

/-- The running column sum of squares after a tile: what it held plus the tile's column sum of squares. -/
theorem pay1_eq (v : FVec Ideal S5000x128 .f32) (acc : FVec Ideal S1x128 .f32) (q : Fin 128) (a : EReal) (g : Fin 5000 → EReal)
    (hacc : acc (ix2 (0 : Fin 1) q) = a) (hg : ∀ p, v (ix2 p q) = g p) :
    k2_pay1 (F := Ideal) v (k2_pay6 acc) (ix2 (0 : Fin 1) q) = a + ∑ p : Fin 5000, g p * g p := by
  unfold k2_pay1 k2_pay6
  simp only [shapeCast_self, addf_apply, hacc]
  refine congrArg (a + ·) ?_
  refine (tile_colsum_apply (mulf v v) _ _ q).trans ?_
  exact Finset.sum_congr rfl fun p _ => by rw [mulf_apply, hg p]

end Payloads

section Region
variable (V : (c : Dev nD) → (b : Ref sig .tc) → Buf (Elt Ideal) ((c : Thread nD τ).loc b)) (c : Dev nD)

/-- Region 2's rectified layer as a function of the region-entry tables. -/
def H : Fin 100000 → Fin 128 → EReal :=
  linT (affine (fun i k => V c main_v47_0 (ix2 i k)) (fun k => V c main_v58 (ix2 (0 : Fin 1) k)) (fun k => V c main_v61 (ix2 (0 : Fin 1) k)))
    (fun k j => V c main_v30 (ix2 k j)) (fun j => V c main_v31 (ix2 (0 : Fin 1) j))

/-! ## The windows' blocks, read off the tables -/

/-- The tile windows move one block of 5000 rows per grid point. -/
theorem idx_tile : ∀ t : Fin cfg2.N, win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, _)

/-- The other windows keep their one block. -/
theorem idx_one : ∀ t : Fin cfg2.N, win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem hN : cfg2.N = 20 := N_2

/-- A grid point as one of the 20 tiles. -/
def tileOf (t : Fin cfg2.N) : Fin 20 := ⟨t.val, lt_of_lt_of_eq t.isLt hN⟩

/-- The input tile at point `t` is rows 5000 t … 5000 t + 4999 of its table. -/
theorem read_blk0 (t : Fin cfg2.N) (A : S100000x128.Idx → EReal) (p : Fin 5000) (k : Fin 128) :
    ((cfg2.win 0).blk t).view.read (Elt Ideal) A (ix2 p k) = A (ix2 (rowOf (tileOf t) p) k) := by
  obtain ⟨e0, e1, -, -⟩ := idx_tile t
  rw [View.read_apply]
  show A (((cfg2.win 0).blk t).view.emb (ix2 p k)) = _
  refine congrArg A (funext fun ax => Fin.ext ?_)
  match ax with
  | ⟨0, _⟩ => show win2_0.index t (0 : Fin 2) * 5000 + 1 * p.val = 5000 * t.val + p.val; omega
  | ⟨1, _⟩ => show win2_0.index t (1 : Fin 2) * 128 + 1 * k.val = k.val; omega

/-- Window 1's one block is its one-row table. -/
theorem read_blk1 (t : Fin cfg2.N) (A : S1x128.Idx → EReal) (k : Fin 128) :
    ((cfg2.win 1).blk t).view.read (Elt Ideal) A (ix2 (0 : Fin 1) k) = A (ix2 (0 : Fin 1) k) := by
  obtain ⟨e10, e11, e20, e21, e30, e31, e40, e41, e60, e61, e70, e71⟩ := idx_one t
  rw [View.read_apply]
  show A (((cfg2.win 1).blk t).view.emb (ix2 (0 : Fin 1) k)) = _
  refine congrArg A (funext fun ax => Fin.ext ?_)
  match ax with
  | ⟨0, _⟩ => show win2_1.index t (0 : Fin 2) * 1 + 1 * 0 = 0; omega
  | ⟨1, _⟩ => show win2_1.index t (1 : Fin 2) * 128 + 1 * k.val = k.val; omega

/-- Window 2's one block is its one-row table. -/
theorem read_blk2 (t : Fin cfg2.N) (A : S1x128.Idx → EReal) (k : Fin 128) :
    ((cfg2.win 2).blk t).view.read (Elt Ideal) A (ix2 (0 : Fin 1) k) = A (ix2 (0 : Fin 1) k) := by
  obtain ⟨e10, e11, e20, e21, e30, e31, e40, e41, e60, e61, e70, e71⟩ := idx_one t
  rw [View.read_apply]
  show A (((cfg2.win 2).blk t).view.emb (ix2 (0 : Fin 1) k)) = _
  refine congrArg A (funext fun ax => Fin.ext ?_)
  match ax with
  | ⟨0, _⟩ => show win2_2.index t (0 : Fin 2) * 1 + 1 * 0 = 0; omega
  | ⟨1, _⟩ => show win2_2.index t (1 : Fin 2) * 128 + 1 * k.val = k.val; omega

/-- Window 4's one block is its one-row table. -/
theorem read_blk4 (t : Fin cfg2.N) (A : S1x128.Idx → EReal) (k : Fin 128) :
    ((cfg2.win 4).blk t).view.read (Elt Ideal) A (ix2 (0 : Fin 1) k) = A (ix2 (0 : Fin 1) k) := by
  obtain ⟨e10, e11, e20, e21, e30, e31, e40, e41, e60, e61, e70, e71⟩ := idx_one t
  rw [View.read_apply]
  show A (((cfg2.win 4).blk t).view.emb (ix2 (0 : Fin 1) k)) = _
  refine congrArg A (funext fun ax => Fin.ext ?_)
  match ax with
  | ⟨0, _⟩ => show win2_4.index t (0 : Fin 2) * 1 + 1 * 0 = 0; omega
  | ⟨1, _⟩ => show win2_4.index t (1 : Fin 2) * 128 + 1 * k.val = k.val; omega

/-- The weight window's one block is the weight table. -/
theorem read_blk3 (t : Fin cfg2.N) (A : S128x128.Idx → EReal) (k j : Fin 128) :
    ((cfg2.win 3).blk t).view.read (Elt Ideal) A (ix2 k j) = A (ix2 k j) := by
  obtain ⟨e10, e11, e20, e21, e30, e31, e40, e41, e60, e61, e70, e71⟩ := idx_one t
  rw [View.read_apply]
  show A (((cfg2.win 3).blk t).view.emb (ix2 k j)) = _
  refine congrArg A (funext fun ax => Fin.ext ?_)
  match ax with
  | ⟨0, _⟩ => show win2_3.index t (0 : Fin 2) * 128 + 1 * k.val = k.val; omega
  | ⟨1, _⟩ => show win2_3.index t (1 : Fin 2) * 128 + 1 * j.val = j.val; omega

theorem iblk_0 (t : Fin cfg2.N) (p : Fin 5000) (k : Fin 128) :
    (iblk2 V c 0 t : FVec Ideal S5000x128 .f32) (ix2 p k) = V c main_v47_0 (ix2 (rowOf (tileOf t) p) k) :=
  read_blk0 t (V c main_v47_0) p k
theorem iblk_1 (t : Fin cfg2.N) (k : Fin 128) :
    (iblk2 V c 1 t : FVec Ideal S1x128 .f32) (ix2 (0 : Fin 1) k) = V c main_v58 (ix2 (0 : Fin 1) k) :=
  read_blk1 t (V c main_v58) k
theorem iblk_2 (t : Fin cfg2.N) (k : Fin 128) :
    (iblk2 V c 2 t : FVec Ideal S1x128 .f32) (ix2 (0 : Fin 1) k) = V c main_v61 (ix2 (0 : Fin 1) k) :=
  read_blk2 t (V c main_v61) k
theorem iblk_3 (t : Fin cfg2.N) (k j : Fin 128) :
    (iblk2 V c 3 t : FVec Ideal S128x128 .f32) (ix2 k j) = V c main_v30 (ix2 k j) :=
  read_blk3 t (V c main_v30) k j
theorem iblk_4 (t : Fin cfg2.N) (k : Fin 128) :
    (iblk2 V c 4 t : FVec Ideal S1x128 .f32) (ix2 (0 : Fin 1) k) = V c main_v31 (ix2 (0 : Fin 1) k) :=
  read_blk4 t (V c main_v31) k

/-! ## The tile each point computes, and the running sums -/

/-- The rectified layer of the tile at point `t`, from the windows' blocks. -/
def tile (t : Fin cfg2.N) : FVec Ideal S5000x128 .f32 :=
  k2_pay4 (iblk2 V c 0 t) (iblk2 V c 1 t) (iblk2 V c 2 t) (iblk2 V c 3 t) (iblk2 V c 4 t)

/-- It is the layer of the table rows the tile holds. -/
theorem tile_apply (t : Fin cfg2.N) (p : Fin 5000) (q : Fin 128) :
    tile V c t (ix2 p q) = H V c (rowOf (tileOf t) p) q :=
  pay4_eq_linT (iblk2 V c 0 t) (iblk2 V c 1 t) (iblk2 V c 2 t) (iblk2 V c 3 t) (iblk2 V c 4 t)
    (fun i k => V c main_v47_0 (ix2 i k)) (fun k => V c main_v58 (ix2 (0 : Fin 1) k)) (fun k => V c main_v61 (ix2 (0 : Fin 1) k))
    (fun k j => V c main_v30 (ix2 k j)) (fun j => V c main_v31 (ix2 (0 : Fin 1) j)) (rowOf (tileOf t) p) p q
    (fun k => iblk_0 V c t p k) (fun k => iblk_1 V c t k) (fun k => iblk_2 V c t k) (fun k j => iblk_3 V c t k j)
    (fun j => iblk_4 V c t j)

/-- A running total of per-tile terms, in the grid's order. -/
def runTot (g : (n : ℕ) → n < 20 → EReal) : (n : ℕ) → n < 20 → EReal
  | 0, h => g 0 h
  | n + 1, h => runTot g n (Nat.lt_of_succ_lt h) + g (n + 1) h

/-- The running total after tile `n` is the sum of the terms of tiles 0 … n. -/
theorem runTot_eq_sum (g : (n : ℕ) → n < 20 → EReal) : ∀ (n : ℕ) (h : n < 20),
    runTot g n h = ∑ s : Fin (n + 1), g s.val (Nat.lt_of_lt_of_le s.isLt (Nat.succ_le_of_lt h))
  | 0, h => by rw [Fin.sum_univ_one]; rfl
  | n + 1, h => by rw [runTot, Fin.sum_univ_castSucc, runTot_eq_sum g n]; rfl

/-- After the last tile it is the sum over all 20 tiles. -/
theorem runTot_last (g : (n : ℕ) → n < 20 → EReal) (n : ℕ) (h : n < 20) (hn : n = 19) :
    runTot g n h = ∑ s : Fin 20, g s.val s.isLt := by
  subst hn; exact runTot_eq_sum g 19 h

/-- What the three output windows' buffers hold after each point: the point's tile, and the column sums and column
    sums of squares of the tiles so far. -/
theorem outs_inv : ∀ (n : ℕ) (h : n < cfg2.N),
    (outsAt2 V c n h).1 = tile V c ⟨n, h⟩
    ∧ (∀ q : Fin 128, (outsAt2 V c n h).2.1 (ix2 (0 : Fin 1) q)
        = runTot (fun s hs => ∑ p : Fin 5000, H V c (rowOf ⟨s, hs⟩ p) q) n (lt_of_lt_of_eq h hN))
    ∧ (∀ q : Fin 128, (outsAt2 V c n h).2.2 (ix2 (0 : Fin 1) q)
        = runTot (fun s hs => ∑ p : Fin 5000, H V c (rowOf ⟨s, hs⟩ p) q * H V c (rowOf ⟨s, hs⟩ p) q) n (lt_of_lt_of_eq h hN))
  | 0, h => by
    rw [outsAt2_A V c ⟨0, h⟩ rfl]
    dsimp only
    refine ⟨out_A_5 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩), fun q => ?_, fun q => ?_⟩
    · refine (congrFun (out_A_6 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩)) (ix2 (0 : Fin 1) q)).trans ?_
      refine (pay5_eq (iblk2 V c 0 ⟨0, h⟩) (iblk2 V c 1 ⟨0, h⟩) (iblk2 V c 2 ⟨0, h⟩) (iblk2 V c 3 ⟨0, h⟩) (iblk2 V c 4 ⟨0, h⟩) k2_pay2 q 0 (fun p => H V c (rowOf (tileOf ⟨0, h⟩) p) q) (pay2_apply q)
        (fun p => tile_apply V c ⟨0, h⟩ p q)).trans ?_
      exact zero_add _
    · refine (congrFun (out_A_7 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩)) (ix2 (0 : Fin 1) q)).trans ?_
      refine (pay1_eq (k2_pay4 (iblk2 V c 0 ⟨0, h⟩) (iblk2 V c 1 ⟨0, h⟩) (iblk2 V c 2 ⟨0, h⟩) (iblk2 V c 3 ⟨0, h⟩) (iblk2 V c 4 ⟨0, h⟩)) k2_pay3 q 0 (fun p => H V c (rowOf (tileOf ⟨0, h⟩) p) q) (pay3_apply q)
        (fun p => tile_apply V c ⟨0, h⟩ p q)).trans ?_
      exact zero_add _
  | n + 1, h => by
    have hN' : cfg2.N = 20 := hN
    have hB : ¬(⟨n + 1, h⟩ : Fin cfg2.N).val % 20 = 0 := by dsimp only; omega
    obtain ⟨-, ih6, ih7⟩ := outs_inv n (Nat.lt_of_succ_lt h)
    rw [outsAt2_B V c ⟨n + 1, h⟩ hB]
    dsimp only
    refine ⟨out_B_5 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
        (outsAt2 V c n (Nat.lt_of_succ_lt h)).2.1 (outsAt2 V c n (Nat.lt_of_succ_lt h)).2.2, fun q => ?_, fun q => ?_⟩
    · refine (congrFun (out_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
        (outsAt2 V c n (Nat.lt_of_succ_lt h)).2.1 (outsAt2 V c n (Nat.lt_of_succ_lt h)).2.2) (ix2 (0 : Fin 1) q)).trans ?_
      refine (pay5_eq (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.1 q
        (runTot (fun s hs => ∑ p : Fin 5000, H V c (rowOf ⟨s, hs⟩ p) q) n (lt_of_lt_of_eq (Nat.lt_of_succ_lt h) hN))
        (fun p => H V c (rowOf (tileOf ⟨n + 1, h⟩) p) q) (ih6 q) (fun p => tile_apply V c ⟨n + 1, h⟩ p q)).trans ?_
      rfl
    · refine (congrFun (out_B_7 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
        (outsAt2 V c n (Nat.lt_of_succ_lt h)).2.1 (outsAt2 V c n (Nat.lt_of_succ_lt h)).2.2) (ix2 (0 : Fin 1) q)).trans ?_
      refine (pay1_eq (k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)) (outsAt2 V c n (Nat.lt_of_succ_lt h)).2.2 q
        (runTot (fun s hs => ∑ p : Fin 5000, H V c (rowOf ⟨s, hs⟩ p) q * H V c (rowOf ⟨s, hs⟩ p) q) n (lt_of_lt_of_eq (Nat.lt_of_succ_lt h) hN))
        (fun p => H V c (rowOf (tileOf ⟨n + 1, h⟩) p) q) (ih7 q) (fun p => tile_apply V c ⟨n + 1, h⟩ p q)).trans ?_
      rfl

end Region

section Arrays
variable (V : (c : Dev nD) → (b : Ref sig .tc) → Buf (Elt Ideal) ((c : Thread nD τ).loc b)) (c : Dev nD)

/-! ## From the blocks the points write back to the arrays -/

/-- A tile window's write-back at point `t` lands on rows 5000 t … 5000 t + 4999 of its array. -/
theorem cut_read5 (t : Fin cfg2.N) (X : FVec Ideal S5000x128 .f32) (G : S100000x128.Idx → EReal)
    (h : ∀ (p : Fin 5000) (q : Fin 128), X (ix2 p q) = G (ix2 (rowOf (tileOf t) p) q)) :
    (cfg2.win 5).cut (grid2.coords t) X = ((cfg2.win 5).blk t).view.read (Elt Ideal) G := by
  obtain ⟨-, -, e0, e1⟩ := idx_tile t
  funext y
  rw [View.read_apply]
  show X y = G (((cfg2.win 5).blk t).view.emb y)
  have hy : (y : S5000x128.Idx) = ix2 (n0 := 5000) (n1 := 128) (y 0) (y 1) := eq_ix2 (n0 := 5000) (n1 := 128) y
  have he : ((cfg2.win 5).blk t).view.emb y = ix2 (rowOf (tileOf t) (y 0)) (y 1) := funext fun ax => Fin.ext (by
    match ax with
    | ⟨0, _⟩ => show win2_5.index t (0 : Fin 2) * 5000 + 1 * (y 0).val = 5000 * t.val + (y 0).val; omega
    | ⟨1, _⟩ => show win2_5.index t (1 : Fin 2) * 128 + 1 * (y 1).val = (y 1).val; omega)
  exact ((congrArg X hy).trans (h (y 0) (y 1))).trans (congrArg G he.symm)

/-- Window 6's write-back lands on its whole one-row array. -/
theorem cut_read6 (t : Fin cfg2.N) (X : FVec Ideal S1x128 .f32) (G : S1x128.Idx → EReal)
    (h : ∀ q : Fin 128, X (ix2 (0 : Fin 1) q) = G (ix2 (0 : Fin 1) q)) :
    (cfg2.win 6).cut (grid2.coords t) X = ((cfg2.win 6).blk t).view.read (Elt Ideal) G := by
  obtain ⟨e10, e11, e20, e21, e30, e31, e40, e41, e60, e61, e70, e71⟩ := idx_one t
  funext y
  rw [View.read_apply]
  show X y = G (((cfg2.win 6).blk t).view.emb y)
  have hy0 : (y 0).val < 1 := (y 0).isLt
  have h0 : @Eq (Fin 1) (y 0) (0 : Fin 1) := Fin.ext (by show (y 0).val = (0 : ℕ); omega)
  have hy : (y : S1x128.Idx) = ix2 (0 : Fin 1) (y 1) := (eq_ix2 (n0 := 1) (n1 := 128) y).trans (congrArg (fun z : Fin 1 => ix2 (n1 := 128) z (y 1)) h0)
  have he : ((cfg2.win 6).blk t).view.emb y = ix2 (0 : Fin 1) (y 1) := funext fun ax => Fin.ext (by
    match ax with
    | ⟨0, _⟩ => show win2_6.index t (0 : Fin 2) * 1 + 1 * (y 0).val = 0; omega
    | ⟨1, _⟩ => show win2_6.index t (1 : Fin 2) * 128 + 1 * (y 1).val = (y 1).val; omega)
  exact ((congrArg X hy).trans (h (y 1))).trans (congrArg G he.symm)

/-- Window 7's write-back lands on its whole one-row array. -/
theorem cut_read7 (t : Fin cfg2.N) (X : FVec Ideal S1x128 .f32) (G : S1x128.Idx → EReal)
    (h : ∀ q : Fin 128, X (ix2 (0 : Fin 1) q) = G (ix2 (0 : Fin 1) q)) :
    (cfg2.win 7).cut (grid2.coords t) X = ((cfg2.win 7).blk t).view.read (Elt Ideal) G := by
  obtain ⟨e10, e11, e20, e21, e30, e31, e40, e41, e60, e61, e70, e71⟩ := idx_one t
  funext y
  rw [View.read_apply]
  show X y = G (((cfg2.win 7).blk t).view.emb y)
  have hy0 : (y 0).val < 1 := (y 0).isLt
  have h0 : @Eq (Fin 1) (y 0) (0 : Fin 1) := Fin.ext (by show (y 0).val = (0 : ℕ); omega)
  have hy : (y : S1x128.Idx) = ix2 (0 : Fin 1) (y 1) := (eq_ix2 (n0 := 1) (n1 := 128) y).trans (congrArg (fun z : Fin 1 => ix2 (n1 := 128) z (y 1)) h0)
  have he : ((cfg2.win 7).blk t).view.emb y = ix2 (0 : Fin 1) (y 1) := funext fun ax => Fin.ext (by
    match ax with
    | ⟨0, _⟩ => show win2_7.index t (0 : Fin 2) * 1 + 1 * (y 0).val = 0; omega
    | ⟨1, _⟩ => show win2_7.index t (1 : Fin 2) * 128 + 1 * (y 1).val = (y 1).val; omega)
  exact ((congrArg X hy).trans (h (y 1))).trans (congrArg G he.symm)

/-- An index of the tile array is in point `t`'s block iff its row is among the block's 5000. -/
theorem mem_blk5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v62_0).slice (win2_5.rect t)).set ↔ _
  rw [View.set_slice_whole, Rect.mem_set_unit]
  exact Iff.rfl

theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v62_1).slice (win2_6.rect t)).set ↔ _
  rw [View.set_slice_whole, Rect.mem_set_unit]
  exact Iff.rfl

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v62_2).slice (win2_7.rect t)).set ↔ _
  rw [View.set_slice_whole, Rect.mem_set_unit]
  exact Iff.rfl

/-- Every row of the tile array is in the block of the point that computes its tile. -/
theorem cover5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 5000, by rw [hN]; omega⟩, flush2_5 _, ?_⟩
  rw [mem_blk5]
  obtain ⟨-, -, e0, e1⟩ := idx_tile (⟨(i 0).val / 5000, by rw [hN]; omega⟩ : Fin cfg2.N)
  intro ax
  match ax with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e0]; dsimp only; omega
  | ⟨1, _⟩ =>
    show win2_5.index ⟨(i 0).val / 5000, _⟩ (1 : Fin 2) * 128 ≤ (i 1).val ∧ (i 1).val < win2_5.index ⟨(i 0).val / 5000, _⟩ (1 : Fin 2) * 128 + 128
    rw [e1]; omega

/-- The last grid point. -/
def tLast : Fin cfg2.N := ⟨19, by rw [hN]; decide⟩

/-- The one-row array of window 6 is the last point's block. -/
theorem cover6 (i : S1x128.Idx) :
    ∃ t : Fin cfg2.N, (cfg2.win 6).flush t = true ∧ i ∈ ((cfg2.win 6).blk t).view.set := by
  have hi0 : (i 0).val < 1 := (i 0).isLt
  have hi1 : (i 1).val < 128 := (i 1).isLt
  refine ⟨tLast, (flush2_6 tLast).mpr rfl, ?_⟩
  rw [mem_blk6]
  obtain ⟨e10, e11, e20, e21, e30, e31, e40, e41, e60, e61, e70, e71⟩ := idx_one tLast
  intro ax
  match ax with
  | ⟨0, _⟩ =>
    show win2_6.index tLast (0 : Fin 2) * 1 ≤ (i 0).val ∧ (i 0).val < win2_6.index tLast (0 : Fin 2) * 1 + 1
    omega
  | ⟨1, _⟩ =>
    show win2_6.index tLast (1 : Fin 2) * 128 ≤ (i 1).val ∧ (i 1).val < win2_6.index tLast (1 : Fin 2) * 128 + 128
    omega

/-- The one-row array of window 7 is the last point's block. -/
theorem cover7 (i : S1x128.Idx) :
    ∃ t : Fin cfg2.N, (cfg2.win 7).flush t = true ∧ i ∈ ((cfg2.win 7).blk t).view.set := by
  have hi0 : (i 0).val < 1 := (i 0).isLt
  have hi1 : (i 1).val < 128 := (i 1).isLt
  refine ⟨tLast, (flush2_7 tLast).mpr rfl, ?_⟩
  rw [mem_blk7]
  obtain ⟨e10, e11, e20, e21, e30, e31, e40, e41, e60, e61, e70, e71⟩ := idx_one tLast
  intro ax
  match ax with
  | ⟨0, _⟩ =>
    show win2_7.index tLast (0 : Fin 2) * 1 ≤ (i 0).val ∧ (i 0).val < win2_7.index tLast (0 : Fin 2) * 1 + 1
    omega
  | ⟨1, _⟩ =>
    show win2_7.index tLast (1 : Fin 2) * 128 ≤ (i 1).val ∧ (i 1).val < win2_7.index tLast (1 : Fin 2) * 128 + 128
    omega

/-- The tile array after the run, as one function of the region-entry tables. -/
def G5 : S100000x128.Idx → EReal := fun i => H V c (i 0) (i 1)
/-- The column sums after the run. -/
def G6 : S1x128.Idx → EReal := fun i => colSum (H V c) (i 1)
/-- The column sums of squares after the run. -/
def G7 : S1x128.Idx → EReal := fun i => colSumSq (H V c) (i 1)

/-- What point `t` writes back through the tile window is its block of the rectified layer. -/
theorem flushed5 (t : Fin cfg2.N) :
    (dat2 V c).flushed 5 t = ((cfg2.win 5).blk t).view.read (Elt Ideal) (G5 V c) := by
  show (cfg2.win 5).cut (grid2.coords t) ((dat2 V c).after 5 t) = _
  rw [after2_5, (outs_inv V c t.val t.isLt).1]
  exact cut_read5 t (tile V c t) (G5 V c) fun p q => tile_apply V c t p q

/-- The sums over the 20 tiles of a column are the column's sums over the 100000 rows. -/
theorem tot_colSum (q : Fin 128) (n : ℕ) (h : n < 20) (hn : n = 19) :
    runTot (fun s hs => ∑ p : Fin 5000, H V c (rowOf ⟨s, hs⟩ p) q) n h = colSum (H V c) q :=
  (runTot_last _ n h hn).trans (sum_tiles fun i => H V c i q)

theorem tot_colSumSq (q : Fin 128) (n : ℕ) (h : n < 20) (hn : n = 19) :
    runTot (fun s hs => ∑ p : Fin 5000, H V c (rowOf ⟨s, hs⟩ p) q * H V c (rowOf ⟨s, hs⟩ p) q) n h = colSumSq (H V c) q :=
  (runTot_last _ n h hn).trans (sum_tiles fun i => H V c i q * H V c i q)

/-- The one write-back of the running column sum, after the last point, writes the column sums. -/
theorem flushed6 (t : Fin cfg2.N) (hf : (cfg2.win 6).flush t = true) :
    (dat2 V c).flushed 6 t = ((cfg2.win 6).blk t).view.read (Elt Ideal) (G6 V c) := by
  have hN' : cfg2.N = 20 := hN
  have h19 : t.val = 19 := by have := (flush2_6 t).mp hf; have := t.isLt; omega
  show (cfg2.win 6).cut (grid2.coords t) ((dat2 V c).after 6 t) = _
  rw [after2_6]
  exact cut_read6 t (outsAt2 V c t.val t.isLt).2.1 (G6 V c) fun q =>
    ((outs_inv V c t.val t.isLt).2.1 q).trans (tot_colSum V c q t.val (lt_of_lt_of_eq t.isLt hN) h19)

/-- The one write-back of the running column sum of squares, after the last point, writes the column sums of squares. -/
theorem flushed7 (t : Fin cfg2.N) (hf : (cfg2.win 7).flush t = true) :
    (dat2 V c).flushed 7 t = ((cfg2.win 7).blk t).view.read (Elt Ideal) (G7 V c) := by
  have hN' : cfg2.N = 20 := hN
  have h19 : t.val = 19 := by have := (flush2_7 t).mp hf; have := t.isLt; omega
  show (cfg2.win 7).cut (grid2.coords t) ((dat2 V c).after 7 t) = _
  rw [after2_7]
  exact cut_read7 t (outsAt2 V c t.val t.isLt).2.2 (G7 V c) fun q =>
    ((outs_inv V c t.val t.isLt).2.2 q).trans (tot_colSumSq V c q t.val (lt_of_lt_of_eq t.isLt hN) h19)

theorem arr5 : (dat2 V c).arrAt 5 cfg2.N = G5 V c :=
  (dat2 V c).arrAt_eq_of_cover 5 (G5 V c) (fun t _ => flushed5 V c t) cover5
theorem arr6 : (dat2 V c).arrAt 6 cfg2.N = G6 V c :=
  (dat2 V c).arrAt_eq_of_cover 6 (G6 V c) (flushed6 V c) cover6
theorem arr7 : (dat2 V c).arrAt 7 cfg2.N = G7 V c :=
  (dat2 V c).arrAt_eq_of_cover 7 (G7 V c) (flushed7 V c) cover7

/-- The tile array ends holding the rectified layer of every row. -/
theorem arr_h (i : Fin 100000) (j : Fin 128) : (dat2 V c).arrAt 5 cfg2.N (ix2 i j) = H V c i j :=
  congrFun (arr5 V c) (ix2 i j)
/-- The running column sum ends holding each column's sum over all rows. -/
theorem arr_sum (j : Fin 128) : (dat2 V c).arrAt 6 cfg2.N (ix2 (0 : Fin 1) j) = colSum (H V c) j :=
  congrFun (arr6 V c) (ix2 (0 : Fin 1) j)
/-- The running column sum of squares ends holding each column's sum of squares over all rows. -/
theorem arr_sumsq (j : Fin 128) : (dat2 V c).arrAt 7 cfg2.N (ix2 (0 : Fin 1) j) = colSumSq (H V c) j :=
  congrFun (arr7 V c) (ix2 (0 : Fin 1) j)

end Arrays

end Cert.KernelIdeal.R2
end
-- ==== Proof.Region3.lean ====
/-
  What the fourth region leaves in its output table, index by index.

  The region walks the 100000-row table in twenty tiles of 5000 rows. At each tile it reads the tile `h`, the one
  scale row `s` and the one shift row `b`, stores `h · s + b` (each row of the tile times the scale row, entry by
  entry, plus the shift row), and writes the tile back where it came from. The tiles cover the table, so the table
  ends holding, at row `i` and column `j`, the input table's entry `(i, j)` times `s j` plus `b j`.

  Steps: the stored tile at an index (`out_eq_pay`, `pay_apply`); which rows of the arrays each point's tiles are
  (`index_facts`, `tile_apply`, `scale_apply`, `shift_apply`, `place_apply`); what a point writes back is its tile
  of one whole-table function (`flushed_eq`); every row is in some point's tile (`mem_tile`, `cover`); the table
  after the last point (`arr_eq`, `arr_out`).
-/
import proofs.«146512_j36301063586429_1_alg».proof.Proof.Gen.KernelIdeal.Frame
import proofs.«146512_j36301063586429_1_alg».proof.Proof.Spec
import Idealize.ShloMosaic.Lib.Pipeline.Value
import Idealize.ShloMosaic.Lib.ValueIdx
import Idealize.ShloMosaic.Lib.ValueLayout
import Idealize.ShloMosaic.Lib.Tactic

noncomputable section

namespace Cert.KernelIdeal.R3

open Idealize.ShloMosaic Idealize.ShloMosaic.TcCoe Idealize.SL.Sem Idealize.ShloMosaic.ValueIdx Cert.KernelIdeal Cert.KernelIdeal.Gen Cert.NodeMlp
open Idealize.ShloMosaic.Pipeline (Dat)

/-- The zero offsets of a whole-tile access, as the constant function. -/
theorem zero_offsets : (![0, 0] : Fin 2 → Nat) = fun _ => 0 := funext fun a => by fin_cases a <;> rfl

/-- One store through the whole tile leaves its payload, computed from the three tiles as loaded whole. -/
theorem out_eq_pay (x0 : Vec Ideal S5000x128 .f32) (x1 x2 : Vec Ideal S1x128 .f32) :
    out3_3 x0 x1 x2 = k3_pay1 x0 x1 x2 := by
  unfold out3_3
  rw [View.canon_unit_zero zero_offsets]
  simp only [View.ld_unit_zero (S := S5000x128) zero_offsets, View.ld_unit_zero (S := S1x128) zero_offsets]

/-- The payload at row `p`, feature `k`: the tile's entry times the scale row's entry plus the shift row's entry. -/
theorem pay_apply (x0 : Vec Ideal S5000x128 .f32) (x1 x2 : Vec Ideal S1x128 .f32) (p : Fin 5000) (k : Fin 128) :
    k3_pay1 x0 x1 x2 (ix2 p k) = x0 (ix2 p k) * x1 (ix2 (0 : Fin 1) k) + x2 (ix2 (0 : Fin 1) k) := by
  unfold k3_pay1
  simp only [shapeCast_self]
  rw [addf_apply, mulf_apply, broadcastTo_1b_ab_apply, broadcastTo_1b_ab_apply]

/-- The index maps, decided over the twenty grid points: the table's tiles move with the point, the two rows stay. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b)) (c : Dev nD)

/-- Point `t`'s tile of the input table holds, entry by entry, the table where the output tile's entry sits. -/
theorem tile_apply (t : Fin cfg3.N) (y : S5000x128.Idx) :
    (iblk3 V c 0 t : Vec Ideal S5000x128 .f32) y = V c main_v62_0 (((cfg3.win 3).blk t).view.emb y) := by
  unfold iblk3
  rw [View.read_apply]
  show V c main_v62_0 _ = V c main_v62_0 _
  congr 1

/-- The scale row's tile is the scale row at every point. -/
theorem scale_apply (t : Fin cfg3.N) (k : Fin 128) :
    (iblk3 V c 1 t : Vec Ideal S1x128 .f32) (ix2 (0 : Fin 1) k) = V c main_v73 (ix2 (0 : Fin 1) k) := by
  obtain ⟨-, -, e2, e3, -, -, -, -⟩ := index_facts t
  unfold iblk3
  rw [View.read_apply]
  show V c main_v73 _ = V c main_v73 _
  congr 1
  funext a; apply Fin.ext
  match a with
  | ⟨0, _⟩ => show win3_1.index t (0 : Fin 2) * 1 + 1 * 0 = 0; rw [e2]
  | ⟨1, _⟩ => show win3_1.index t (1 : Fin 2) * 128 + 1 * k.val = k.val; rw [e3]; omega

/-- The shift row's tile is the shift row at every point. -/
theorem shift_apply (t : Fin cfg3.N) (k : Fin 128) :
    (iblk3 V c 2 t : Vec Ideal S1x128 .f32) (ix2 (0 : Fin 1) k) = V c main_v76 (ix2 (0 : Fin 1) k) := by
  obtain ⟨-, -, -, -, e4, e5, -, -⟩ := index_facts t
  unfold iblk3
  rw [View.read_apply]
  show V c main_v76 _ = V c main_v76 _
  congr 1
  funext a; apply Fin.ext
  match a with
  | ⟨0, _⟩ => show win3_2.index t (0 : Fin 2) * 1 + 1 * 0 = 0; rw [e4]
  | ⟨1, _⟩ => show win3_2.index t (1 : Fin 2) * 128 + 1 * k.val = k.val; rw [e5]; omega

/-- One affine map per column over a whole table: the entry times its column's scale plus its column's shift. -/
abbrev affArr (H : S100000x128.Idx → EReal) (s b : S1x128.Idx → EReal) : S100000x128.Idx → EReal :=
  fun i => H i * s (ix2 (0 : Fin 1) (i 1 : Fin 128)) + b (ix2 (0 : Fin 1) (i 1 : Fin 128))

/-- What the output table ends holding, as one function of the three arrays the region reads. -/
abbrev outArr : S100000x128.Idx → EReal := affArr (V c main_v62_0) (V c main_v73) (V c main_v76)

/-- Where entry `(p, k)` of point `t`'s output tile sits in the table: row `5000 t + p`, column `k`. -/
theorem place_apply (t : Fin cfg3.N) (p : Fin 5000) (k : Fin 128) :
    (((cfg3.win 3).blk t).view.emb (ix2 p k) : S100000x128.Idx) = ix2 (rowOf ⟨t.val, lt_of_lt_of_eq t.isLt N_3⟩ p) k := by
  obtain ⟨-, -, -, -, -, -, e6, e7⟩ := index_facts t
  funext a; apply Fin.ext
  match a with
  | ⟨0, _⟩ => show win3_3.index t (0 : Fin 2) * 5000 + 1 * p.val = 5000 * t.val + p.val; rw [e6]; omega
  | ⟨1, _⟩ => show win3_3.index t (1 : Fin 2) * 128 + 1 * k.val = k.val; rw [e7]; omega

/-- What point `t` writes back is its tile of `outArr`. -/
theorem flushed_eq (t : Fin cfg3.N) :
    (dat3 V c).flushed 3 t = ((cfg3.win 3).blk t).view.read (Elt Ideal) (outArr V c) := by
  show (cfg3.win 3).cut (grid3.coords t) ((dat3 V c).after 3 t) = _
  rw [after3_3, out_eq_pay]
  have hy : ∀ y : S5000x128.Idx, k3_pay1 (iblk3 V c 0 t) (iblk3 V c 1 t) (iblk3 V c 2 t) y
      = outArr V c (((cfg3.win 3).blk t).view.emb y) := by
    intro y
    obtain ⟨p, k, rfl⟩ : ∃ (p : Fin 5000) (k : Fin 128), y = ix2 p k := ⟨y 0, y 1, eq_ix2 y⟩
    rw [pay_apply, tile_apply, scale_apply, shift_apply, place_apply]
  funext y
  rw [View.read_apply]
  exact hy y

/-- An index of the table is in point `t`'s tile iff each coordinate is in the tile's range on its axis. -/
theorem mem_tile (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v77).slice (win3_3.rect t)).set ↔ _
  rw [View.set_slice_whole, Rect.mem_set_unit]
  exact Iff.rfl

/-- Every row of the table is in some point's tile: row `r` in that of point `r / 5000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hlt : (i 0).val / 5000 < 20 := by omega
  obtain ⟨t, ht⟩ : ∃ t : Fin cfg3.N, t.val = (i 0).val / 5000 := ⟨⟨(i 0).val / 5000, lt_of_lt_of_eq hlt N_3.symm⟩, rfl⟩
  refine ⟨t, flush3_3 t, ?_⟩
  obtain ⟨-, -, -, -, -, -, e6, e7⟩ := index_facts t
  rw [mem_tile]
  intro a
  match a with
  | ⟨0, _⟩ => show win3_3.index t (0 : Fin 2) * 5000 ≤ (i 0).val ∧ (i 0).val < win3_3.index t (0 : Fin 2) * 5000 + 5000; rw [e6, ht]; omega
  | ⟨1, _⟩ => show win3_3.index t (1 : Fin 2) * 128 ≤ (i 1).val ∧ (i 1).val < win3_3.index t (1 : Fin 2) * 128 + 128; rw [e7]; omega

/-- The output table after the region's twenty points is `outArr`. -/
theorem arr_eq : (dat3 V c).arrAt 3 cfg3.N = outArr V c :=
  (dat3 V c).arrAt_eq_of_cover 3 (outArr V c) (fun t _ => flushed_eq V c t) cover

/-- The output table after the region, index by index: the input table's entry times its column's scale plus its column's shift. -/
theorem arr_out (i : Fin 100000) (j : Fin 128) :
    (dat3 V c).arrAt 3 cfg3.N (ix2 i j)
      = affine (fun i k => V c main_v62_0 (ix2 i k)) (fun k => V c main_v73 (ix2 (0 : Fin 1) k)) (fun k => V c main_v76 (ix2 (0 : Fin 1) k)) i j := by
  have h := congrFun (arr_eq V c) (ix2 i j)
  exact h

end Cert.KernelIdeal.R3

end
-- ==== Proof.KChain.lean ====
/-
  The contents of the idealized kernel program's result buffer, as a function of its arguments.

  The generated frame names the TensorCore's buffer contents at the nine boundaries of @main: the launch, after the
  host operations before each of the four kernel regions, and after each region. A region's output arrays at its exit
  are functions of its operand arrays at its entry (the first three regions: a rectified linear layer of 100000 rows
  in 20 tiles of 5000, with the running column sums of the output and of its square; the fourth: one affine map per
  column); the host operations between two regions turn a region's column sums into the next region's per-column
  scale and shift. Followed back from the last boundary to the launch, the result buffer holds, index by index, the
  three-layer update `netK` of the argument tables.
-/
import proofs.«146512_j36301063586429_1_alg».proof.Proof.Gen.KernelIdeal.Frame
import proofs.«146512_j36301063586429_1_alg».proof.Proof.Spec
import proofs.«146512_j36301063586429_1_alg».proof.Proof.HostSpec
import proofs.«146512_j36301063586429_1_alg».proof.Proof.KDefs
import proofs.«146512_j36301063586429_1_alg».proof.Proof.KHost
import proofs.«146512_j36301063586429_1_alg».proof.Proof.Region0
import proofs.«146512_j36301063586429_1_alg».proof.Proof.Region1
import proofs.«146512_j36301063586429_1_alg».proof.Proof.Region2
import proofs.«146512_j36301063586429_1_alg».proof.Proof.Region3
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.StableHlo Idealize.ShloMosaic.ValueIdx
open Cert.KernelIdeal Cert.KernelIdeal.Gen Cert.NodeMlp

/-! # The contents of the result buffer, followed back through the boundaries to the arguments

  The generated frame names the TensorCore's buffer contents at the nine boundaries of @main — the launch `W0`, after
  the host operations before each kernel region (`W1`, `W3`, `W5`, `W7`) and after each region (`W2`, `W4`, `W6`, `W8`).
  Reading each region's output arrays and each host stretch's results at those boundaries, from the last one back
  to the launch, the result buffer holds, index by index, the three-layer update `netK` of the argument tables. -/

namespace Cert.KernelIdeal.Chain

variable (m : (ℓ : Loc nD τ sig) → Buf (Elt Ideal) ℓ) (ρ : Dev nD → PrngReg) (c : Dev nD)

/-! ## The argument tables, as plain functions -/

/-- The node features. -/
def X : Fin 100000 → Fin 128 → EReal := fun i k => m ((c.tc : Thread nD τ).loc main_arg0) (ix2 i k)
/-- The scatter-mean of the edge features, as the host computes it before the first launch. -/
def VE : Fin 100000 → Fin 128 → EReal := fun i k =>
  Stage.prefixV (m ((c.tc : Thread nD τ).loc main_arg1)) (m ((c.tc : Thread nD τ).loc main_arg15)) (ix2 i k)
/-- Each node's graph row, as the host gathers it before the first launch. -/
def UB : Fin 100000 → Fin 128 → EReal := fun i k =>
  Stage.prefixU (m ((c.tc : Thread nD τ).loc main_arg2)) (m ((c.tc : Thread nD τ).loc main_arg16)) (ix2 i k)
/-- The first weight table read as (input feature, output feature). -/
def w0 : Fin 384 → Fin 128 → EReal := fun k j => m ((c.tc : Thread nD τ).loc main_arg3) (ix2 j k)
def b0 : Fin 128 → EReal := fun j => m ((c.tc : Thread nD τ).loc main_arg4) (ix1 j)
def w1 : Fin 128 → Fin 128 → EReal := fun k j => m ((c.tc : Thread nD τ).loc main_arg5) (ix2 j k)
def b1 : Fin 128 → EReal := fun j => m ((c.tc : Thread nD τ).loc main_arg6) (ix1 j)
def w2 : Fin 128 → Fin 128 → EReal := fun k j => m ((c.tc : Thread nD τ).loc main_arg7) (ix2 j k)
def b2 : Fin 128 → EReal := fun j => m ((c.tc : Thread nD τ).loc main_arg8) (ix1 j)
def g0 : Fin 128 → EReal := fun j => m ((c.tc : Thread nD τ).loc main_arg9) (ix1 j)
def bt0 : Fin 128 → EReal := fun j => m ((c.tc : Thread nD τ).loc main_arg10) (ix1 j)
def g1 : Fin 128 → EReal := fun j => m ((c.tc : Thread nD τ).loc main_arg11) (ix1 j)
def bt1 : Fin 128 → EReal := fun j => m ((c.tc : Thread nD τ).loc main_arg12) (ix1 j)
def g2 : Fin 128 → EReal := fun j => m ((c.tc : Thread nD τ).loc main_arg13) (ix1 j)
def bt2 : Fin 128 → EReal := fun j => m ((c.tc : Thread nD τ).loc main_arg14) (ix1 j)

/-- The first layer's rectified output. -/
def H0 : Fin 100000 → Fin 128 → EReal :=
  lin3T (X m c) (VE m c) (UB m c) (wblock (w0 m c) 0 (by omega)) (wblock (w0 m c) 128 (by omega)) (wblock (w0 m c) 256 (by omega)) (b0 m c)
/-- The second layer's rectified output, of the standardised first. -/
def H1 : Fin 100000 → Fin 128 → EReal := linT (bnK (H0 m c) (g0 m c) (bt0 m c)) (w1 m c) (b1 m c)
/-- The third layer's rectified output, of the standardised second. -/
def H2 : Fin 100000 → Fin 128 → EReal := linT (bnK (H1 m c) (g1 m c) (bt1 m c)) (w2 m c) (b2 m c)

/-! ## Boundary 1: after the host operations before the first launch -/

theorem e1_x : (fun i k => V1 m ρ c main_arg0 (ix2 i k)) = X m c := by
  funext i k; exact congrFun (Host.h0_keep_arg0 (W0 m ρ c)) (ix2 i k)
theorem e1_v : (fun i k => V1 m ρ c main_v13 (ix2 i k)) = VE m c := by
  funext i k; exact congrFun (Host.h0_v13 (W0 m ρ c)) (ix2 i k)
theorem e1_u : (fun i k => V1 m ρ c main_v20 (ix2 i k)) = UB m c := by
  funext i k; exact congrFun (Host.h0_v20 (W0 m ρ c)) (ix2 i k)
theorem e1_wx : (fun k j => V1 m ρ c main_v22 (ix2 k j)) = wblock (w0 m c) 0 (by omega) := by
  funext k j
  refine (Host.h0_v22 (W0 m ρ c) k j).trans ?_
  show m ((c.tc : Thread nD τ).loc main_arg3) (ix2 j _) = m ((c.tc : Thread nD τ).loc main_arg3) (ix2 j _)
  exact congrArg (fun q => m ((c.tc : Thread nD τ).loc main_arg3) (ix2 j q)) (Fin.ext (Nat.zero_add _).symm)
theorem e1_wv : (fun k j => V1 m ρ c main_v24 (ix2 k j)) = wblock (w0 m c) 128 (by omega) := by
  funext k j; exact Host.h0_v24 (W0 m ρ c) k j
theorem e1_wu : (fun k j => V1 m ρ c main_v26 (ix2 k j)) = wblock (w0 m c) 256 (by omega) := by
  funext k j; exact Host.h0_v26 (W0 m ρ c) k j
theorem e1_b : (fun j => V1 m ρ c main_v27 (ix2 (0 : Fin 1) j)) = b0 m c := by
  funext j; exact Host.h0_v27 (W0 m ρ c) j

/-- Region 0's layer at the first boundary's contents is the first layer of the argument tables. -/
theorem r0_H : R0.H (V1 m ρ) c = H0 m c := by
  unfold R0.H H0
  rw [e1_x, e1_v, e1_u, e1_wx, e1_wv, e1_wu, e1_b]

/-! ## Boundary 2: after region 0 -/

theorem e2_h (i : Fin 100000) (j : Fin 128) : (W2 m ρ c (Proc.devRef .tc main_v32_0) (ix2 i j) : EReal) = H0 m c i j :=
  (congrFun (W2_arr m ρ c 7) (ix2 i j)).trans ((R0.arr_h (V1 m ρ) c i j).trans (by rw [r0_H]))
theorem e2_sum (j : Fin 128) : (W2 m ρ c (Proc.devRef .tc main_v32_1) (ix2 (0 : Fin 1) j) : EReal) = colSum (H0 m c) j :=
  (congrFun (W2_arr m ρ c 8) (ix2 (0 : Fin 1) j)).trans ((R0.arr_sum (V1 m ρ) c j).trans (by rw [r0_H]))
theorem e2_sumsq (j : Fin 128) : (W2 m ρ c (Proc.devRef .tc main_v32_2) (ix2 (0 : Fin 1) j) : EReal) = colSumSq (H0 m c) j :=
  (congrFun (W2_arr m ρ c 9) (ix2 (0 : Fin 1) j)).trans ((R0.arr_sumsq (V1 m ρ) c j).trans (by rw [r0_H]))
theorem e2_g (k : Fin 128) : (W2 m ρ c (Proc.devRef .tc main_arg9) (ix1 k) : EReal) = g0 m c k :=
  (congrFun (W2_of_ne m ρ c main_arg9 (by decide)) (ix1 k)).trans (congrFun (Host.h0_keep_arg9 (W0 m ρ c)) (ix1 k))
theorem e2_bt (k : Fin 128) : (W2 m ρ c (Proc.devRef .tc main_arg10) (ix1 k) : EReal) = bt0 m c k :=
  (congrFun (W2_of_ne m ρ c main_arg10 (by decide)) (ix1 k)).trans (congrFun (Host.h0_keep_arg10 (W0 m ρ c)) (ix1 k))

/-! ## Boundary 3: after the host operations between regions 0 and 1 -/

theorem e3_h : (fun i k => V3 m ρ c main_v32_0 (ix2 i k)) = H0 m c := by
  funext i k
  exact (congrFun (Host.h1_keep_v32_0 (W2 m ρ c)) (ix2 i k)).trans (e2_h m ρ c i k)
theorem e3_scale : (fun k => V3 m ρ c main_v43 (ix2 (0 : Fin 1) k)) = scaleK (H0 m c) (g0 m c) := by
  funext k
  refine (Host.h1_scale (W2 m ρ c) k).trans ?_
  rw [scaleK_eq_scaleOf, e2_g, e2_sum, e2_sumsq]
theorem e3_shift : (fun k => V3 m ρ c main_v46 (ix2 (0 : Fin 1) k)) = shiftK (H0 m c) (g0 m c) (bt0 m c) := by
  funext k
  refine (Host.h1_shift (W2 m ρ c) k).trans ?_
  rw [shiftK_eq_shiftOf, e2_bt, e2_sum]
  exact congrArg (shiftOf (bt0 m c k) (colSum (H0 m c) k)) (congrFun (e3_scale m ρ c) k)
theorem e3_w : (fun k j => V3 m ρ c main_v28 (ix2 k j)) = w1 m c := by
  funext k j
  exact (congrFun (Host.h1_keep_v28 (W2 m ρ c)) (ix2 k j)).trans
    ((congrFun (W2_of_ne m ρ c main_v28 (by decide)) (ix2 k j)).trans (Host.h0_v28 (W0 m ρ c) k j))
theorem e3_b : (fun j => V3 m ρ c main_v29 (ix2 (0 : Fin 1) j)) = b1 m c := by
  funext j
  exact (congrFun (Host.h1_keep_v29 (W2 m ρ c)) (ix2 (0 : Fin 1) j)).trans
    ((congrFun (W2_of_ne m ρ c main_v29 (by decide)) (ix2 (0 : Fin 1) j)).trans (Host.h0_v29 (W0 m ρ c) j))

/-- Region 1's layer at the third boundary's contents is the second layer. -/
theorem r1_H : R1.H (V3 m ρ) c = H1 m c := by
  unfold R1.H H1 bnK
  rw [e3_h, e3_scale, e3_shift, e3_w, e3_b]

/-! ## Boundary 4: after region 1 -/

theorem e4_h (i : Fin 100000) (j : Fin 128) : (W4 m ρ c (Proc.devRef .tc main_v47_0) (ix2 i j) : EReal) = H1 m c i j :=
  (congrFun (W4_arr m ρ c 5) (ix2 i j)).trans ((R1.arr_h (V3 m ρ) c i j).trans (by rw [r1_H]))
theorem e4_sum (j : Fin 128) : (W4 m ρ c (Proc.devRef .tc main_v47_1) (ix2 (0 : Fin 1) j) : EReal) = colSum (H1 m c) j :=
  (congrFun (W4_arr m ρ c 6) (ix2 (0 : Fin 1) j)).trans ((R1.arr_sum (V3 m ρ) c j).trans (by rw [r1_H]))
theorem e4_sumsq (j : Fin 128) : (W4 m ρ c (Proc.devRef .tc main_v47_2) (ix2 (0 : Fin 1) j) : EReal) = colSumSq (H1 m c) j :=
  (congrFun (W4_arr m ρ c 7) (ix2 (0 : Fin 1) j)).trans ((R1.arr_sumsq (V3 m ρ) c j).trans (by rw [r1_H]))

theorem e4_g (k : Fin 128) : (W4 m ρ c (Proc.devRef .tc main_arg11) (ix1 k) : EReal) = g1 m c k :=
  (congrFun (W4_of_ne m ρ c main_arg11 (by decide)) (ix1 k)).trans
    ((congrFun (Host.h1_keep_arg11 (W2 m ρ c)) (ix1 k)).trans
      ((congrFun (W2_of_ne m ρ c main_arg11 (by decide)) (ix1 k)).trans (congrFun (Host.h0_keep_arg11 (W0 m ρ c)) (ix1 k))))
theorem e4_bt (k : Fin 128) : (W4 m ρ c (Proc.devRef .tc main_arg12) (ix1 k) : EReal) = bt1 m c k :=
  (congrFun (W4_of_ne m ρ c main_arg12 (by decide)) (ix1 k)).trans
    ((congrFun (Host.h1_keep_arg12 (W2 m ρ c)) (ix1 k)).trans
      ((congrFun (W2_of_ne m ρ c main_arg12 (by decide)) (ix1 k)).trans (congrFun (Host.h0_keep_arg12 (W0 m ρ c)) (ix1 k))))

/-! ## Boundary 5: after the host operations between regions 1 and 2 -/

theorem e5_h : (fun i k => V5 m ρ c main_v47_0 (ix2 i k)) = H1 m c := by
  funext i k
  exact (congrFun (Host.h2_keep_v47_0 (W4 m ρ c)) (ix2 i k)).trans (e4_h m ρ c i k)
theorem e5_scale : (fun k => V5 m ρ c main_v58 (ix2 (0 : Fin 1) k)) = scaleK (H1 m c) (g1 m c) := by
  funext k
  refine (Host.h2_scale (W4 m ρ c) k).trans ?_
  rw [scaleK_eq_scaleOf, e4_g, e4_sum, e4_sumsq]
theorem e5_shift : (fun k => V5 m ρ c main_v61 (ix2 (0 : Fin 1) k)) = shiftK (H1 m c) (g1 m c) (bt1 m c) := by
  funext k
  refine (Host.h2_shift (W4 m ρ c) k).trans ?_
  rw [shiftK_eq_shiftOf, e4_bt, e4_sum]
  exact congrArg (shiftOf (bt1 m c k) (colSum (H1 m c) k)) (congrFun (e5_scale m ρ c) k)
theorem e5_w : (fun k j => V5 m ρ c main_v30 (ix2 k j)) = w2 m c := by
  funext k j
  exact (congrFun (Host.h2_keep_v30 (W4 m ρ c)) (ix2 k j)).trans
    ((congrFun (W4_of_ne m ρ c main_v30 (by decide)) (ix2 k j)).trans
      ((congrFun (Host.h1_keep_v30 (W2 m ρ c)) (ix2 k j)).trans
        ((congrFun (W2_of_ne m ρ c main_v30 (by decide)) (ix2 k j)).trans (Host.h0_v30 (W0 m ρ c) k j))))
theorem e5_b : (fun j => V5 m ρ c main_v31 (ix2 (0 : Fin 1) j)) = b2 m c := by
  funext j
  exact (congrFun (Host.h2_keep_v31 (W4 m ρ c)) (ix2 (0 : Fin 1) j)).trans
    ((congrFun (W4_of_ne m ρ c main_v31 (by decide)) (ix2 (0 : Fin 1) j)).trans
      ((congrFun (Host.h1_keep_v31 (W2 m ρ c)) (ix2 (0 : Fin 1) j)).trans
        ((congrFun (W2_of_ne m ρ c main_v31 (by decide)) (ix2 (0 : Fin 1) j)).trans (Host.h0_v31 (W0 m ρ c) j))))

/-- Region 2's layer at the fifth boundary's contents is the third layer. -/
theorem r2_H : R2.H (V5 m ρ) c = H2 m c := by
  unfold R2.H H2 bnK
  rw [e5_h, e5_scale, e5_shift, e5_w, e5_b]

/-! ## Boundary 6: after region 2 -/

theorem e6_h (i : Fin 100000) (j : Fin 128) : (W6 m ρ c (Proc.devRef .tc main_v62_0) (ix2 i j) : EReal) = H2 m c i j :=
  (congrFun (W6_arr m ρ c 5) (ix2 i j)).trans ((R2.arr_h (V5 m ρ) c i j).trans (by rw [r2_H]))
theorem e6_sum (j : Fin 128) : (W6 m ρ c (Proc.devRef .tc main_v62_1) (ix2 (0 : Fin 1) j) : EReal) = colSum (H2 m c) j :=
  (congrFun (W6_arr m ρ c 6) (ix2 (0 : Fin 1) j)).trans ((R2.arr_sum (V5 m ρ) c j).trans (by rw [r2_H]))
theorem e6_sumsq (j : Fin 128) : (W6 m ρ c (Proc.devRef .tc main_v62_2) (ix2 (0 : Fin 1) j) : EReal) = colSumSq (H2 m c) j :=
  (congrFun (W6_arr m ρ c 7) (ix2 (0 : Fin 1) j)).trans ((R2.arr_sumsq (V5 m ρ) c j).trans (by rw [r2_H]))

theorem e6_g (k : Fin 128) : (W6 m ρ c (Proc.devRef .tc main_arg13) (ix1 k) : EReal) = g2 m c k :=
  (congrFun (W6_of_ne m ρ c main_arg13 (by decide)) (ix1 k)).trans
    ((congrFun (Host.h2_keep_arg13 (W4 m ρ c)) (ix1 k)).trans
      ((congrFun (W4_of_ne m ρ c main_arg13 (by decide)) (ix1 k)).trans
        ((congrFun (Host.h1_keep_arg13 (W2 m ρ c)) (ix1 k)).trans
          ((congrFun (W2_of_ne m ρ c main_arg13 (by decide)) (ix1 k)).trans (congrFun (Host.h0_keep_arg13 (W0 m ρ c)) (ix1 k))))))
theorem e6_bt (k : Fin 128) : (W6 m ρ c (Proc.devRef .tc main_arg14) (ix1 k) : EReal) = bt2 m c k :=
  (congrFun (W6_of_ne m ρ c main_arg14 (by decide)) (ix1 k)).trans
    ((congrFun (Host.h2_keep_arg14 (W4 m ρ c)) (ix1 k)).trans
      ((congrFun (W4_of_ne m ρ c main_arg14 (by decide)) (ix1 k)).trans
        ((congrFun (Host.h1_keep_arg14 (W2 m ρ c)) (ix1 k)).trans
          ((congrFun (W2_of_ne m ρ c main_arg14 (by decide)) (ix1 k)).trans (congrFun (Host.h0_keep_arg14 (W0 m ρ c)) (ix1 k))))))

/-! ## Boundary 7: after the host operations between regions 2 and 3 -/

theorem e7_h : (fun i k => V7 m ρ c main_v62_0 (ix2 i k)) = H2 m c := by
  funext i k
  exact (congrFun (Host.h3_keep_v62_0 (W6 m ρ c)) (ix2 i k)).trans (e6_h m ρ c i k)
theorem e7_scale : (fun k => V7 m ρ c main_v73 (ix2 (0 : Fin 1) k)) = scaleK (H2 m c) (g2 m c) := by
  funext k
  refine (Host.h3_scale (W6 m ρ c) k).trans ?_
  rw [scaleK_eq_scaleOf, e6_g, e6_sum, e6_sumsq]
theorem e7_shift : (fun k => V7 m ρ c main_v76 (ix2 (0 : Fin 1) k)) = shiftK (H2 m c) (g2 m c) (bt2 m c) := by
  funext k
  refine (Host.h3_shift (W6 m ρ c) k).trans ?_
  rw [shiftK_eq_shiftOf, e6_bt, e6_sum]
  exact congrArg (shiftOf (bt2 m c k) (colSum (H2 m c) k)) (congrFun (e7_scale m ρ c) k)

/-! ## Boundary 8: the result -/

/-- The result buffer at the last boundary holds, index by index, the three-layer update of the argument tables
    with the folded standardisation and the split first layer. -/
theorem result_eq (i : Fin 100000) (j : Fin 128) :
    (W8 m ρ c (Proc.devRef .tc main_v77) (ix2 i j) : EReal)
      = netK (X m c) (VE m c) (UB m c) (w0 m c) (b0 m c) (w1 m c) (b1 m c) (w2 m c) (b2 m c)
          (g0 m c) (bt0 m c) (g1 m c) (bt1 m c) (g2 m c) (bt2 m c) i j := by
  refine (congrFun (W8_arr m ρ c 3) (ix2 i j)).trans ((R3.arr_out (V7 m ρ) c i j).trans ?_)
  rw [e7_h, e7_scale, e7_shift]
  rfl

end Cert.KernelIdeal.Chain

end
-- ==== Proof.RefRun.lean ====
/-
  The reference program's run. Once its six calls are unfolded at their call sites, @main is a straight line of 184
  host operations. The line is cut where the reference's stage values sit: the two node tables (the edge rows'
  scatter-mean, the graph rows' lookup), then for each of the three layers the rectified linear map, the column means
  and column variances, and the standardisation. Each stretch is read over arbitrary contents as the stage function of
  the values it reads, and leaves every buffer it does not write. Joined in order, the result buffer holds
  `Stage.out` of the seventeen arguments' first contents; no operation writes an argument, so each ends as it began.
-/
import proofs.«146512_j36301063586429_1_alg».proof.Proof.RefDefs
import proofs.«146512_j36301063586429_1_alg».proof.Proof.Gen.ReferenceIdeal
import Idealize.ShloMosaic.Lib.StableHlo.Run
import Idealize.ShloMosaic.Lib.Tactic

noncomputable section

namespace Cert.ReferenceIdeal.Value

open Idealize.ShloMosaic Idealize.ShloMosaic.TcCoe Idealize.SL.Sem Idealize.ShloMosaic.StableHlo Cert.ReferenceIdeal Cert.ReferenceIdeal.Gen

variable {F : FTy → Type} [FloatOps F]

/-- The two node tables built before the first layer: the edge rows' scatter-mean and the graph rows' lookup. -/
abbrev opsPre : List (HloOp τ sig (Elt F)) :=
  ( StableHlo.unary main_arg15 main_v0 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v0 main_v1 rfl shapeCasts_S1x1600000_S1600000
  :: StableHlo.nullary main_cst (constant S_ .f32 0x00000000#32)
  :: StableHlo.unary main_cst main_v2 (broadcastInDim S100000x128 ![] bcast_S_S100000x128 : (⟨S_, .f32⟩ : BufTy).Contents (Elt F) → (⟨S100000x128, .f32⟩ : BufTy).Contents (Elt F))
  :: StableHlo.unary main_v1 main_v3 (broadcastInDim S1600000x1 ![0] bcast_S1600000_S1600000x1_0 : (⟨S1600000, .i32⟩ : BufTy).Contents (Elt F) → (⟨S1600000x1, .i32⟩ : BufTy).Contents (Elt F))
  :: StableHlo.ternary main_v2 main_v3 main_arg1 main_v4 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
  :: StableHlo.nullary main_cst_0 (constant S_ .f32 0x3F800000#32)
  :: StableHlo.unary main_cst_0 main_v5 (broadcastInDim S1600000 ![] bcast_S_S1600000 : (⟨S_, .f32⟩ : BufTy).Contents (Elt F) → (⟨S1600000, .f32⟩ : BufTy).Contents (Elt F))
  :: StableHlo.nullary main_cst_1 (constant S_ .f32 0x00000000#32)
  :: StableHlo.unary main_cst_1 main_v6 (broadcastInDim S100000 ![] bcast_S_S100000 : (⟨S_, .f32⟩ : BufTy).Contents (Elt F) → (⟨S100000, .f32⟩ : BufTy).Contents (Elt F))
  :: StableHlo.unary main_v1 main_v7 (broadcastInDim S1600000x1 ![0] bcast_S1600000_S1600000x1_0 : (⟨S1600000, .i32⟩ : BufTy).Contents (Elt F) → (⟨S1600000x1, .i32⟩ : BufTy).Contents (Elt F))
  :: StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F))
  :: StableHlo.nullary main_cst_2 (constant S_ .f32 0x3F800000#32)
  :: StableHlo.unary main_cst_2 main_v9 (broadcastInDim S100000 ![] bcast_S_S100000 : (⟨S_, .f32⟩ : BufTy).Contents (Elt F) → (⟨S100000, .f32⟩ : BufTy).Contents (Elt F))
  :: StableHlo.binary main_v8 main_v9 main_v10 (maximumf : (⟨S100000, .f32⟩ : BufTy).Contents (Elt F) → (⟨S100000, .f32⟩ : BufTy).Contents (Elt F) → (⟨S100000, .f32⟩ : BufTy).Contents (Elt F))
  :: StableHlo.unary main_v10 main_v11 (broadcastInDim S100000x1 ![0] bcast_S100000_S100000x1_0 : (⟨S100000, .f32⟩ : BufTy).Contents (Elt F) → (⟨S100000x1, .f32⟩ : BufTy).Contents (Elt F))
  :: StableHlo.unary main_v11 main_v12 (broadcastInDim S100000x128 ![0, 1] bcast_S100000x1_S100000x128_0_1 : (⟨S100000x1, .f32⟩ : BufTy).Contents (Elt F) → (⟨S100000x128, .f32⟩ : BufTy).Contents (Elt F))
  :: StableHlo.binary main_v4 main_v12 main_v13 (Host.divf : (⟨S100000x128, .f32⟩ : BufTy).Contents (Elt F) → (⟨S100000x128, .f32⟩ : BufTy).Contents (Elt F) → (⟨S100000x128, .f32⟩ : BufTy).Contents (Elt F))
  :: StableHlo.nullary main_c (constantI S_ 32 0#32)
  :: StableHlo.unary main_c main_v14 (broadcastInDim S100000 ![] bcast_S_S100000 : (⟨S_, .i32⟩ : BufTy).Contents (Elt F) → (⟨S100000, .i32⟩ : BufTy).Contents (Elt F))
  :: StableHlo.binary main_arg16 main_v14 main_v15 (cmpi .slt : (⟨S100000, .i32⟩ : BufTy).Contents (Elt F) → (⟨S100000, .i32⟩ : BufTy).Contents (Elt F) → (⟨S100000, .i1⟩ : BufTy).Contents (Elt F))
  :: StableHlo.nullary main_c_3 (constantI S_ 32 64#32)
  :: StableHlo.unary main_c_3 main_v16 (broadcastInDim S100000 ![] bcast_S_S100000 : (⟨S_, .i32⟩ : BufTy).Contents (Elt F) → (⟨S100000, .i32⟩ : BufTy).Contents (Elt F))
  :: StableHlo.binary main_arg16 main_v16 main_v17 (addi : (⟨S100000, .i32⟩ : BufTy).Contents (Elt F) → (⟨S100000, .i32⟩ : BufTy).Contents (Elt F) → (⟨S100000, .i32⟩ : BufTy).Contents (Elt F))
  :: StableHlo.ternary main_v15 main_v17 main_arg16 main_v18 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v18 main_v19 (broadcastInDim S100000x1 ![0] bcast_S100000_S100000x1_0 : (⟨S100000, .i32⟩ : BufTy).Contents (Elt F) → (⟨S100000x1, .i32⟩ : BufTy).Contents (Elt F))
  :: StableHlo.binary main_arg2 main_v19 main_v20 ((fun x i => Host.gather gather_S64x128_S100000x1_S100000x128_1_0_n_n_0_1_1128 x i) : (⟨S64x128, .f32⟩ : BufTy).Contents (Elt F) → (⟨S100000x1, .i32⟩ : BufTy).Contents (Elt F) → (⟨S100000x128, .f32⟩ : BufTy).Contents (Elt F))
  :: [])

/-- The first layer's linear map and rectifier, the join of the three tables first. -/
abbrev opsLin0 : List (HloOp τ sig (Elt F)) :=
  ( StableHlo.nary ![main_arg0, main_v13, main_v20] main_v21 (fun u => concatenate S100000x384 1 [⟨S100000x128, u 0⟩, ⟨S100000x128, u 1⟩, ⟨S100000x128, u 2⟩] concatenates_S100000x128_S100000x128_S100000x128_S100000x384_d1)
  :: StableHlo.unary main_arg3 main_v22 ((transpose S384x128 [1, 0] · transposes_S128x384_S384x128_1_0) : (⟨S128x384, .f32⟩ : BufTy).Contents (Elt F) → (⟨S384x128, .f32⟩ : BufTy).Contents (Elt F))
  :: StableHlo.binary main_v21 main_v22 main_v23 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F))
  :: StableHlo.unary main_arg4 main_v24 (broadcastInDim S1x128 ![1] bcast_S128_S1x128_1 : (⟨S128, .f32⟩ : BufTy).Contents (Elt F) → (⟨S1x128, .f32⟩ : BufTy).Contents (Elt F))
  :: StableHlo.unary main_v24 main_v25 (broadcastInDim S100000x128 ![0, 1] bcast_S1x128_S100000x128_0_1 : (⟨S1x128, .f32⟩ : BufTy).Contents (Elt F) → (⟨S100000x128, .f32⟩ : BufTy).Contents (Elt F))
  :: StableHlo.binary main_v23 main_v25 main_v26 (addf : (⟨S100000x128, .f32⟩ : BufTy).Contents (Elt F) → (⟨S100000x128, .f32⟩ : BufTy).Contents (Elt F) → (⟨S100000x128, .f32⟩ : BufTy).Contents (Elt F))
  :: TRef.nullary main_call0.cst (constant S_ .f32 0x00000000#32)
  :: TRef.unary main_call0.cst main_call0.v0 (broadcastInDim S100000x128 ![] bcast_S_S100000x128)
  :: TRef.binary (TRef.of main_v26 : TRef sig ⟨S100000x128, .f32⟩) main_call0.v0 main_call0.v1 maximumf
  :: [])

/-- The first layer's column means and column variances. -/
abbrev opsMv0 : List (HloOp τ sig (Elt F)) :=
  ( StableHlo.nullary main_cst_4 (constant S_ .f32 0x00000000#32)
  :: StableHlo.binary main_v27 main_cst_4 main_v28 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))
  :: StableHlo.nullary main_cst_5 (constant S_ .f32 0x47C35000#32)
  :: StableHlo.unary main_cst_5 main_v29 (broadcastInDim S128 ![] bcast_S_S128 : (⟨S_, .f32⟩ : BufTy).Contents (Elt F) → (⟨S128, .f32⟩ : BufTy).Contents (Elt F))
  :: StableHlo.binary main_v28 main_v29 main_v30 (Host.divf : (⟨S128, .f32⟩ : BufTy).Contents (Elt F) → (⟨S128, .f32⟩ : BufTy).Contents (Elt F) → (⟨S128, .f32⟩ : BufTy).Contents (Elt F))
  :: StableHlo.nullary main_c_6 (constantI S_ 32 0#32)
  :: TRef.nullary main_call1.cst (constant S_ .f32 0x00000000#32)
  :: TRef.binary (TRef.of main_v27 : TRef sig ⟨S100000x128, .f32⟩) main_call1.cst main_call1.v0 (fun x v => Host.reduceAdd x v reducesTo_S100000x128_S128_d0 h_S_)
  :: TRef.unary main_call1.v0 main_call1.v1 (broadcastInDim S1x128 ![1] bcast_S128_S1x128_1)
  :: TRef.nullary main_call1.cst_0 (constant S_ .f32 0x47C35000#32)
  :: TRef.unary main_call1.cst_0 main_call1.v2 (broadcastInDim S1x128 ![] bcast_S_S1x128)
  :: TRef.binary main_call1.v1 main_call1.v2 main_call1.v3 Host.divf
  :: TRef.unary main_call1.v3 main_call1.v4 (broadcastInDim S100000x128 ![0, 1] bcast_S1x128_S100000x128_0_1)
  :: TRef.binary (TRef.of main_v27 : TRef sig ⟨S100000x128, .f32⟩) main_call1.v4 main_call1.v5 subf
  :: TRef.binary main_call1.v5 main_call1.v5 main_call1.v6 mulf
  :: TRef.unary (TRef.of main_c_6 : TRef sig ⟨S_, .i32⟩) main_call1.v7 (sitofp .f32)
  :: TRef.nullary main_call1.cst_1 (constant S_ .f32 0x47C35000#32)
  :: TRef.binary main_call1.cst_1 main_call1.v7 main_call1.v8 subf
  :: TRef.nullary main_call1.cst_2 (constant S_ .f32 0x00000000#32)
  :: TRef.binary main_call1.v6 main_call1.cst_2 main_call1.v9 (fun x v => Host.reduceAdd x v reducesTo_S100000x128_S128_d0 h_S_)
  :: TRef.unary main_call1.v8 main_call1.v10 (broadcastInDim S128 ![] bcast_S_S128)
  :: TRef.binary main_call1.v9 main_call1.v10 main_call1.v11 Host.divf
  :: TRef.nullary main_call1.cst_3 (constant S_ .f32 0x00000000#32)
  :: TRef.binary main_call1.v8 main_call1.cst_3 main_call1.v12 (cmpf .ogt)
  :: TRef.nullary main_call1.cst_4 (constant S_ .f32 0x7FC00000#32)
  :: TRef.unary main_call1.cst_4 main_call1.call0.v0 id
  :: TRef.unary main_call1.call0.v0 main_call1.call0.v1 (broadcastInDim S128 ![] bcast_S_S128)
  :: TRef.ternary main_call1.v12 main_call1.v11 main_call1.call0.v1 main_call1.call0.v2 (fun p a b => select (broadcastInDim S128 ![] bcast_S_S128 p) a b)
  :: [])

/-- The first layer's standardisation from its means and variances. -/
abbrev opsNrm0 : List (HloOp τ sig (Elt F)) :=
  ( StableHlo.unary main_v30 main_v32 (broadcastInDim S1x128 ![1] bcast_S128_S1x128_1 : (⟨S128, .f32⟩ : BufTy).Contents (Elt F) → (⟨S1x128, .f32⟩ : BufTy).Contents (Elt F))
  :: StableHlo.unary main_v32 main_v33 (broadcastInDim S100000x128 ![0, 1] bcast_S1x128_S100000x128_0_1 : (⟨S1x128, .f32⟩ : BufTy).Contents (Elt F) → (⟨S100000x128, .f32⟩ : BufTy).Contents (Elt F))
  :: StableHlo.binary main_v27 main_v33 main_v34 (subf : (⟨S100000x128, .f32⟩ : BufTy).Contents (Elt F) → (⟨S100000x128, .f32⟩ : BufTy).Contents (Elt F) → (⟨S100000x128, .f32⟩ : BufTy).Contents (Elt F))
  :: StableHlo.nullary main_cst_7 (constant S_ .f32 0x3727C5AC#32)
  :: StableHlo.unary main_cst_7 main_v35 (broadcastInDim S128 ![] bcast_S_S128 : (⟨S_, .f32⟩ : BufTy).Contents (Elt F) → (⟨S128, .f32⟩ : BufTy).Contents (Elt F))
  :: StableHlo.binary main_v31 main_v35 main_v36 (addf : (⟨S128, .f32⟩ : BufTy).Contents (Elt F) → (⟨S128, .f32⟩ : BufTy).Contents (Elt F) → (⟨S128, .f32⟩ : BufTy).Contents (Elt F))
  :: StableHlo.unary main_v36 main_v37 (Host.rsqrt : (⟨S128, .f32⟩ : BufTy).Contents (Elt F) → (⟨S128, .f32⟩ : BufTy).Contents (Elt F))
  :: StableHlo.unary main_v37 main_v38 (broadcastInDim S1x128 ![1] bcast_S128_S1x128_1 : (⟨S128, .f32⟩ : BufTy).Contents (Elt F) → (⟨S1x128, .f32⟩ : BufTy).Contents (Elt F))
  :: StableHlo.unary main_v38 main_v39 (broadcastInDim S100000x128 ![0, 1] bcast_S1x128_S100000x128_0_1 : (⟨S1x128, .f32⟩ : BufTy).Contents (Elt F) → (⟨S100000x128, .f32⟩ : BufTy).Contents (Elt F))
  :: StableHlo.binary main_v34 main_v39 main_v40 (mulf : (⟨S100000x128, .f32⟩ : BufTy).Contents (Elt F) → (⟨S100000x128, .f32⟩ : BufTy).Contents (Elt F) → (⟨S100000x128, .f32⟩ : BufTy).Contents (Elt F))
  :: StableHlo.unary main_arg9 main_v41 (broadcastInDim S1x128 ![1] bcast_S128_S1x128_1 : (⟨S128, .f32⟩ : BufTy).Contents (Elt F) → (⟨S1x128, .f32⟩ : BufTy).Contents (Elt F))
  :: StableHlo.unary main_v41 main_v42 (broadcastInDim S100000x128 ![0, 1] bcast_S1x128_S100000x128_0_1 : (⟨S1x128, .f32⟩ : BufTy).Contents (Elt F) → (⟨S100000x128, .f32⟩ : BufTy).Contents (Elt F))
  :: StableHlo.binary main_v40 main_v42 main_v43 (mulf : (⟨S100000x128, .f32⟩ : BufTy).Contents (Elt F) → (⟨S100000x128, .f32⟩ : BufTy).Contents (Elt F) → (⟨S100000x128, .f32⟩ : BufTy).Contents (Elt F))
  :: StableHlo.unary main_arg10 main_v44 (broadcastInDim S1x128 ![1] bcast_S128_S1x128_1 : (⟨S128, .f32⟩ : BufTy).Contents (Elt F) → (⟨S1x128, .f32⟩ : BufTy).Contents (Elt F))
  :: StableHlo.unary main_v44 main_v45 (broadcastInDim S100000x128 ![0, 1] bcast_S1x128_S100000x128_0_1 : (⟨S1x128, .f32⟩ : BufTy).Contents (Elt F) → (⟨S100000x128, .f32⟩ : BufTy).Contents (Elt F))
  :: StableHlo.binary main_v43 main_v45 main_v46 (addf : (⟨S100000x128, .f32⟩ : BufTy).Contents (Elt F) → (⟨S100000x128, .f32⟩ : BufTy).Contents (Elt F) → (⟨S100000x128, .f32⟩ : BufTy).Contents (Elt F))
  :: [])

/-- The second layer's linear map and rectifier. -/
abbrev opsLin1 : List (HloOp τ sig (Elt F)) :=
  ( StableHlo.unary main_arg5 main_v47 ((transpose S128x128 [1, 0] · transposes_S128x128_S128x128_1_0) : (⟨S128x128, .f32⟩ : BufTy).Contents (Elt F) → (⟨S128x128, .f32⟩ : BufTy).Contents (Elt F))
  :: StableHlo.binary main_v46 main_v47 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg6 main_v49 (broadcastInDim S1x128 ![1] bcast_S128_S1x128_1 : (⟨S128, .f32⟩ : BufTy).Contents (Elt F) → (⟨S1x128, .f32⟩ : BufTy).Contents (Elt F))
  :: StableHlo.unary main_v49 main_v50 (broadcastInDim S100000x128 ![0, 1] bcast_S1x128_S100000x128_0_1 : (⟨S1x128, .f32⟩ : BufTy).Contents (Elt F) → (⟨S100000x128, .f32⟩ : BufTy).Contents (Elt F))
  :: StableHlo.binary main_v48 main_v50 main_v51 (addf : (⟨S100000x128, .f32⟩ : BufTy).Contents (Elt F) → (⟨S100000x128, .f32⟩ : BufTy).Contents (Elt F) → (⟨S100000x128, .f32⟩ : BufTy).Contents (Elt F))
  :: TRef.nullary main_call2.cst (constant S_ .f32 0x00000000#32)
  :: TRef.unary main_call2.cst main_call2.v0 (broadcastInDim S100000x128 ![] bcast_S_S100000x128)
  :: TRef.binary (TRef.of main_v51 : TRef sig ⟨S100000x128, .f32⟩) main_call2.v0 main_call2.v1 maximumf
  :: [])

/-- The second layer's column means and column variances. -/
abbrev opsMv1 : List (HloOp τ sig (Elt F)) :=
  ( StableHlo.nullary main_cst_8 (constant S_ .f32 0x00000000#32)
  :: StableHlo.binary main_v52 main_cst_8 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))
  :: StableHlo.nullary main_cst_9 (constant S_ .f32 0x47C35000#32)
  :: StableHlo.unary main_cst_9 main_v54 (broadcastInDim S128 ![] bcast_S_S128 : (⟨S_, .f32⟩ : BufTy).Contents (Elt F) → (⟨S128, .f32⟩ : BufTy).Contents (Elt F))
  :: StableHlo.binary main_v53 main_v54 main_v55 (Host.divf : (⟨S128, .f32⟩ : BufTy).Contents (Elt F) → (⟨S128, .f32⟩ : BufTy).Contents (Elt F) → (⟨S128, .f32⟩ : BufTy).Contents (Elt F))
  :: StableHlo.nullary main_c_10 (constantI S_ 32 0#32)
  :: TRef.nullary main_call3.cst (constant S_ .f32 0x00000000#32)
  :: TRef.binary (TRef.of main_v52 : TRef sig ⟨S100000x128, .f32⟩) main_call3.cst main_call3.v0 (fun x v => Host.reduceAdd x v reducesTo_S100000x128_S128_d0 h_S_)
  :: TRef.unary main_call3.v0 main_call3.v1 (broadcastInDim S1x128 ![1] bcast_S128_S1x128_1)
  :: TRef.nullary main_call3.cst_0 (constant S_ .f32 0x47C35000#32)
  :: TRef.unary main_call3.cst_0 main_call3.v2 (broadcastInDim S1x128 ![] bcast_S_S1x128)
  :: TRef.binary main_call3.v1 main_call3.v2 main_call3.v3 Host.divf
  :: TRef.unary main_call3.v3 main_call3.v4 (broadcastInDim S100000x128 ![0, 1] bcast_S1x128_S100000x128_0_1)
  :: TRef.binary (TRef.of main_v52 : TRef sig ⟨S100000x128, .f32⟩) main_call3.v4 main_call3.v5 subf
  :: TRef.binary main_call3.v5 main_call3.v5 main_call3.v6 mulf
  :: TRef.unary (TRef.of main_c_10 : TRef sig ⟨S_, .i32⟩) main_call3.v7 (sitofp .f32)
  :: TRef.nullary main_call3.cst_1 (constant S_ .f32 0x47C35000#32)
  :: TRef.binary main_call3.cst_1 main_call3.v7 main_call3.v8 subf
  :: TRef.nullary main_call3.cst_2 (constant S_ .f32 0x00000000#32)
  :: TRef.binary main_call3.v6 main_call3.cst_2 main_call3.v9 (fun x v => Host.reduceAdd x v reducesTo_S100000x128_S128_d0 h_S_)
  :: TRef.unary main_call3.v8 main_call3.v10 (broadcastInDim S128 ![] bcast_S_S128)
  :: TRef.binary main_call3.v9 main_call3.v10 main_call3.v11 Host.divf
  :: TRef.nullary main_call3.cst_3 (constant S_ .f32 0x00000000#32)
  :: TRef.binary main_call3.v8 main_call3.cst_3 main_call3.v12 (cmpf .ogt)
  :: TRef.nullary main_call3.cst_4 (constant S_ .f32 0x7FC00000#32)
  :: TRef.unary main_call3.cst_4 main_call3.call0.v0 id
  :: TRef.unary main_call3.call0.v0 main_call3.call0.v1 (broadcastInDim S128 ![] bcast_S_S128)
  :: TRef.ternary main_call3.v12 main_call3.v11 main_call3.call0.v1 main_call3.call0.v2 (fun p a b => select (broadcastInDim S128 ![] bcast_S_S128 p) a b)
  :: [])

/-- The second layer's standardisation from its means and variances. -/
abbrev opsNrm1 : List (HloOp τ sig (Elt F)) :=
  ( StableHlo.unary main_v55 main_v57 (broadcastInDim S1x128 ![1] bcast_S128_S1x128_1 : (⟨S128, .f32⟩ : BufTy).Contents (Elt F) → (⟨S1x128, .f32⟩ : BufTy).Contents (Elt F))
  :: StableHlo.unary main_v57 main_v58 (broadcastInDim S100000x128 ![0, 1] bcast_S1x128_S100000x128_0_1 : (⟨S1x128, .f32⟩ : BufTy).Contents (Elt F) → (⟨S100000x128, .f32⟩ : BufTy).Contents (Elt F))
  :: StableHlo.binary main_v52 main_v58 main_v59 (subf : (⟨S100000x128, .f32⟩ : BufTy).Contents (Elt F) → (⟨S100000x128, .f32⟩ : BufTy).Contents (Elt F) → (⟨S100000x128, .f32⟩ : BufTy).Contents (Elt F))
  :: StableHlo.nullary main_cst_11 (constant S_ .f32 0x3727C5AC#32)
  :: StableHlo.unary main_cst_11 main_v60 (broadcastInDim S128 ![] bcast_S_S128 : (⟨S_, .f32⟩ : BufTy).Contents (Elt F) → (⟨S128, .f32⟩ : BufTy).Contents (Elt F))
  :: StableHlo.binary main_v56 main_v60 main_v61 (addf : (⟨S128, .f32⟩ : BufTy).Contents (Elt F) → (⟨S128, .f32⟩ : BufTy).Contents (Elt F) → (⟨S128, .f32⟩ : BufTy).Contents (Elt F))
  :: StableHlo.unary main_v61 main_v62 (Host.rsqrt : (⟨S128, .f32⟩ : BufTy).Contents (Elt F) → (⟨S128, .f32⟩ : BufTy).Contents (Elt F))
  :: StableHlo.unary main_v62 main_v63 (broadcastInDim S1x128 ![1] bcast_S128_S1x128_1 : (⟨S128, .f32⟩ : BufTy).Contents (Elt F) → (⟨S1x128, .f32⟩ : BufTy).Contents (Elt F))
  :: StableHlo.unary main_v63 main_v64 (broadcastInDim S100000x128 ![0, 1] bcast_S1x128_S100000x128_0_1 : (⟨S1x128, .f32⟩ : BufTy).Contents (Elt F) → (⟨S100000x128, .f32⟩ : BufTy).Contents (Elt F))
  :: StableHlo.binary main_v59 main_v64 main_v65 (mulf : (⟨S100000x128, .f32⟩ : BufTy).Contents (Elt F) → (⟨S100000x128, .f32⟩ : BufTy).Contents (Elt F) → (⟨S100000x128, .f32⟩ : BufTy).Contents (Elt F))
  :: StableHlo.unary main_arg11 main_v66 (broadcastInDim S1x128 ![1] bcast_S128_S1x128_1 : (⟨S128, .f32⟩ : BufTy).Contents (Elt F) → (⟨S1x128, .f32⟩ : BufTy).Contents (Elt F))
  :: StableHlo.unary main_v66 main_v67 (broadcastInDim S100000x128 ![0, 1] bcast_S1x128_S100000x128_0_1 : (⟨S1x128, .f32⟩ : BufTy).Contents (Elt F) → (⟨S100000x128, .f32⟩ : BufTy).Contents (Elt F))
  :: StableHlo.binary main_v65 main_v67 main_v68 (mulf : (⟨S100000x128, .f32⟩ : BufTy).Contents (Elt F) → (⟨S100000x128, .f32⟩ : BufTy).Contents (Elt F) → (⟨S100000x128, .f32⟩ : BufTy).Contents (Elt F))
  :: StableHlo.unary main_arg12 main_v69 (broadcastInDim S1x128 ![1] bcast_S128_S1x128_1 : (⟨S128, .f32⟩ : BufTy).Contents (Elt F) → (⟨S1x128, .f32⟩ : BufTy).Contents (Elt F))
  :: StableHlo.unary main_v69 main_v70 (broadcastInDim S100000x128 ![0, 1] bcast_S1x128_S100000x128_0_1 : (⟨S1x128, .f32⟩ : BufTy).Contents (Elt F) → (⟨S100000x128, .f32⟩ : BufTy).Contents (Elt F))
  :: StableHlo.binary main_v68 main_v70 main_v71 (addf : (⟨S100000x128, .f32⟩ : BufTy).Contents (Elt F) → (⟨S100000x128, .f32⟩ : BufTy).Contents (Elt F) → (⟨S100000x128, .f32⟩ : BufTy).Contents (Elt F))
  :: [])

/-- The third layer's linear map and rectifier. -/
abbrev opsLin2 : List (HloOp τ sig (Elt F)) :=
  ( StableHlo.unary main_arg7 main_v72 ((transpose S128x128 [1, 0] · transposes_S128x128_S128x128_1_0) : (⟨S128x128, .f32⟩ : BufTy).Contents (Elt F) → (⟨S128x128, .f32⟩ : BufTy).Contents (Elt F))
  :: StableHlo.binary main_v71 main_v72 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: StableHlo.unary main_arg8 main_v74 (broadcastInDim S1x128 ![1] bcast_S128_S1x128_1 : (⟨S128, .f32⟩ : BufTy).Contents (Elt F) → (⟨S1x128, .f32⟩ : BufTy).Contents (Elt F))
  :: StableHlo.unary main_v74 main_v75 (broadcastInDim S100000x128 ![0, 1] bcast_S1x128_S100000x128_0_1 : (⟨S1x128, .f32⟩ : BufTy).Contents (Elt F) → (⟨S100000x128, .f32⟩ : BufTy).Contents (Elt F))
  :: StableHlo.binary main_v73 main_v75 main_v76 (addf : (⟨S100000x128, .f32⟩ : BufTy).Contents (Elt F) → (⟨S100000x128, .f32⟩ : BufTy).Contents (Elt F) → (⟨S100000x128, .f32⟩ : BufTy).Contents (Elt F))
  :: TRef.nullary main_call4.cst (constant S_ .f32 0x00000000#32)
  :: TRef.unary main_call4.cst main_call4.v0 (broadcastInDim S100000x128 ![] bcast_S_S100000x128)
  :: TRef.binary (TRef.of main_v76 : TRef sig ⟨S100000x128, .f32⟩) main_call4.v0 main_call4.v1 maximumf
  :: [])

/-- The third layer's column means and column variances. -/
abbrev opsMv2 : List (HloOp τ sig (Elt F)) :=
  ( StableHlo.nullary main_cst_12 (constant S_ .f32 0x00000000#32)
  :: StableHlo.binary main_v77 main_cst_12 main_v78 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))
  :: StableHlo.nullary main_cst_13 (constant S_ .f32 0x47C35000#32)
  :: StableHlo.unary main_cst_13 main_v79 (broadcastInDim S128 ![] bcast_S_S128 : (⟨S_, .f32⟩ : BufTy).Contents (Elt F) → (⟨S128, .f32⟩ : BufTy).Contents (Elt F))
  :: StableHlo.binary main_v78 main_v79 main_v80 (Host.divf : (⟨S128, .f32⟩ : BufTy).Contents (Elt F) → (⟨S128, .f32⟩ : BufTy).Contents (Elt F) → (⟨S128, .f32⟩ : BufTy).Contents (Elt F))
  :: StableHlo.nullary main_c_14 (constantI S_ 32 0#32)
  :: TRef.nullary main_call5.cst (constant S_ .f32 0x00000000#32)
  :: TRef.binary (TRef.of main_v77 : TRef sig ⟨S100000x128, .f32⟩) main_call5.cst main_call5.v0 (fun x v => Host.reduceAdd x v reducesTo_S100000x128_S128_d0 h_S_)
  :: TRef.unary main_call5.v0 main_call5.v1 (broadcastInDim S1x128 ![1] bcast_S128_S1x128_1)
  :: TRef.nullary main_call5.cst_0 (constant S_ .f32 0x47C35000#32)
  :: TRef.unary main_call5.cst_0 main_call5.v2 (broadcastInDim S1x128 ![] bcast_S_S1x128)
  :: TRef.binary main_call5.v1 main_call5.v2 main_call5.v3 Host.divf
  :: TRef.unary main_call5.v3 main_call5.v4 (broadcastInDim S100000x128 ![0, 1] bcast_S1x128_S100000x128_0_1)
  :: TRef.binary (TRef.of main_v77 : TRef sig ⟨S100000x128, .f32⟩) main_call5.v4 main_call5.v5 subf
  :: TRef.binary main_call5.v5 main_call5.v5 main_call5.v6 mulf
  :: TRef.unary (TRef.of main_c_14 : TRef sig ⟨S_, .i32⟩) main_call5.v7 (sitofp .f32)
  :: TRef.nullary main_call5.cst_1 (constant S_ .f32 0x47C35000#32)
  :: TRef.binary main_call5.cst_1 main_call5.v7 main_call5.v8 subf
  :: TRef.nullary main_call5.cst_2 (constant S_ .f32 0x00000000#32)
  :: TRef.binary main_call5.v6 main_call5.cst_2 main_call5.v9 (fun x v => Host.reduceAdd x v reducesTo_S100000x128_S128_d0 h_S_)
  :: TRef.unary main_call5.v8 main_call5.v10 (broadcastInDim S128 ![] bcast_S_S128)
  :: TRef.binary main_call5.v9 main_call5.v10 main_call5.v11 Host.divf
  :: TRef.nullary main_call5.cst_3 (constant S_ .f32 0x00000000#32)
  :: TRef.binary main_call5.v8 main_call5.cst_3 main_call5.v12 (cmpf .ogt)
  :: TRef.nullary main_call5.cst_4 (constant S_ .f32 0x7FC00000#32)
  :: TRef.unary main_call5.cst_4 main_call5.call0.v0 id
  :: TRef.unary main_call5.call0.v0 main_call5.call0.v1 (broadcastInDim S128 ![] bcast_S_S128)
  :: TRef.ternary main_call5.v12 main_call5.v11 main_call5.call0.v1 main_call5.call0.v2 (fun p a b => select (broadcastInDim S128 ![] bcast_S_S128 p) a b)
  :: [])

/-- The third layer's standardisation from its means and variances. -/
abbrev opsNrm2 : List (HloOp τ sig (Elt F)) :=
  ( StableHlo.unary main_v80 main_v82 (broadcastInDim S1x128 ![1] bcast_S128_S1x128_1 : (⟨S128, .f32⟩ : BufTy).Contents (Elt F) → (⟨S1x128, .f32⟩ : BufTy).Contents (Elt F))
  :: StableHlo.unary main_v82 main_v83 (broadcastInDim S100000x128 ![0, 1] bcast_S1x128_S100000x128_0_1 : (⟨S1x128, .f32⟩ : BufTy).Contents (Elt F) → (⟨S100000x128, .f32⟩ : BufTy).Contents (Elt F))
  :: StableHlo.binary main_v77 main_v83 main_v84 (subf : (⟨S100000x128, .f32⟩ : BufTy).Contents (Elt F) → (⟨S100000x128, .f32⟩ : BufTy).Contents (Elt F) → (⟨S100000x128, .f32⟩ : BufTy).Contents (Elt F))
  :: StableHlo.nullary main_cst_15 (constant S_ .f32 0x3727C5AC#32)
  :: StableHlo.unary main_cst_15 main_v85 (broadcastInDim S128 ![] bcast_S_S128 : (⟨S_, .f32⟩ : BufTy).Contents (Elt F) → (⟨S128, .f32⟩ : BufTy).Contents (Elt F))
  :: StableHlo.binary main_v81 main_v85 main_v86 (addf : (⟨S128, .f32⟩ : BufTy).Contents (Elt F) → (⟨S128, .f32⟩ : BufTy).Contents (Elt F) → (⟨S128, .f32⟩ : BufTy).Contents (Elt F))
  :: StableHlo.unary main_v86 main_v87 (Host.rsqrt : (⟨S128, .f32⟩ : BufTy).Contents (Elt F) → (⟨S128, .f32⟩ : BufTy).Contents (Elt F))
  :: StableHlo.unary main_v87 main_v88 (broadcastInDim S1x128 ![1] bcast_S128_S1x128_1 : (⟨S128, .f32⟩ : BufTy).Contents (Elt F) → (⟨S1x128, .f32⟩ : BufTy).Contents (Elt F))
  :: StableHlo.unary main_v88 main_v89 (broadcastInDim S100000x128 ![0, 1] bcast_S1x128_S100000x128_0_1 : (⟨S1x128, .f32⟩ : BufTy).Contents (Elt F) → (⟨S100000x128, .f32⟩ : BufTy).Contents (Elt F))
  :: StableHlo.binary main_v84 main_v89 main_v90 (mulf : (⟨S100000x128, .f32⟩ : BufTy).Contents (Elt F) → (⟨S100000x128, .f32⟩ : BufTy).Contents (Elt F) → (⟨S100000x128, .f32⟩ : BufTy).Contents (Elt F))
  :: StableHlo.unary main_arg13 main_v91 (broadcastInDim S1x128 ![1] bcast_S128_S1x128_1 : (⟨S128, .f32⟩ : BufTy).Contents (Elt F) → (⟨S1x128, .f32⟩ : BufTy).Contents (Elt F))
  :: StableHlo.unary main_v91 main_v92 (broadcastInDim S100000x128 ![0, 1] bcast_S1x128_S100000x128_0_1 : (⟨S1x128, .f32⟩ : BufTy).Contents (Elt F) → (⟨S100000x128, .f32⟩ : BufTy).Contents (Elt F))
  :: StableHlo.binary main_v90 main_v92 main_v93 (mulf : (⟨S100000x128, .f32⟩ : BufTy).Contents (Elt F) → (⟨S100000x128, .f32⟩ : BufTy).Contents (Elt F) → (⟨S100000x128, .f32⟩ : BufTy).Contents (Elt F))
  :: StableHlo.unary main_arg14 main_v94 (broadcastInDim S1x128 ![1] bcast_S128_S1x128_1 : (⟨S128, .f32⟩ : BufTy).Contents (Elt F) → (⟨S1x128, .f32⟩ : BufTy).Contents (Elt F))
  :: StableHlo.unary main_v94 main_v95 (broadcastInDim S100000x128 ![0, 1] bcast_S1x128_S100000x128_0_1 : (⟨S1x128, .f32⟩ : BufTy).Contents (Elt F) → (⟨S100000x128, .f32⟩ : BufTy).Contents (Elt F))
  :: StableHlo.binary main_v93 main_v95 main_v96 (addf : (⟨S100000x128, .f32⟩ : BufTy).Contents (Elt F) → (⟨S100000x128, .f32⟩ : BufTy).Contents (Elt F) → (⟨S100000x128, .f32⟩ : BufTy).Contents (Elt F))
  :: [])

/-- @main's 184 operations in order, the six calls unfolded at their call sites over the calls' buffer records:
    the stretches above, one after the other. -/
abbrev ops : List (HloOp τ sig (Elt F)) :=
  opsPre ++ (opsLin0 ++ (opsMv0 ++ (opsNrm0 ++ (opsLin1 ++ (opsMv1 ++ (opsNrm1 ++ (opsLin2 ++ (opsMv2 ++ (opsNrm2)))))))))

set_option maxRecDepth 16384 in
set_option maxHeartbeats 4000000 in
/-- @main is that straight line: the outlined functions' definitions unfolded at their calls, both sides are one chain
    of steps once sequencing is reassociated. -/
theorem main_eq (c : Dev nD) : main (F := F) c = seq ops := by
  simp only [main, main_part0, main_part1, fn_relu.body, fn_var.body, fn_where.body, ops, opsPre, opsLin0, opsMv0, opsNrm0, opsLin1, opsMv1, opsNrm1, opsLin2, opsMv2, opsNrm2,
    seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

theorem opsPre_sub : (opsPre : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsLin0_sub : (opsLin0 : List (HloOp τ sig (Elt F))).Forall fun op => op.bufs ⊆ tcRefs τ sig :=
  ⟨nary_bufs_sub .., unary_bufs_sub .., binary_bufs_sub .., unary_bufs_sub .., unary_bufs_sub .., binary_bufs_sub .., nullary_bufs_sub .., unary_bufs_sub .., binary_bufs_sub ..⟩
theorem opsMv0_sub : (opsMv0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsNrm0_sub : (opsNrm0 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsLin1_sub : (opsLin1 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem opsMv1_sub : (opsMv1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsNrm1_sub : (opsNrm1 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsLin2_sub : (opsLin2 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
theorem opsMv2_sub : (opsMv2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsNrm2_sub : (opsNrm2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  forall_append opsPre_sub (forall_append opsLin0_sub (forall_append opsMv0_sub (forall_append opsNrm0_sub (forall_append opsLin1_sub (forall_append opsMv1_sub (forall_append opsNrm1_sub (forall_append opsLin2_sub (forall_append opsMv2_sub (opsNrm2_sub)))))))))

theorem opsPre_fresh : ∀ op ∈ (opsPre : List (HloOp τ sig (Elt F))), op.fresh = ∅ := by
  intro _ h; (repeat (cases h with | head => rfl | tail _ h => ?_)); exact nomatch h
theorem opsLin0_fresh : ∀ op ∈ (opsLin0 : List (HloOp τ sig (Elt F))), op.fresh = ∅ := by
  intro _ h; (repeat (cases h with | head => rfl | tail _ h => ?_)); exact nomatch h
theorem opsMv0_fresh : ∀ op ∈ (opsMv0 : List (HloOp τ sig (Elt F))), op.fresh = ∅ := by
  intro _ h; (repeat (cases h with | head => rfl | tail _ h => ?_)); exact nomatch h
theorem opsNrm0_fresh : ∀ op ∈ (opsNrm0 : List (HloOp τ sig (Elt F))), op.fresh = ∅ := by
  intro _ h; (repeat (cases h with | head => rfl | tail _ h => ?_)); exact nomatch h
theorem opsLin1_fresh : ∀ op ∈ (opsLin1 : List (HloOp τ sig (Elt F))), op.fresh = ∅ := by
  intro _ h; (repeat (cases h with | head => rfl | tail _ h => ?_)); exact nomatch h
theorem opsMv1_fresh : ∀ op ∈ (opsMv1 : List (HloOp τ sig (Elt F))), op.fresh = ∅ := by
  intro _ h; (repeat (cases h with | head => rfl | tail _ h => ?_)); exact nomatch h
theorem opsNrm1_fresh : ∀ op ∈ (opsNrm1 : List (HloOp τ sig (Elt F))), op.fresh = ∅ := by
  intro _ h; (repeat (cases h with | head => rfl | tail _ h => ?_)); exact nomatch h
theorem opsLin2_fresh : ∀ op ∈ (opsLin2 : List (HloOp τ sig (Elt F))), op.fresh = ∅ := by
  intro _ h; (repeat (cases h with | head => rfl | tail _ h => ?_)); exact nomatch h
theorem opsMv2_fresh : ∀ op ∈ (opsMv2 : List (HloOp τ sig (Elt F))), op.fresh = ∅ := by
  intro _ h; (repeat (cases h with | head => rfl | tail _ h => ?_)); exact nomatch h
theorem opsNrm2_fresh : ∀ op ∈ (opsNrm2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h | h | h | h
  · exact opsPre_fresh op h
  · exact opsLin0_fresh op h
  · exact opsMv0_fresh op h
  · exact opsNrm0_fresh op h
  · exact opsLin1_fresh op h
  · exact opsMv1_fresh op h
  · exact opsNrm1_fresh op h
  · exact opsLin2_fresh op h
  · exact opsMv2_fresh op h
  · exact opsNrm2_fresh op h

/-! ## Each stretch read over any contents -/

section Stretches

variable (V : Valuation τ sig (Elt F))

/-- The standardisation of a table from its column means and column variances. -/
def bnCore (h : (⟨S100000x128, .f32⟩ : BufTy).Contents (Elt F)) (mean var g bt : (⟨S128, .f32⟩ : BufTy).Contents (Elt F)) : (⟨S100000x128, .f32⟩ : BufTy).Contents (Elt F) :=
  addf
    (mulf
      (mulf (subf h (Stage.biasRows mean))
        (Stage.biasRows (Host.rsqrt (addf var (broadcastInDim S128 ![] bcast_S_S128 (constant S_ .f32 0x3727C5AC#32))))))
      (Stage.biasRows g))
    (Stage.biasRows bt)

/-- The standardisation is the one from the table's own means and variances. -/
theorem bn_eq (h : (⟨S100000x128, .f32⟩ : BufTy).Contents (Elt F)) (g bt : (⟨S128, .f32⟩ : BufTy).Contents (Elt F)) :
    Stage.bn h g bt = bnCore h (Stage.meanOf h) (Stage.varOf h) g bt := rfl

attribute [local irreducible] Host.scatterAdd Host.gather Host.reduceAdd Host.divf Host.rsqrt in
set_option maxRecDepth 8192 in
set_option maxHeartbeats 2000000 in
/-- The scatter-mean of the edge rows, from the edge table and the edge index table. -/
theorem pre_v13 : after opsPre V (main_v13 : DevRef τ sig) = Stage.prefixV (V (main_arg1 : DevRef τ sig)) (V (main_arg15 : DevRef τ sig)) := by
  delta opsPre
  after_results_simp
  rfl

attribute [local irreducible] Host.scatterAdd Host.gather Host.reduceAdd Host.divf Host.rsqrt in
set_option maxRecDepth 8192 in
set_option maxHeartbeats 2000000 in
/-- The graph rows looked up per node, from the graph table and the nodes' graph indices. -/
theorem pre_v20 : after opsPre V (main_v20 : DevRef τ sig) = Stage.prefixU (V (main_arg2 : DevRef τ sig)) (V (main_arg16 : DevRef τ sig)) := by
  delta opsPre
  after_results_simp
  rfl

attribute [local irreducible] Host.scatterAdd Host.gather Host.reduceAdd Host.divf Host.rsqrt in
set_option maxRecDepth 8192 in
set_option maxHeartbeats 2000000 in
/-- The first layer's rectified linear map of the three tables. -/
theorem lin0_v27 : after opsLin0 V (main_v27 : DevRef τ sig)
    = Stage.lin0 (V (main_arg0 : DevRef τ sig)) (V (main_v13 : DevRef τ sig)) (V (main_v20 : DevRef τ sig)) (V (main_arg3 : DevRef τ sig)) (V (main_arg4 : DevRef τ sig)) := by
  delta opsLin0
  after_results_simp
  simp only [TRef.toBuf, TRef.ofBuf, cast_eq]
  rfl

attribute [local irreducible] Host.scatterAdd Host.gather Host.reduceAdd Host.divf Host.rsqrt in
set_option maxRecDepth 8192 in
set_option maxHeartbeats 2000000 in
/-- Layer 1's column means. -/
theorem mv0_mean : after opsMv0 V (main_v30 : DevRef τ sig) = Stage.meanOf (V (main_v27 : DevRef τ sig)) := by
  delta opsMv0
  after_results_simp
  rfl

attribute [local irreducible] Host.scatterAdd Host.gather Host.reduceAdd Host.divf Host.rsqrt in
set_option maxRecDepth 8192 in
set_option maxHeartbeats 2000000 in
/-- Layer 1's column variances. -/
theorem mv0_var : after opsMv0 V (main_v31 : DevRef τ sig) = Stage.varOf (V (main_v27 : DevRef τ sig)) := by
  delta opsMv0
  after_results_simp
  simp only [TRef.toBuf, TRef.ofBuf, cast_eq]
  rfl

attribute [local irreducible] Host.scatterAdd Host.gather Host.reduceAdd Host.divf Host.rsqrt in
set_option maxRecDepth 8192 in
set_option maxHeartbeats 2000000 in
/-- Layer 1's standardisation from the means and variances already computed. -/
theorem nrm0_out : after opsNrm0 V (main_v46 : DevRef τ sig)
    = bnCore (V (main_v27 : DevRef τ sig)) (V (main_v30 : DevRef τ sig)) (V (main_v31 : DevRef τ sig)) (V (main_arg9 : DevRef τ sig)) (V (main_arg10 : DevRef τ sig)) := by
  delta opsNrm0
  after_results_simp
  rfl

attribute [local irreducible] Host.scatterAdd Host.gather Host.reduceAdd Host.divf Host.rsqrt in
set_option maxRecDepth 8192 in
set_option maxHeartbeats 2000000 in
/-- Layer 2's rectified linear map of the previous layer's table. -/
theorem lin1_out : after opsLin1 V (main_v52 : DevRef τ sig) = Stage.lin (V (main_v46 : DevRef τ sig)) (V (main_arg5 : DevRef τ sig)) (V (main_arg6 : DevRef τ sig)) := by
  delta opsLin1
  after_results_simp
  simp only [TRef.toBuf, TRef.ofBuf, cast_eq]
  rfl

attribute [local irreducible] Host.scatterAdd Host.gather Host.reduceAdd Host.divf Host.rsqrt in
set_option maxRecDepth 8192 in
set_option maxHeartbeats 2000000 in
/-- Layer 2's column means. -/
theorem mv1_mean : after opsMv1 V (main_v55 : DevRef τ sig) = Stage.meanOf (V (main_v52 : DevRef τ sig)) := by
  delta opsMv1
  after_results_simp
  rfl

attribute [local irreducible] Host.scatterAdd Host.gather Host.reduceAdd Host.divf Host.rsqrt in
set_option maxRecDepth 8192 in
set_option maxHeartbeats 2000000 in
/-- Layer 2's column variances. -/
theorem mv1_var : after opsMv1 V (main_v56 : DevRef τ sig) = Stage.varOf (V (main_v52 : DevRef τ sig)) := by
  delta opsMv1
  after_results_simp
  simp only [TRef.toBuf, TRef.ofBuf, cast_eq]
  rfl

attribute [local irreducible] Host.scatterAdd Host.gather Host.reduceAdd Host.divf Host.rsqrt in
set_option maxRecDepth 8192 in
set_option maxHeartbeats 2000000 in
/-- Layer 2's standardisation from the means and variances already computed. -/
theorem nrm1_out : after opsNrm1 V (main_v71 : DevRef τ sig)
    = bnCore (V (main_v52 : DevRef τ sig)) (V (main_v55 : DevRef τ sig)) (V (main_v56 : DevRef τ sig)) (V (main_arg11 : DevRef τ sig)) (V (main_arg12 : DevRef τ sig)) := by
  delta opsNrm1
  after_results_simp
  rfl

attribute [local irreducible] Host.scatterAdd Host.gather Host.reduceAdd Host.divf Host.rsqrt in
set_option maxRecDepth 8192 in
set_option maxHeartbeats 2000000 in
/-- Layer 3's rectified linear map of the previous layer's table. -/
theorem lin2_out : after opsLin2 V (main_v77 : DevRef τ sig) = Stage.lin (V (main_v71 : DevRef τ sig)) (V (main_arg7 : DevRef τ sig)) (V (main_arg8 : DevRef τ sig)) := by
  delta opsLin2
  after_results_simp
  simp only [TRef.toBuf, TRef.ofBuf, cast_eq]
  rfl

attribute [local irreducible] Host.scatterAdd Host.gather Host.reduceAdd Host.divf Host.rsqrt in
set_option maxRecDepth 8192 in
set_option maxHeartbeats 2000000 in
/-- Layer 3's column means. -/
theorem mv2_mean : after opsMv2 V (main_v80 : DevRef τ sig) = Stage.meanOf (V (main_v77 : DevRef τ sig)) := by
  delta opsMv2
  after_results_simp
  rfl

attribute [local irreducible] Host.scatterAdd Host.gather Host.reduceAdd Host.divf Host.rsqrt in
set_option maxRecDepth 8192 in
set_option maxHeartbeats 2000000 in
/-- Layer 3's column variances. -/
theorem mv2_var : after opsMv2 V (main_v81 : DevRef τ sig) = Stage.varOf (V (main_v77 : DevRef τ sig)) := by
  delta opsMv2
  after_results_simp
  simp only [TRef.toBuf, TRef.ofBuf, cast_eq]
  rfl

attribute [local irreducible] Host.scatterAdd Host.gather Host.reduceAdd Host.divf Host.rsqrt in
set_option maxRecDepth 8192 in
set_option maxHeartbeats 2000000 in
/-- Layer 3's standardisation from the means and variances already computed. -/
theorem nrm2_out : after opsNrm2 V (main_v96 : DevRef τ sig)
    = bnCore (V (main_v77 : DevRef τ sig)) (V (main_v80 : DevRef τ sig)) (V (main_v81 : DevRef τ sig)) (V (main_arg13 : DevRef τ sig)) (V (main_arg14 : DevRef τ sig)) := by
  delta opsNrm2
  after_results_simp
  rfl

/-! ## What each stretch writes, and what it therefore leaves -/

/-- The buffers the stretch writes, in order. -/
abbrev wPre : List (Ref sig .tc) :=
  [main_v0, main_v1, main_cst, main_v2, main_v3, main_v4, main_cst_0, main_v5, main_cst_1, main_v6, main_v7, main_v8, main_cst_2, main_v9, main_v10, main_v11, main_v12, main_v13, main_c, main_v14, main_v15, main_c_3, main_v16, main_v17, main_v18, main_v19, main_v20]

theorem opsPre_writes : (opsPre : List (HloOp τ sig (Elt F))).Forall fun op =>
    op.writes ⊆ ((wPre : List (Ref sig .tc)).map (Proc.devRef (τ := τ) .tc)).toFinset := by
  simp only [opsPre, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsPre_frame {r : Ref sig .tc} (hr : r ∉ wPre) :
    after opsPre V (Proc.devRef .tc r) = V (Proc.devRef .tc r) :=
  after_of_writes_sub opsPre V opsPre_writes hr

/-- The buffers the stretch writes, in order. -/
abbrev wLin0 : List (Ref sig .tc) :=
  [main_v21, main_v22, main_v23, main_v24, main_v25, main_v26, main_call0_cst, main_call0_v0, main_v27]

theorem opsLin0_writes : (opsLin0 : List (HloOp τ sig (Elt F))).Forall fun op =>
    op.writes ⊆ ((wLin0 : List (Ref sig .tc)).map (Proc.devRef (τ := τ) .tc)).toFinset := by
  simp only [opsLin0, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsLin0_frame {r : Ref sig .tc} (hr : r ∉ wLin0) :
    after opsLin0 V (Proc.devRef .tc r) = V (Proc.devRef .tc r) :=
  after_of_writes_sub opsLin0 V opsLin0_writes hr

/-- The buffers the stretch writes, in order. -/
abbrev wMv0 : List (Ref sig .tc) :=
  [main_cst_4, main_v28, main_cst_5, main_v29, main_v30, main_c_6, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v31]

theorem opsMv0_writes : (opsMv0 : List (HloOp τ sig (Elt F))).Forall fun op =>
    op.writes ⊆ ((wMv0 : List (Ref sig .tc)).map (Proc.devRef (τ := τ) .tc)).toFinset := by
  simp only [opsMv0, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsMv0_frame {r : Ref sig .tc} (hr : r ∉ wMv0) :
    after opsMv0 V (Proc.devRef .tc r) = V (Proc.devRef .tc r) :=
  after_of_writes_sub opsMv0 V opsMv0_writes hr

/-- The buffers the stretch writes, in order. -/
abbrev wNrm0 : List (Ref sig .tc) :=
  [main_v32, main_v33, main_v34, main_cst_7, main_v35, main_v36, main_v37, main_v38, main_v39, main_v40, main_v41, main_v42, main_v43, main_v44, main_v45, main_v46]

theorem opsNrm0_writes : (opsNrm0 : List (HloOp τ sig (Elt F))).Forall fun op =>
    op.writes ⊆ ((wNrm0 : List (Ref sig .tc)).map (Proc.devRef (τ := τ) .tc)).toFinset := by
  simp only [opsNrm0, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsNrm0_frame {r : Ref sig .tc} (hr : r ∉ wNrm0) :
    after opsNrm0 V (Proc.devRef .tc r) = V (Proc.devRef .tc r) :=
  after_of_writes_sub opsNrm0 V opsNrm0_writes hr

/-- The buffers the stretch writes, in order. -/
abbrev wLin1 : List (Ref sig .tc) :=
  [main_v47, main_v48, main_v49, main_v50, main_v51, main_call2_cst, main_call2_v0, main_v52]

theorem opsLin1_writes : (opsLin1 : List (HloOp τ sig (Elt F))).Forall fun op =>
    op.writes ⊆ ((wLin1 : List (Ref sig .tc)).map (Proc.devRef (τ := τ) .tc)).toFinset := by
  simp only [opsLin1, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsLin1_frame {r : Ref sig .tc} (hr : r ∉ wLin1) :
    after opsLin1 V (Proc.devRef .tc r) = V (Proc.devRef .tc r) :=
  after_of_writes_sub opsLin1 V opsLin1_writes hr

/-- The buffers the stretch writes, in order. -/
abbrev wMv1 : List (Ref sig .tc) :=
  [main_cst_8, main_v53, main_cst_9, main_v54, main_v55, main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v56]

theorem opsMv1_writes : (opsMv1 : List (HloOp τ sig (Elt F))).Forall fun op =>
    op.writes ⊆ ((wMv1 : List (Ref sig .tc)).map (Proc.devRef (τ := τ) .tc)).toFinset := by
  simp only [opsMv1, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsMv1_frame {r : Ref sig .tc} (hr : r ∉ wMv1) :
    after opsMv1 V (Proc.devRef .tc r) = V (Proc.devRef .tc r) :=
  after_of_writes_sub opsMv1 V opsMv1_writes hr

/-- The buffers the stretch writes, in order. -/
abbrev wNrm1 : List (Ref sig .tc) :=
  [main_v57, main_v58, main_v59, main_cst_11, main_v60, main_v61, main_v62, main_v63, main_v64, main_v65, main_v66, main_v67, main_v68, main_v69, main_v70, main_v71]

theorem opsNrm1_writes : (opsNrm1 : List (HloOp τ sig (Elt F))).Forall fun op =>
    op.writes ⊆ ((wNrm1 : List (Ref sig .tc)).map (Proc.devRef (τ := τ) .tc)).toFinset := by
  simp only [opsNrm1, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsNrm1_frame {r : Ref sig .tc} (hr : r ∉ wNrm1) :
    after opsNrm1 V (Proc.devRef .tc r) = V (Proc.devRef .tc r) :=
  after_of_writes_sub opsNrm1 V opsNrm1_writes hr

/-- The buffers the stretch writes, in order. -/
abbrev wLin2 : List (Ref sig .tc) :=
  [main_v72, main_v73, main_v74, main_v75, main_v76, main_call4_cst, main_call4_v0, main_v77]

theorem opsLin2_writes : (opsLin2 : List (HloOp τ sig (Elt F))).Forall fun op =>
    op.writes ⊆ ((wLin2 : List (Ref sig .tc)).map (Proc.devRef (τ := τ) .tc)).toFinset := by
  simp only [opsLin2, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsLin2_frame {r : Ref sig .tc} (hr : r ∉ wLin2) :
    after opsLin2 V (Proc.devRef .tc r) = V (Proc.devRef .tc r) :=
  after_of_writes_sub opsLin2 V opsLin2_writes hr

/-- The buffers the stretch writes, in order. -/
abbrev wMv2 : List (Ref sig .tc) :=
  [main_cst_12, main_v78, main_cst_13, main_v79, main_v80, main_c_14, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v81]

theorem opsMv2_writes : (opsMv2 : List (HloOp τ sig (Elt F))).Forall fun op =>
    op.writes ⊆ ((wMv2 : List (Ref sig .tc)).map (Proc.devRef (τ := τ) .tc)).toFinset := by
  simp only [opsMv2, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsMv2_frame {r : Ref sig .tc} (hr : r ∉ wMv2) :
    after opsMv2 V (Proc.devRef .tc r) = V (Proc.devRef .tc r) :=
  after_of_writes_sub opsMv2 V opsMv2_writes hr

/-- The buffers the stretch writes, in order. -/
abbrev wNrm2 : List (Ref sig .tc) :=
  [main_v82, main_v83, main_v84, main_cst_15, main_v85, main_v86, main_v87, main_v88, main_v89, main_v90, main_v91, main_v92, main_v93, main_v94, main_v95, main_v96]

theorem opsNrm2_writes : (opsNrm2 : List (HloOp τ sig (Elt F))).Forall fun op =>
    op.writes ⊆ ((wNrm2 : List (Ref sig .tc)).map (Proc.devRef (τ := τ) .tc)).toFinset := by
  simp only [opsNrm2, List.Forall, TRef.nullary, TRef.unary, TRef.binary, TRef.ternary, nullary_writes, unary_writes, binary_writes,
    ternary_writes, reshape_writes, nary_writes, Finset.singleton_subset_iff, List.mem_toFinset]
  repeat' apply And.intro
  all_goals exact List.mem_map.mpr ⟨_, by decide, rfl⟩

/-- A buffer the stretch does not write keeps its contents. -/
theorem opsNrm2_frame {r : Ref sig .tc} (hr : r ∉ wNrm2) :
    after opsNrm2 V (Proc.devRef .tc r) = V (Proc.devRef .tc r) :=
  after_of_writes_sub opsNrm2 V opsNrm2_writes hr

end Stretches

/-! ## The stretches joined -/

/-- The contents after two lines in a row. -/
theorem after_join : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_join l₁ l₂]

/-- Every buffer some operation writes. -/
abbrev wAll : List (Ref sig .tc) :=
  wPre ++ (wLin0 ++ (wMv0 ++ (wNrm0 ++ (wLin1 ++ (wMv1 ++ (wNrm1 ++ (wLin2 ++ (wMv2 ++ (wNrm2)))))))))

theorem keep_arg0 : main_arg0 ∉ (wAll : List (Ref sig .tc)) := by decide
theorem keep_arg1 : main_arg1 ∉ (wAll : List (Ref sig .tc)) := by decide
theorem keep_arg2 : main_arg2 ∉ (wAll : List (Ref sig .tc)) := by decide
theorem keep_arg3 : main_arg3 ∉ (wAll : List (Ref sig .tc)) := by decide
theorem keep_arg4 : main_arg4 ∉ (wAll : List (Ref sig .tc)) := by decide
theorem keep_arg5 : main_arg5 ∉ (wAll : List (Ref sig .tc)) := by decide
theorem keep_arg6 : main_arg6 ∉ (wAll : List (Ref sig .tc)) := by decide
theorem keep_arg7 : main_arg7 ∉ (wAll : List (Ref sig .tc)) := by decide
theorem keep_arg8 : main_arg8 ∉ (wAll : List (Ref sig .tc)) := by decide
theorem keep_arg9 : main_arg9 ∉ (wAll : List (Ref sig .tc)) := by decide
theorem keep_arg10 : main_arg10 ∉ (wAll : List (Ref sig .tc)) := by decide
theorem keep_arg11 : main_arg11 ∉ (wAll : List (Ref sig .tc)) := by decide
theorem keep_arg12 : main_arg12 ∉ (wAll : List (Ref sig .tc)) := by decide
theorem keep_arg13 : main_arg13 ∉ (wAll : List (Ref sig .tc)) := by decide
theorem keep_arg14 : main_arg14 ∉ (wAll : List (Ref sig .tc)) := by decide
theorem keep_arg15 : main_arg15 ∉ (wAll : List (Ref sig .tc)) := by decide
theorem keep_arg16 : main_arg16 ∉ (wAll : List (Ref sig .tc)) := by decide

section Joined

variable (V : Valuation τ sig (Elt F))

theorem mem_wAll_0 {r : Ref sig .tc} (h : r ∈ wPre) : r ∈ (wAll : List (Ref sig .tc)) :=
  List.mem_append_left _ h
theorem mem_wAll_1 {r : Ref sig .tc} (h : r ∈ wLin0) : r ∈ (wAll : List (Ref sig .tc)) :=
  List.mem_append_right _ (List.mem_append_left _ h)
theorem mem_wAll_2 {r : Ref sig .tc} (h : r ∈ wMv0) : r ∈ (wAll : List (Ref sig .tc)) :=
  List.mem_append_right _ (List.mem_append_right _ (List.mem_append_left _ h))
theorem mem_wAll_3 {r : Ref sig .tc} (h : r ∈ wNrm0) : r ∈ (wAll : List (Ref sig .tc)) :=
  List.mem_append_right _ (List.mem_append_right _ (List.mem_append_right _ (List.mem_append_left _ h)))
theorem mem_wAll_4 {r : Ref sig .tc} (h : r ∈ wLin1) : r ∈ (wAll : List (Ref sig .tc)) :=
  List.mem_append_right _ (List.mem_append_right _ (List.mem_append_right _ (List.mem_append_right _ (List.mem_append_left _ h))))
theorem mem_wAll_5 {r : Ref sig .tc} (h : r ∈ wMv1) : r ∈ (wAll : List (Ref sig .tc)) :=
  List.mem_append_right _ (List.mem_append_right _ (List.mem_append_right _ (List.mem_append_right _ (List.mem_append_right _ (List.mem_append_left _ h)))))
theorem mem_wAll_6 {r : Ref sig .tc} (h : r ∈ wNrm1) : r ∈ (wAll : List (Ref sig .tc)) :=
  List.mem_append_right _ (List.mem_append_right _ (List.mem_append_right _ (List.mem_append_right _ (List.mem_append_right _ (List.mem_append_right _ (List.mem_append_left _ h))))))
theorem mem_wAll_7 {r : Ref sig .tc} (h : r ∈ wLin2) : r ∈ (wAll : List (Ref sig .tc)) :=
  List.mem_append_right _ (List.mem_append_right _ (List.mem_append_right _ (List.mem_append_right _ (List.mem_append_right _ (List.mem_append_right _ (List.mem_append_right _ (List.mem_append_left _ h)))))))
theorem mem_wAll_8 {r : Ref sig .tc} (h : r ∈ wMv2) : r ∈ (wAll : List (Ref sig .tc)) :=
  List.mem_append_right _ (List.mem_append_right _ (List.mem_append_right _ (List.mem_append_right _ (List.mem_append_right _ (List.mem_append_right _ (List.mem_append_right _ (List.mem_append_right _ (List.mem_append_left _ h))))))))
theorem mem_wAll_9 {r : Ref sig .tc} (h : r ∈ wNrm2) : r ∈ (wAll : List (Ref sig .tc)) :=
  List.mem_append_right _ (List.mem_append_right _ (List.mem_append_right _ (List.mem_append_right _ (List.mem_append_right _ (List.mem_append_right _ (List.mem_append_right _ (List.mem_append_right _ (List.mem_append_right _ (h)))))))))

/-- The contents after the first k stretches. -/
abbrev W0 : Valuation τ sig (Elt F) := V
abbrev W1 : Valuation τ sig (Elt F) := after opsPre (W0 V)
abbrev W2 : Valuation τ sig (Elt F) := after opsLin0 (W1 V)
abbrev W3 : Valuation τ sig (Elt F) := after opsMv0 (W2 V)
abbrev W4 : Valuation τ sig (Elt F) := after opsNrm0 (W3 V)
abbrev W5 : Valuation τ sig (Elt F) := after opsLin1 (W4 V)
abbrev W6 : Valuation τ sig (Elt F) := after opsMv1 (W5 V)
abbrev W7 : Valuation τ sig (Elt F) := after opsNrm1 (W6 V)
abbrev W8 : Valuation τ sig (Elt F) := after opsLin2 (W7 V)
abbrev W9 : Valuation τ sig (Elt F) := after opsMv2 (W8 V)
abbrev W10 : Valuation τ sig (Elt F) := after opsNrm2 (W9 V)

/-- A buffer no operation writes holds its first contents after every stretch. -/
theorem W1_keep {r : Ref sig .tc} (hr : r ∉ (wAll : List (Ref sig .tc))) : W1 V (Proc.devRef .tc r) = V (Proc.devRef .tc r) :=
  (opsPre_frame (W0 V) (fun h => hr (mem_wAll_0 h)))
theorem W2_keep {r : Ref sig .tc} (hr : r ∉ (wAll : List (Ref sig .tc))) : W2 V (Proc.devRef .tc r) = V (Proc.devRef .tc r) :=
  (opsLin0_frame (W1 V) (fun h => hr (mem_wAll_1 h))).trans (W1_keep V hr)
theorem W3_keep {r : Ref sig .tc} (hr : r ∉ (wAll : List (Ref sig .tc))) : W3 V (Proc.devRef .tc r) = V (Proc.devRef .tc r) :=
  (opsMv0_frame (W2 V) (fun h => hr (mem_wAll_2 h))).trans (W2_keep V hr)
theorem W4_keep {r : Ref sig .tc} (hr : r ∉ (wAll : List (Ref sig .tc))) : W4 V (Proc.devRef .tc r) = V (Proc.devRef .tc r) :=
  (opsNrm0_frame (W3 V) (fun h => hr (mem_wAll_3 h))).trans (W3_keep V hr)
theorem W5_keep {r : Ref sig .tc} (hr : r ∉ (wAll : List (Ref sig .tc))) : W5 V (Proc.devRef .tc r) = V (Proc.devRef .tc r) :=
  (opsLin1_frame (W4 V) (fun h => hr (mem_wAll_4 h))).trans (W4_keep V hr)
theorem W6_keep {r : Ref sig .tc} (hr : r ∉ (wAll : List (Ref sig .tc))) : W6 V (Proc.devRef .tc r) = V (Proc.devRef .tc r) :=
  (opsMv1_frame (W5 V) (fun h => hr (mem_wAll_5 h))).trans (W5_keep V hr)
theorem W7_keep {r : Ref sig .tc} (hr : r ∉ (wAll : List (Ref sig .tc))) : W7 V (Proc.devRef .tc r) = V (Proc.devRef .tc r) :=
  (opsNrm1_frame (W6 V) (fun h => hr (mem_wAll_6 h))).trans (W6_keep V hr)
theorem W8_keep {r : Ref sig .tc} (hr : r ∉ (wAll : List (Ref sig .tc))) : W8 V (Proc.devRef .tc r) = V (Proc.devRef .tc r) :=
  (opsLin2_frame (W7 V) (fun h => hr (mem_wAll_7 h))).trans (W7_keep V hr)
theorem W9_keep {r : Ref sig .tc} (hr : r ∉ (wAll : List (Ref sig .tc))) : W9 V (Proc.devRef .tc r) = V (Proc.devRef .tc r) :=
  (opsMv2_frame (W8 V) (fun h => hr (mem_wAll_8 h))).trans (W8_keep V hr)
theorem W10_keep {r : Ref sig .tc} (hr : r ∉ (wAll : List (Ref sig .tc))) : W10 V (Proc.devRef .tc r) = V (Proc.devRef .tc r) :=
  (opsNrm2_frame (W9 V) (fun h => hr (mem_wAll_9 h))).trans (W9_keep V hr)

/-- The three layers' tables as functions of the first contents: each layer's rectified linear map and its standardisation. -/
abbrev hid0 : (⟨S100000x128, .f32⟩ : BufTy).Contents (Elt F) :=
  Stage.lin0 (V (main_arg0 : DevRef τ sig)) (Stage.prefixV (V (main_arg1 : DevRef τ sig)) (V (main_arg15 : DevRef τ sig))) (Stage.prefixU (V (main_arg2 : DevRef τ sig)) (V (main_arg16 : DevRef τ sig))) (V (main_arg3 : DevRef τ sig)) (V (main_arg4 : DevRef τ sig))
abbrev act0 : (⟨S100000x128, .f32⟩ : BufTy).Contents (Elt F) := Stage.bn (hid0 V) (V (main_arg9 : DevRef τ sig)) (V (main_arg10 : DevRef τ sig))
abbrev hid1 : (⟨S100000x128, .f32⟩ : BufTy).Contents (Elt F) := Stage.lin (act0 V) (V (main_arg5 : DevRef τ sig)) (V (main_arg6 : DevRef τ sig))
abbrev act1 : (⟨S100000x128, .f32⟩ : BufTy).Contents (Elt F) := Stage.bn (hid1 V) (V (main_arg11 : DevRef τ sig)) (V (main_arg12 : DevRef τ sig))
abbrev hid2 : (⟨S100000x128, .f32⟩ : BufTy).Contents (Elt F) := Stage.lin (act1 V) (V (main_arg7 : DevRef τ sig)) (V (main_arg8 : DevRef τ sig))
abbrev act2 : (⟨S100000x128, .f32⟩ : BufTy).Contents (Elt F) := Stage.bn (hid2 V) (V (main_arg13 : DevRef τ sig)) (V (main_arg14 : DevRef τ sig))

theorem W1_v13 : W1 V (main_v13 : DevRef τ sig) = Stage.prefixV (V (main_arg1 : DevRef τ sig)) (V (main_arg15 : DevRef τ sig)) := pre_v13 V
theorem W1_v20 : W1 V (main_v20 : DevRef τ sig) = Stage.prefixU (V (main_arg2 : DevRef τ sig)) (V (main_arg16 : DevRef τ sig)) := pre_v20 V
theorem W2_hid : W2 V (main_v27 : DevRef τ sig) = hid0 V :=
  (lin0_v27 (W1 V)).trans (by
    rw [W1_keep V keep_arg0, W1_v13, W1_v20, W1_keep V keep_arg3, W1_keep V keep_arg4])
theorem W3_hid : W3 V (main_v27 : DevRef τ sig) = hid0 V :=
  (opsMv0_frame (W2 V) (r := main_v27) (by decide)).trans (W2_hid V)
theorem W3_mean : W3 V (main_v30 : DevRef τ sig) = Stage.meanOf (hid0 V) :=
  (mv0_mean (W2 V)).trans (by rw [W2_hid])
theorem W3_var : W3 V (main_v31 : DevRef τ sig) = Stage.varOf (hid0 V) :=
  (mv0_var (W2 V)).trans (by rw [W2_hid])
theorem W4_act : W4 V (main_v46 : DevRef τ sig) = act0 V :=
  (nrm0_out (W3 V)).trans (by
    rw [W3_hid, W3_mean, W3_var, W3_keep V keep_arg9, W3_keep V keep_arg10]
    exact (bn_eq _ _ _).symm)
theorem W5_hid : W5 V (main_v52 : DevRef τ sig) = hid1 V :=
  (lin1_out (W4 V)).trans (by
    rw [W4_act, W4_keep V keep_arg5, W4_keep V keep_arg6])
theorem W6_hid : W6 V (main_v52 : DevRef τ sig) = hid1 V :=
  (opsMv1_frame (W5 V) (r := main_v52) (by decide)).trans (W5_hid V)
theorem W6_mean : W6 V (main_v55 : DevRef τ sig) = Stage.meanOf (hid1 V) :=
  (mv1_mean (W5 V)).trans (by rw [W5_hid])
theorem W6_var : W6 V (main_v56 : DevRef τ sig) = Stage.varOf (hid1 V) :=
  (mv1_var (W5 V)).trans (by rw [W5_hid])
theorem W7_act : W7 V (main_v71 : DevRef τ sig) = act1 V :=
  (nrm1_out (W6 V)).trans (by
    rw [W6_hid, W6_mean, W6_var, W6_keep V keep_arg11, W6_keep V keep_arg12]
    exact (bn_eq _ _ _).symm)
theorem W8_hid : W8 V (main_v77 : DevRef τ sig) = hid2 V :=
  (lin2_out (W7 V)).trans (by
    rw [W7_act, W7_keep V keep_arg7, W7_keep V keep_arg8])
theorem W9_hid : W9 V (main_v77 : DevRef τ sig) = hid2 V :=
  (opsMv2_frame (W8 V) (r := main_v77) (by decide)).trans (W8_hid V)
theorem W9_mean : W9 V (main_v80 : DevRef τ sig) = Stage.meanOf (hid2 V) :=
  (mv2_mean (W8 V)).trans (by rw [W8_hid])
theorem W9_var : W9 V (main_v81 : DevRef τ sig) = Stage.varOf (hid2 V) :=
  (mv2_var (W8 V)).trans (by rw [W8_hid])
theorem W10_act : W10 V (main_v96 : DevRef τ sig) = act2 V :=
  (nrm2_out (W9 V)).trans (by
    rw [W9_hid, W9_mean, W9_var, W9_keep V keep_arg13, W9_keep V keep_arg14]
    exact (bn_eq _ _ _).symm)

/-- The whole line at the result buffer: the reference's result of the first contents of the seventeen arguments. -/
theorem out_eq : after ops V (main_v96 : DevRef τ sig)
    = Stage.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  simp only [ops, after_join]
  exact W10_act V

/-- The whole line at a buffer it does not write. -/
theorem keep_eq {r : Ref sig .tc} (hr : r ∉ (wAll : List (Ref sig .tc))) : after ops V (Proc.devRef .tc r) = V (Proc.devRef .tc r) := by
  simp only [ops, after_join]
  exact W10_keep V hr

end Joined

/-- On every device, for any float values, from any memory with zero counters: every weakly fair execution of
    @main terminates with the result buffer at the reference's result of the seventeen arguments' launch contents,
    and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v96)
        = Stage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v96).trans (out_eq _),
      (h c main_arg0).trans (keep_eq _ keep_arg0),
      (h c main_arg1).trans (keep_eq _ keep_arg1),
      (h c main_arg2).trans (keep_eq _ keep_arg2),
      (h c main_arg3).trans (keep_eq _ keep_arg3),
      (h c main_arg4).trans (keep_eq _ keep_arg4),
      (h c main_arg5).trans (keep_eq _ keep_arg5),
      (h c main_arg6).trans (keep_eq _ keep_arg6),
      (h c main_arg7).trans (keep_eq _ keep_arg7),
      (h c main_arg8).trans (keep_eq _ keep_arg8),
      (h c main_arg9).trans (keep_eq _ keep_arg9),
      (h c main_arg10).trans (keep_eq _ keep_arg10),
      (h c main_arg11).trans (keep_eq _ keep_arg11),
      (h c main_arg12).trans (keep_eq _ keep_arg12),
      (h c main_arg13).trans (keep_eq _ keep_arg13),
      (h c main_arg14).trans (keep_eq _ keep_arg14),
      (h c main_arg15).trans (keep_eq _ keep_arg15),
      (h c main_arg16).trans (keep_eq _ keep_arg16)⟩)
    (run_seq scopedRefs_eq scopedSems_eq defs main (fun _ => ops) main_eq (fun _ => ops_sub) m ρ (fun _ => ops_fresh))

end Cert.ReferenceIdeal.Value

end
-- ==== Proof.RefRead.lean ====
/-
  The reference's whole-array stages read at an index, at the ideal values.

  Every stage of the reference is a composition of host operations on whole tables. Read at row i and feature j,
  each of them is the plain function of the shared mathematics:

    a rectifier is max · 0 (the zero word denotes 0); a bias vector repeated down the rows reads its entry j;
    a product of a table with a transposed weight table is the finite sum over the contracted feature, the
    transposed table read at (k, j) being the weight table at (j, k); the three tables joined along the features
    read, at joined feature k, the piece that holds k (k < 128, k < 256, or beyond);
    a column sum from the zero word is 0 + the sum of the column, so the column mean is that sum over the row count;
    the variance's divisor is the row count minus the conversion of the integer zero, hence the row count, which is
    100000 > 0, so the guard "divisor positive" holds, the guarded value is the quotient, and the other branch is
    never read; the standardisation is (h - mean) · (var + eps)^(-1/2) · gamma + beta column by column.

  The result is the three layers in order, applied to the node table and the two prefix tables, which stay opaque.
-/
import proofs.«146512_j36301063586429_1_alg».proof.Proof.RefDefs
import proofs.«146512_j36301063586429_1_alg».proof.Proof.Spec
import proofs.«146512_j36301063586429_1_alg».proof.Proof.Gen.ReferenceIdeal
import proofs.«146512_j36301063586429_1_alg».proof.Proof.Algebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.StageAt

open Idealize.ShloMosaic Idealize.ShloMosaic.ValueIdx Cert.ReferenceIdeal Cert.ReferenceIdeal.Stage Cert.NodeMlp

variable [Facts]
open Facts₀ Facts

/-- The rectifier at an index: the maximum with zero. -/
theorem relu_apply (a : (⟨S100000x128, .f32⟩ : BufTy).Contents (Elt Ideal)) (y : S100000x128.Idx) :
    Stage.relu (F := Ideal) a y = max (a y) 0 := by
  unfold Stage.relu
  rw [maximumf_apply, broadcastInDim_scalar_apply, constant_apply, Ideal.ofBits_zero_f32]

/-- A bias vector repeated down the rows reads, at row i and column j, its entry j. -/
theorem biasRows_apply (b : (⟨S128, .f32⟩ : BufTy).Contents (Elt Ideal)) (i : Fin 100000) (j : Fin 128) :
    Stage.biasRows (F := Ideal) b (ix2 i j) = b (ix1 j) := by
  unfold Stage.biasRows
  refine (broadcastInDim_apply _ _ _ (ix2 i j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The row-reduction's shape fact in the form that names the inserted index. -/
theorem reduces_rows : S100000x128.Reduces [0] S128 := by decide

/-- A column sum over the 100000 rows, from the zero word: at column j it is the sum of the column. -/
theorem colSum_apply (h : (⟨S100000x128, .f32⟩ : BufTy).Contents (Elt Ideal)) (j : Fin 128) :
    Host.reduceAdd (F := Ideal) h (constant (F := Ideal) S_ .f32 0x00000000#32) reducesTo_S100000x128_S128_d0 h_S_ (ix1 j)
      = ∑ i : Fin 100000, h (ix2 i j) := by
  rw [hostReduceAdd_apply, Ideal.hostReduceAdd_single reducesTo_S100000x128_S128_d0 reduces_rows, constant_apply,
    Ideal.ofBits_zero_f32, zero_add]
  refine Finset.sum_congr rfl fun i _ => congrArg h (funext fun a => Fin.ext ?_)
  match a with
  | ⟨0, _⟩ => rfl
  | ⟨1, _⟩ => rfl

/-- The 128-feature product against a weight table already transposed: the sum over the contracted feature. -/
theorem dot128_apply (h : FVec Ideal S100000x128 .f32) (wt : FVec Ideal S128x128 .f32) (i : Fin 100000) (j : Fin 128) :
    Host.dotGeneral (F := Ideal) (φ₁ := .f32) (φ₂ := .f32) dot_S100000x128_S128x128_S100000x128_1_0_0_1_n_n none h wt (ix2 i j)
      = ∑ k : Fin 128, h (ix2 i k) * wt (ix2 k j) := by
  show FloatOps.dotGeneral (F := Ideal) (φ₁ := .f32) (φ₂ := .f32) dot_S100000x128_S128x128_S100000x128_1_0_0_1_n_n none _ h wt (ix2 i j) = _
  rw [Ideal.dotGeneral_apply,
    ← Equiv.sum_comp (contrEquiv1 dot_S100000x128_S128x128_S100000x128_1_0_0_1_n_n 128 rfl rfl).symm]
  refine Finset.sum_congr rfl fun c _ => ?_
  have c2 := contrEquiv1_symm_val dot_S100000x128_S128x128_S100000x128_1_0_0_1_n_n 128 rfl rfl c
  have l2 : dot_S100000x128_S128x128_S100000x128_1_0_0_1_n_n.lhsIdx (ix2 i j) ((contrEquiv1 _ 128 rfl rfl).symm c) = ix2 i c := by
    funext ax; apply Fin.ext
    match ax with
    | ⟨0, _⟩ => simp [DotDims.lhsIdx, dot_S100000x128_S128x128_S100000x128_1_0_0_1_n_n]; rfl
    | ⟨1, _⟩ => simp [DotDims.lhsIdx, dot_S100000x128_S128x128_S100000x128_1_0_0_1_n_n]; exact c2
  have r2 : dot_S100000x128_S128x128_S100000x128_1_0_0_1_n_n.rhsIdx (ix2 i j) ((contrEquiv1 _ 128 rfl rfl).symm c) = ix2 c j := by
    funext ax; apply Fin.ext
    match ax with
    | ⟨0, _⟩ => simp [DotDims.rhsIdx, dot_S100000x128_S128x128_S100000x128_1_0_0_1_n_n]; exact c2
    | ⟨1, _⟩ => simp [DotDims.rhsIdx, dot_S100000x128_S128x128_S100000x128_1_0_0_1_n_n]; rfl
  rw [l2, r2]

/-- The 384-feature product of the joined table against the transposed first weight table: the sum over the joined feature. -/
theorem dot384_apply (h : FVec Ideal S100000x384 .f32) (wt : FVec Ideal S384x128 .f32) (i : Fin 100000) (j : Fin 128) :
    Host.dotGeneral (F := Ideal) (φ₁ := .f32) (φ₂ := .f32) dot_S100000x384_S384x128_S100000x128_1_0_0_1_n_n none h wt (ix2 i j)
      = ∑ k : Fin 384, h (ix2 i k) * wt (ix2 k j) := by
  show FloatOps.dotGeneral (F := Ideal) (φ₁ := .f32) (φ₂ := .f32) dot_S100000x384_S384x128_S100000x128_1_0_0_1_n_n none _ h wt (ix2 i j) = _
  rw [Ideal.dotGeneral_apply,
    ← Equiv.sum_comp (contrEquiv1 dot_S100000x384_S384x128_S100000x128_1_0_0_1_n_n 384 rfl rfl).symm]
  refine Finset.sum_congr rfl fun c _ => ?_
  have c2 := contrEquiv1_symm_val dot_S100000x384_S384x128_S100000x128_1_0_0_1_n_n 384 rfl rfl c
  have l2 : dot_S100000x384_S384x128_S100000x128_1_0_0_1_n_n.lhsIdx (ix2 i j) ((contrEquiv1 _ 384 rfl rfl).symm c) = ix2 i c := by
    funext ax; apply Fin.ext
    match ax with
    | ⟨0, _⟩ => simp [DotDims.lhsIdx, dot_S100000x384_S384x128_S100000x128_1_0_0_1_n_n]; rfl
    | ⟨1, _⟩ => simp [DotDims.lhsIdx, dot_S100000x384_S384x128_S100000x128_1_0_0_1_n_n]; exact c2
  have r2 : dot_S100000x384_S384x128_S100000x128_1_0_0_1_n_n.rhsIdx (ix2 i j) ((contrEquiv1 _ 384 rfl rfl).symm c) = ix2 c j := by
    funext ax; apply Fin.ext
    match ax with
    | ⟨0, _⟩ => simp [DotDims.rhsIdx, dot_S100000x384_S384x128_S100000x128_1_0_0_1_n_n]; exact c2
    | ⟨1, _⟩ => simp [DotDims.rhsIdx, dot_S100000x384_S384x128_S100000x128_1_0_0_1_n_n]; rfl
  rw [l2, r2]

/-- Three tables joined along the features, read at row i and joined feature k: the piece that holds k. -/
theorem concat3_apply (x v u : (⟨S100000x128, .f32⟩ : BufTy).Contents (Elt Ideal)) (i : Fin 100000) (k : Fin 384) :
    concatenate S100000x384 1 [⟨S100000x128, x⟩, ⟨S100000x128, v⟩, ⟨S100000x128, u⟩]
        concatenates_S100000x128_S100000x128_S100000x128_S100000x384_d1 (ix2 i k)
      = cat3 (fun i k => x (ix2 i k)) (fun i k => v (ix2 i k)) (fun i k => u (ix2 i k)) i k := by
  unfold cat3
  by_cases h1 : k.val < 128
  · rw [dif_pos h1]
    exact concatenate_apply_piece _ _ _ (ix2 i k) 0 (by show (0 : ℕ) < 3; omega) S100000x128 x rfl rfl 0 rfl (ix2 i ⟨k.val, h1⟩)
      (fun b hb => by
        match b with
        | ⟨0, _⟩ => rfl
        | ⟨1, _⟩ => exact absurd rfl hb)
      (by show 0 + k.val = k.val; omega)
  · rw [dif_neg h1]
    by_cases h2 : k.val < 256
    · rw [dif_pos h2]
      exact concatenate_apply_piece _ _ _ (ix2 i k) 1 (by show (1 : ℕ) < 3; omega) S100000x128 v rfl rfl 128 rfl (ix2 i ⟨k.val - 128, by omega⟩)
        (fun b hb => by
          match b with
          | ⟨0, _⟩ => rfl
          | ⟨1, _⟩ => exact absurd rfl hb)
        (by show 128 + (k.val - 128) = k.val; omega)
    · rw [dif_neg h2]
      exact concatenate_apply_piece _ _ _ (ix2 i k) 2 (by show (2 : ℕ) < 3; omega) S100000x128 u rfl rfl 256 rfl
        (ix2 i ⟨k.val - 256, by have := k.isLt; omega⟩)
        (fun b hb => by
          match b with
          | ⟨0, _⟩ => rfl
          | ⟨1, _⟩ => exact absurd rfl hb)
        (by show 256 + (k.val - 256) = k.val; omega)

/-- The host's reciprocal square root reads elementwise. -/
theorem hostRsqrt_apply {s : Shape} (a : FVec Ideal s .f32) (y : s.Idx) : Host.rsqrt (F := Ideal) a y = Ideal.rsqrt (a y) := rfl

/-- The column means at a column: the column sum over the row count. -/
theorem meanOf_apply (h : (⟨S100000x128, .f32⟩ : BufTy).Contents (Elt Ideal)) (j : Fin 128) :
    Stage.meanOf (F := Ideal) h (ix1 j) = mean (fun i k => h (ix2 i k)) j := by
  unfold Stage.meanOf mean colSum cN
  rw [hostDivf_apply, colSum_apply, broadcastInDim_scalar_apply, constant_apply]

/-- The variance function's own copy of the column means, kept as a row and repeated down the rows: at row i and
    column j it is the mean of column j. -/
theorem meanRows_apply (h : (⟨S100000x128, .f32⟩ : BufTy).Contents (Elt Ideal)) (i : Fin 100000) (j : Fin 128) :
    broadcastInDim S100000x128 ![0, 1] bcast_S1x128_S100000x128_0_1
        (Host.divf (F := Ideal)
          (broadcastInDim S1x128 ![1] bcast_S128_S1x128_1
            (Host.reduceAdd (F := Ideal) h (constant (F := Ideal) S_ .f32 0x00000000#32) reducesTo_S100000x128_S128_d0 h_S_))
          (broadcastInDim S1x128 ![] bcast_S_S1x128 (constant (F := Ideal) S_ .f32 0x47C35000#32))) (ix2 i j)
      = mean (fun i k => h (ix2 i k)) j := by
  refine (broadcastInDim_apply _ _ _ (ix2 i j) (ix2 (0 : Fin 1) j) fun a => ?_).trans ?_
  · match a with
    | ⟨0, _⟩ => rfl
    | ⟨1, _⟩ => rfl
  · rw [hostDivf_apply, broadcastInDim_scalar_apply, constant_apply]
    have e : broadcastInDim S1x128 ![1] bcast_S128_S1x128_1
        (Host.reduceAdd (F := Ideal) h (constant (F := Ideal) S_ .f32 0x00000000#32) reducesTo_S100000x128_S128_d0 h_S_)
        (ix2 (0 : Fin 1) j)
        = Host.reduceAdd (F := Ideal) h (constant (F := Ideal) S_ .f32 0x00000000#32) reducesTo_S100000x128_S128_d0 h_S_ (ix1 j) :=
      broadcastInDim_apply _ _ _ (ix2 (0 : Fin 1) j) (ix1 j) fun a => by
        match a with
        | ⟨0, _⟩ => rfl
    rw [e, colSum_apply]
    rfl

/-- The variance's divisor: the row count minus the conversion of the integer zero, which is the row count. -/
theorem varDen_apply : Stage.varDen (F := Ideal) ix0 = cN := by
  unfold Stage.varDen cN
  rw [subf_apply, constant_apply, sitofp_apply, constantI_apply]
  show Ideal.ofBits .f32 0x47C35000#32 - (((0#32 : BitVec 32).toInt : ℝ) : EReal) = _
  rw [show (0#32 : BitVec 32).toInt = 0 from rfl, Int.cast_zero, EReal.coe_zero, sub_zero]

/-- The guard "divisor positive" holds at every column, because the row count is 100000. -/
theorem guard_apply (j : Fin 128) :
    broadcastInDim S128 ![] bcast_S_S128
        (cmpf .ogt (Stage.varDen (F := Ideal)) (constant (F := Ideal) S_ .f32 0x00000000#32)) (ix1 j) = 1#1 := by
  rw [broadcastInDim_scalar_apply, cmpf_apply, varDen_apply, constant_apply, Ideal.ofBits_zero_f32, Ideal.cmpf_def]
  have hpos : (0 : EReal) < cN := by
    rw [cN_eq]
    exact EReal.coe_pos.mpr (by norm_num)
  unfold Ideal.cmp
  simp [hpos]

/-- The column variances at a column: the mean of the squared deviations from the column mean. -/
theorem varOf_apply (h : (⟨S100000x128, .f32⟩ : BufTy).Contents (Elt Ideal)) (j : Fin 128) :
    Stage.varOf (F := Ideal) h (ix1 j) = varR (fun i k => h (ix2 i k)) j := by
  unfold Stage.varOf
  rw [select_apply, guard_apply, select_one, hostDivf_apply, colSum_apply, broadcastInDim_scalar_apply, varDen_apply]
  unfold varR
  refine congrArg (fun s => Ideal.div s cN) (Finset.sum_congr rfl fun i _ => ?_)
  rw [mulf_apply, subf_apply, meanRows_apply]

/-- The standardisation at row i and column j. -/
theorem bn_apply (h : (⟨S100000x128, .f32⟩ : BufTy).Contents (Elt Ideal)) (g bt : (⟨S128, .f32⟩ : BufTy).Contents (Elt Ideal))
    (i : Fin 100000) (j : Fin 128) :
    Stage.bn h g bt (ix2 i j) = bnR (fun i k => h (ix2 i k)) (fun k => g (ix1 k)) (fun k => bt (ix1 k)) i j := by
  unfold Stage.bn bnR cEps
  rw [addf_apply, mulf_apply, mulf_apply, subf_apply, biasRows_apply, biasRows_apply, biasRows_apply, biasRows_apply,
    meanOf_apply, hostRsqrt_apply, addf_apply, varOf_apply, broadcastInDim_scalar_apply, constant_apply]

/-- A later layer at row i and output feature j. -/
theorem lin_apply (h : (⟨S100000x128, .f32⟩ : BufTy).Contents (Elt Ideal)) (w : (⟨S128x128, .f32⟩ : BufTy).Contents (Elt Ideal))
    (b : (⟨S128, .f32⟩ : BufTy).Contents (Elt Ideal)) (i : Fin 100000) (j : Fin 128) :
    Stage.lin h w b (ix2 i j) = linT (fun i k => h (ix2 i k)) (fun k j => w (ix2 j k)) (fun j => b (ix1 j)) i j := by
  unfold Stage.lin linT
  rw [relu_apply, addf_apply, dot128_apply, biasRows_apply]
  refine congrArg (fun s => max (s + b (ix1 j)) 0) (Finset.sum_congr rfl fun k _ => ?_)
  rw [transpose_ix2_apply]

/-- The first layer at row i and output feature j. -/
theorem lin0_apply (x v u : (⟨S100000x128, .f32⟩ : BufTy).Contents (Elt Ideal)) (w0 : (⟨S128x384, .f32⟩ : BufTy).Contents (Elt Ideal))
    (b0 : (⟨S128, .f32⟩ : BufTy).Contents (Elt Ideal)) (i : Fin 100000) (j : Fin 128) :
    Stage.lin0 x v u w0 b0 (ix2 i j)
      = lin384T (cat3 (fun i k => x (ix2 i k)) (fun i k => v (ix2 i k)) (fun i k => u (ix2 i k))) (fun k j => w0 (ix2 j k)) (fun j => b0 (ix1 j)) i j := by
  unfold Stage.lin0 lin384T
  rw [relu_apply, addf_apply, dot384_apply, biasRows_apply]
  refine congrArg (fun s => max (s + b0 (ix1 j)) 0) (Finset.sum_congr rfl fun k _ => ?_)
  rw [transpose_ix2_apply, concat3_apply]

/-- The stages as tables indexed by row and feature: the forms used under a binder. -/
theorem lin_fun (h : (⟨S100000x128, .f32⟩ : BufTy).Contents (Elt Ideal)) (w : (⟨S128x128, .f32⟩ : BufTy).Contents (Elt Ideal))
    (b : (⟨S128, .f32⟩ : BufTy).Contents (Elt Ideal)) :
    (fun (i : Fin 100000) (k : Fin 128) => Stage.lin h w b (ix2 i k))
      = linT (fun i k => h (ix2 i k)) (fun k j => w (ix2 j k)) (fun j => b (ix1 j)) :=
  funext fun i => funext fun k => lin_apply h w b i k

theorem lin0_fun (x v u : (⟨S100000x128, .f32⟩ : BufTy).Contents (Elt Ideal)) (w0 : (⟨S128x384, .f32⟩ : BufTy).Contents (Elt Ideal))
    (b0 : (⟨S128, .f32⟩ : BufTy).Contents (Elt Ideal)) :
    (fun (i : Fin 100000) (k : Fin 128) => Stage.lin0 x v u w0 b0 (ix2 i k))
      = lin384T (cat3 (fun i k => x (ix2 i k)) (fun i k => v (ix2 i k)) (fun i k => u (ix2 i k))) (fun k j => w0 (ix2 j k)) (fun j => b0 (ix1 j)) :=
  funext fun i => funext fun k => lin0_apply x v u w0 b0 i k

theorem bn_fun (h : (⟨S100000x128, .f32⟩ : BufTy).Contents (Elt Ideal)) (g bt : (⟨S128, .f32⟩ : BufTy).Contents (Elt Ideal)) :
    (fun (i : Fin 100000) (k : Fin 128) => Stage.bn h g bt (ix2 i k))
      = bnR (fun i k => h (ix2 i k)) (fun k => g (ix1 k)) (fun k => bt (ix1 k)) :=
  funext fun i => funext fun k => bn_apply h g bt i k

/-- The reference's result at row i and feature j: the three layers of the textbook form, on the three prefix tables. -/
theorem out_apply (x : (⟨S100000x128, .f32⟩ : BufTy).Contents (Elt Ideal)) (ea : (⟨S1600000x128, .f32⟩ : BufTy).Contents (Elt Ideal))
    (u : (⟨S64x128, .f32⟩ : BufTy).Contents (Elt Ideal)) (w0 : (⟨S128x384, .f32⟩ : BufTy).Contents (Elt Ideal))
    (b0 : (⟨S128, .f32⟩ : BufTy).Contents (Elt Ideal)) (w1 : (⟨S128x128, .f32⟩ : BufTy).Contents (Elt Ideal))
    (b1 : (⟨S128, .f32⟩ : BufTy).Contents (Elt Ideal)) (w2 : (⟨S128x128, .f32⟩ : BufTy).Contents (Elt Ideal))
    (b2 g0 bt0 g1 bt1 g2 bt2 : (⟨S128, .f32⟩ : BufTy).Contents (Elt Ideal))
    (ei : (⟨S2x1600000, .i32⟩ : BufTy).Contents (Elt Ideal)) (batch : (⟨S100000, .i32⟩ : BufTy).Contents (Elt Ideal))
    (i : Fin 100000) (j : Fin 128) :
    Stage.out x ea u w0 b0 w1 b1 w2 b2 g0 bt0 g1 bt1 g2 bt2 ei batch (ix2 i j)
      = netR (fun i k => x (ix2 i k)) (fun i k => Stage.prefixV ea ei (ix2 i k)) (fun i k => Stage.prefixU u batch (ix2 i k))
          (fun k j => w0 (ix2 j k)) (fun j => b0 (ix1 j)) (fun k j => w1 (ix2 j k)) (fun j => b1 (ix1 j))
          (fun k j => w2 (ix2 j k)) (fun j => b2 (ix1 j))
          (fun k => g0 (ix1 k)) (fun k => bt0 (ix1 k)) (fun k => g1 (ix1 k)) (fun k => bt1 (ix1 k)) (fun k => g2 (ix1 k)) (fun k => bt2 (ix1 k)) i j := by
  unfold Stage.out netR
  rw [bn_apply, lin_fun, bn_fun, lin_fun, bn_fun, lin0_fun]

end Cert.ReferenceIdeal.StageAt

end
-- ==== Proof.LibScatterRows.lean ====
/-
  Reading the host's index operations at one element, at the ideal instance (every float an extended real, every
  operation exact): the accumulating scatter along axis 0 (rows of a matrix, entries of a flat array), the gather
  along axis 0, the concatenation of two flat arrays, the column of start indices built from a flat array, the
  iota, the wrap-around normalisation of a signed index, and the splitting of a finite sum over `A + B` terms.
  Everything is stated over generic extents and over any dimension record with the stated data, so that it applies
  to every program of this family.
-/
import Idealize.ShloMosaic.PureOps.Ideal
import Idealize.ShloMosaic.Lib.ValueIdx
import Idealize.ShloMosaic.Lib.Pipeline.Value

noncomputable section

open scoped BigOperators

namespace Cert.Lib.ScatterRows

open Idealize.ShloMosaic Idealize.ShloMosaic.ValueIdx

/-- A start index read as a signed integer and clamped into `[0, N − 1]`: a negative integer gives `0`
    (the natural-number part of a negative integer is `0`), one past the end gives `N − 1`. -/
def clampRow (N : Nat) (hN : 0 < N) (z : ℤ) : Fin N := ⟨min z.toNat (N - 1), by omega⟩

/-! ## Rows of a matrix: scatter-add and gather along axis 0 -/

section Rows
variable {N D E w : Nat}

/-- Row scatter, operand axis 0 (the row axis): the window of update `(e, c)` starts at the row index stored at
    `idx[e, 0]`, read as a signed integer and not clamped. -/
theorem start0 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 0
      = (idx (ix2 (j 0) 0)).toInt := by
  unfold ScatterDims.start
  rw [dif_pos (show (0 : Fin 2) ∈ [(0 : Fin 2)] from List.mem_singleton.mpr rfl)]
  congr 2
  funext b; refine Fin.ext ?_
  match b with
  | ⟨0, _⟩ => rfl
  | ⟨1, _⟩ => rfl

/-- Row scatter, operand axis 1 (the column axis): the scatter indices do not address it, so every window starts
    at column `0`. -/
theorem start1 (wf) (j : (⟨2, ![E, D]⟩ : Shape).Idx) (idx : IVec ⟨2, ![E, 1]⟩ w) :
    (⟨[1], [0], [0], 1, wf⟩ : ScatterDims ⟨2, ![N, D]⟩ ⟨2, ![E, 1]⟩ ⟨2, ![E, D]⟩).start j idx 1 = 0 := by
  unfold ScatterDims.start
  rw [dif_neg (show (1 : Fin 2) ∉ [(0 : Fin 2)] by decide)]

/-- Row scatter: the row axis is an inserted window axis, so the window coordinate on it is `0`. -/
theorem window0 (wf) (j : (⟨2, ![E, D]⟩ : Shape).Idx) :
    (⟨[1], [0], [0], 1, wf⟩ : ScatterDims ⟨2, ![N, D]⟩ ⟨2, ![E, 1]⟩ ⟨2, ![E, D]⟩).window j 0 = 0 := by
  have h0 : (0 : Fin 2) ∉ (⟨[1], [0], [0], 1, wf⟩ : ScatterDims ⟨2, ![N, D]⟩ ⟨2, ![E, 1]⟩ ⟨2, ![E, D]⟩).sKept := by
    show (0 : Fin 2) ∉ [(1 : Fin 2)]
    decide
  unfold ScatterDims.window
  rw [dif_neg h0]

/-- Row scatter: the column axis carries the update's own column, so the window coordinate of update `(e, c)`
    on it is `c`. -/
theorem window1 (wf) (j : (⟨2, ![E, D]⟩ : Shape).Idx) :
    (⟨[1], [0], [0], 1, wf⟩ : ScatterDims ⟨2, ![N, D]⟩ ⟨2, ![E, 1]⟩ ⟨2, ![E, D]⟩).window j 1 = (j 1).val := by
  have h1 : (1 : Fin 2) ∈ (⟨[1], [0], [0], 1, wf⟩ : ScatterDims ⟨2, ![N, D]⟩ ⟨2, ![E, 1]⟩ ⟨2, ![E, D]⟩).sKept := by
    show (1 : Fin 2) ∈ [(1 : Fin 2)]
    decide
  unfold ScatterDims.window
  rw [dif_pos h1]
  rfl

/-- WHERE AN UPDATE LANDS. Update element `(e, c)` of a row scatter lands on operand element `(i, j)` exactly
    when the row index `idx[e, 0]`, read signed, is `i` and the column is unchanged, `c = j`; an update whose row
    index is negative or at least `N` lands nowhere (it is dropped). -/
theorem resultIdx?_rows (wf) (idx : IVec ⟨2, ![E, 1]⟩ w) (e : Fin E) (j' : Fin D) (i : Fin N) (j : Fin D) :
    (⟨[1], [0], [0], 1, wf⟩ : ScatterDims ⟨2, ![N, D]⟩ ⟨2, ![E, 1]⟩ ⟨2, ![E, D]⟩).resultIdx? (ix2 e j') idx
        = some (ix2 i j)
      ↔ (idx (ix2 e 0)).toInt = (i.val : ℤ) ∧ j' = j := by
  have hs0 : (⟨[1], [0], [0], 1, wf⟩ : ScatterDims ⟨2, ![N, D]⟩ ⟨2, ![E, 1]⟩ ⟨2, ![E, D]⟩).start (ix2 e j') idx 0
      = (idx (ix2 e 0)).toInt := start0 wf (ix2 e j') idx
  have hs1 := start1 (N := N) wf (ix2 e j') idx
  have hw0 := window0 (N := N) (E := E) wf (ix2 e j')
  have hw1 : (⟨[1], [0], [0], 1, wf⟩ : ScatterDims ⟨2, ![N, D]⟩ ⟨2, ![E, 1]⟩ ⟨2, ![E, D]⟩).window (ix2 e j') 1
      = j'.val := window1 wf (ix2 e j')
  unfold ScatterDims.resultIdx?
  split
  next h =>
    rw [Option.some.injEq]
    have ha0 := (h 0).1
    rw [hs0, hw0] at ha0
    constructor
    · intro hf
      have h0 : ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val :=
        congrArg Fin.val (congrFun hf 0)
      have h1 : ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j.val :=
        congrArg Fin.val (congrFun hf 1)
      rw [hs0, hw0] at h0
      rw [hs1, hw1] at h1
      refine ⟨by omega, Fin.ext (by omega)⟩
    · rintro ⟨hz, rfl⟩
      funext a
      refine Fin.ext ?_
      match a with
      | ⟨0, _⟩ =>
        show ((⟨[1], [0], [0], 1, wf⟩ : ScatterDims ⟨2, ![N, D]⟩ ⟨2, ![E, 1]⟩ ⟨2, ![E, D]⟩).start (ix2 e j') idx 0
          + ((⟨[1], [0], [0], 1, wf⟩ : ScatterDims ⟨2, ![N, D]⟩ ⟨2, ![E, 1]⟩ ⟨2, ![E, D]⟩).window (ix2 e j') 0 : ℕ)).toNat = i.val
        rw [hs0, hw0, hz]; omega
      | ⟨1, _⟩ =>
        show ((⟨[1], [0], [0], 1, wf⟩ : ScatterDims ⟨2, ![N, D]⟩ ⟨2, ![E, 1]⟩ ⟨2, ![E, D]⟩).start (ix2 e j') idx 1
          + ((⟨[1], [0], [0], 1, wf⟩ : ScatterDims ⟨2, ![N, D]⟩ ⟨2, ![E, 1]⟩ ⟨2, ![E, D]⟩).window (ix2 e j') 1 : ℕ)).toNat = j'.val
        rw [hs1, hw1]; omega
  next h =>
    constructor
    · intro hf; exact absurd hf (by simp)
    · rintro ⟨hz, rfl⟩
      exfalso; apply h
      intro a
      match a with
      | ⟨0, _⟩ =>
        show 0 ≤ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ)
          ∧ (⟨[1], [0], [0], 1, wf⟩ : ScatterDims ⟨2, ![N, D]⟩ ⟨2, ![E, 1]⟩ ⟨2, ![E, D]⟩).start (ix2 e j') idx 0
            + ((⟨[1], [0], [0], 1, wf⟩ : ScatterDims ⟨2, ![N, D]⟩ ⟨2, ![E, 1]⟩ ⟨2, ![E, D]⟩).window (ix2 e j') 0 : ℕ) < (N : ℤ)
        rw [hs0, hw0, hz]; have := i.isLt; omega
      | ⟨1, _⟩ =>
        show 0 ≤ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ)
          ∧ (⟨[1], [0], [0], 1, wf⟩ : ScatterDims ⟨2, ![N, D]⟩ ⟨2, ![E, 1]⟩ ⟨2, ![E, D]⟩).start (ix2 e j') idx 1
            + ((⟨[1], [0], [0], 1, wf⟩ : ScatterDims ⟨2, ![N, D]⟩ ⟨2, ![E, 1]⟩ ⟨2, ![E, D]⟩).window (ix2 e j') 1 : ℕ) < (D : ℤ)
        rw [hs1, hw1]; have := j'.isLt; omega

/-- THE ROW SCATTER-ADD READ AT `(i, j)`. Scattering the rows of `upd : [E, D]` into `x : [N, D]` at the row
    indices `idx : [E, 1]` and adding: element `(i, j)` of the result is `x[i, j]` plus the sum, over all updates
    `e` whose row index `idx[e, 0]` (read signed) equals `i`, of `upd[e, j]`. Stated for any dimension record
    whose data are those of a row scatter (window axis `1`, inserted axis `0`, index map `[0]`, index vector on
    axis `1`). -/
theorem scatterAdd_rows_apply (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd d x idx upd (ix2 i j)
      = x (ix2 i j) + ∑ e : Fin E, if (idx (ix2 e 0)).toInt = (i.val : ℤ) then upd (ix2 e j) else 0 := by
  obtain ⟨uw, iw, sd, iv, wf⟩ := d
  subst h1 h2 h3 h4
  unfold Ideal.hostScatterAdd
  congr 1
  rw [Finset.sum_filter, sum_idx2]
  refine Finset.sum_congr rfl fun e _ => ?_
  refine (Finset.sum_congr rfl fun j' _ => if_congr (resultIdx?_rows wf idx e j' i j) rfl rfl).trans ?_
  by_cases hz : (idx (ix2 e 0)).toInt = (i.val : ℤ)
  · simp only [hz, true_and]
    rw [Finset.sum_ite_eq']
    simp
  · simp [hz]

/-- The same read for the float instance's scatter-add at the ideal instance, at any schedule key: there it is the
    exact sum above, whatever the key. -/
theorem floatOps_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (sched : HostSchedule)
    (x : FVec Ideal ⟨2, ![N, D]⟩ φ) (idx : IVec ⟨2, ![E, 1]⟩ w) (upd : FVec Ideal ⟨2, ![E, D]⟩ φ)
    (i : Fin N) (j : Fin D) :
    FloatOps.hostScatterAdd (F := Ideal) d sched x idx upd (ix2 i j)
      = x (ix2 i j) + ∑ e : Fin E, if (idx (ix2 e 0)).toInt = (i.val : ℤ) then upd (ix2 e j) else 0 :=
  scatterAdd_rows_apply d h1 h2 h3 h4 x idx upd i j

/-- The same read for the host's accumulating scatter of a one-device program, at the ideal instance. -/
theorem host_scatterAdd_rows_apply {φ : FTy} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (i : Fin N) (j : Fin D) :
    Host.scatterAdd (F := Ideal) d x idx upd (ix2 i j)
      = x (ix2 i j) + ∑ e : Fin E, if (idx (ix2 e 0)).toInt = (i.val : ℤ) then upd (ix2 e j) else 0 :=
  scatterAdd_rows_apply d h1 h2 h3 h4 x idx upd i j

/-- THE ROW GATHER READ AT `(e, j)`. Gathering whole rows of `x : [N, D]` at the row indices `idx : [E, 1]`:
    element `(e, j)` of the result is `x[r, j]`, where `r` is the row index `idx[e, 0]` read as a signed
    integer and clamped into `[0, N − 1]` (the gather clamps every start index so that the slice fits). Stated for
    any dimension record whose data are those of a row gather (offset axis `1`, collapsed axis `0`, index map
    `[0]`, index vector on axis `1`, slices `1 × D`, no batching axes). -/
theorem gather_rows_apply {α : Type} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (j : Fin D) :
    Host.gather d x idx (ix2 e j) = x (ix2 (clampRow N hN (idx (ix2 e 0)).toInt) j) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[1], [0], [], [], [0], 1, ![1, D], wf⟩ : GatherDims ⟨2, ![N, D]⟩ ⟨2, ![E, 1]⟩ ⟨2, ![E, D]⟩).start (ix2 e j) idx 0 + (⟨[1], [0], [], [], [0], 1, ![1, D], wf⟩ : GatherDims ⟨2, ![N, D]⟩ ⟨2, ![E, 1]⟩ ⟨2, ![E, D]⟩).batchCoord (ix2 e j) 0 + (⟨[1], [0], [], [], [0], 1, ![1, D], wf⟩ : GatherDims ⟨2, ![N, D]⟩ ⟨2, ![E, 1]⟩ ⟨2, ![E, D]⟩).offCoord (ix2 e j) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : (⟨[1], [0], [], [], [0], 1, ![1, D], wf⟩ : GatherDims ⟨2, ![N, D]⟩ ⟨2, ![E, 1]⟩ ⟨2, ![E, D]⟩).siIdx (ix2 e j) ⟨List.idxOf (0 : Fin 2) [(0 : Fin 2)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (⟨[1], [0], [], [], [0], 1, ![1, D], wf⟩ : GatherDims ⟨2, ![N, D]⟩ ⟨2, ![E, 1]⟩ ⟨2, ![E, D]⟩).start (ix2 e j) idx 1 + (⟨[1], [0], [], [], [0], 1, ![1, D], wf⟩ : GatherDims ⟨2, ![N, D]⟩ ⟨2, ![E, 1]⟩ ⟨2, ![E, D]⟩).batchCoord (ix2 e j) 1 + (⟨[1], [0], [], [], [0], 1, ![1, D], wf⟩ : GatherDims ⟨2, ![N, D]⟩ ⟨2, ![E, 1]⟩ ⟨2, ![E, D]⟩).offCoord (ix2 e j) 1 = j.val
    have hk : (1 : Fin 2) ∈ (⟨[1], [0], [], [], [0], 1, ![1, D], wf⟩ : GatherDims ⟨2, ![N, D]⟩ ⟨2, ![E, 1]⟩ ⟨2, ![E, D]⟩).sKept := by
      show (1 : Fin 2) ∈ [(1 : Fin 2)]
      decide
    rw [GatherDims.batchCoord_eq_zero _ _ _ List.not_mem_nil]
    unfold GatherDims.start
    rw [dif_neg (show (1 : Fin 2) ∉ [(0 : Fin 2)] by decide)]
    unfold GatherDims.offCoord
    rw [dif_pos hk]
    simp only [Nat.zero_add, Nat.add_zero]
    rfl

end Rows

/-! ## Entries of a flat array: scatter-add and gather along its one axis -/

section Flat
variable {N E w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Flat scatter: the window of update `e` starts at the index stored at `idx[e, 0]`, read as a signed integer
    and not clamped. -/
theorem startFlat (wf) (j : (⟨1, ![E]⟩ : Shape).Idx) (idx : IVec ⟨2, ![E, 1]⟩ w) :
    (⟨[], [0], [0], 1, wf⟩ : ScatterDims ⟨1, ![N]⟩ ⟨2, ![E, 1]⟩ ⟨1, ![E]⟩).start j idx 0 = (idx (ix2 (j 0) 0)).toInt := by
  unfold ScatterDims.start
  rw [dif_pos (show (0 : Fin 1) ∈ [(0 : Fin 1)] from List.mem_singleton.mpr rfl)]
  congr 2
  funext b; refine Fin.ext ?_
  match b with
  | ⟨0, _⟩ => rfl
  | ⟨1, _⟩ => rfl

/-- Flat scatter: the one operand axis is an inserted window axis, so the window coordinate on it is `0`. -/
theorem windowFlat (wf) (j : (⟨1, ![E]⟩ : Shape).Idx) : (⟨[], [0], [0], 1, wf⟩ : ScatterDims ⟨1, ![N]⟩ ⟨2, ![E, 1]⟩ ⟨1, ![E]⟩).window j 0 = 0 := by
  have h0 : (0 : Fin 1) ∉ (⟨[], [0], [0], 1, wf⟩ : ScatterDims ⟨1, ![N]⟩ ⟨2, ![E, 1]⟩ ⟨1, ![E]⟩).sKept := by
    show (0 : Fin 1) ∉ ([] : List (Fin 1))
    decide
  unfold ScatterDims.window
  rw [dif_neg h0]

/-- WHERE A FLAT UPDATE LANDS. Update element `e` of a flat scatter lands on operand element `i` exactly when the
    index `idx[e, 0]`, read signed, is `i`; an update whose index is negative or at least `N` is dropped. -/
theorem resultIdx?_flat (wf) (idx : IVec ⟨2, ![E, 1]⟩ w) (e : Fin E) (i : Fin N) :
    (⟨[], [0], [0], 1, wf⟩ : ScatterDims ⟨1, ![N]⟩ ⟨2, ![E, 1]⟩ ⟨1, ![E]⟩).resultIdx? (ix1 e) idx = some (ix1 i) ↔ (idx (ix2 e 0)).toInt = (i.val : ℤ) := by
  have hs0 : (⟨[], [0], [0], 1, wf⟩ : ScatterDims ⟨1, ![N]⟩ ⟨2, ![E, 1]⟩ ⟨1, ![E]⟩).start (ix1 e) idx 0 = (idx (ix2 e 0)).toInt := startFlat wf (ix1 e) idx
  have hw0 := windowFlat (N := N) (E := E) wf (ix1 e)
  unfold ScatterDims.resultIdx?
  split
  next h =>
    rw [Option.some.injEq]
    have ha0 := (h 0).1
    rw [hs0, hw0] at ha0
    constructor
    · intro hf
      have h0 : ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val :=
        congrArg Fin.val (congrFun hf 0)
      rw [hs0, hw0] at h0
      omega
    · intro hz
      funext a
      refine Fin.ext ?_
      match a with
      | ⟨0, _⟩ =>
        show ((⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)).toNat = i.val
        rw [hs0, hw0, hz]; omega
  next h =>
    constructor
    · intro hf; exact absurd hf (by simp)
    · intro hz
      exfalso; apply h
      intro a
      match a with
      | ⟨0, _⟩ =>
        show 0 ≤ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ)
          ∧ (⟨[], [0], [0], 1, wf⟩ : ScatterDims ⟨1, ![N]⟩ ⟨2, ![E, 1]⟩ ⟨1, ![E]⟩).start (ix1 e) idx 0 + ((⟨[], [0], [0], 1, wf⟩ : ScatterDims ⟨1, ![N]⟩ ⟨2, ![E, 1]⟩ ⟨1, ![E]⟩).window (ix1 e) 0 : ℕ) < (N : ℤ)
        rw [hs0, hw0, hz]; have := i.isLt; omega

/-- THE FLAT SCATTER-ADD READ AT `i`. Scattering the entries of `upd : [E]` into `x : [N]` at the indices
    `idx : [E, 1]` and adding: entry `i` of the result is `x[i]` plus the sum, over all updates `e` whose index
    `idx[e, 0]` (read signed) equals `i`, of `upd[e]`. Stated for any dimension record whose data are those of a
    flat scatter (no window axis, inserted axis `0`, index map `[0]`, index vector on axis `1`). -/
theorem scatterAdd_flat_apply (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (i : Fin N) :
    Ideal.hostScatterAdd d x idx upd (ix1 i)
      = x (ix1 i) + ∑ e : Fin E, if (idx (ix2 e 0)).toInt = (i.val : ℤ) then upd (ix1 e) else 0 := by
  obtain ⟨uw, iw, sd, iv, wf⟩ := d
  subst h1 h2 h3 h4
  unfold Ideal.hostScatterAdd
  congr 1
  rw [Finset.sum_filter, sum_idx1]
  exact Finset.sum_congr rfl fun e _ => if_congr (resultIdx?_flat wf idx e i) rfl rfl

/-- The same read for the float instance's scatter-add at the ideal instance, at any schedule key. -/
theorem floatOps_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (sched : HostSchedule)
    (x : FVec Ideal ⟨1, ![N]⟩ φ) (idx : IVec ⟨2, ![E, 1]⟩ w) (upd : FVec Ideal ⟨1, ![E]⟩ φ) (i : Fin N) :
    FloatOps.hostScatterAdd (F := Ideal) d sched x idx upd (ix1 i)
      = x (ix1 i) + ∑ e : Fin E, if (idx (ix2 e 0)).toInt = (i.val : ℤ) then upd (ix1 e) else 0 :=
  scatterAdd_flat_apply d h1 h2 h3 h4 x idx upd i

/-- The same read for the host's accumulating scatter of a one-device program, at the ideal instance. -/
theorem host_scatterAdd_flat_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e : Fin E, if (idx (ix2 e 0)).toInt = (i.val : ℤ) then upd (ix1 e) else 0 :=
  scatterAdd_flat_apply d h1 h2 h3 h4 x idx upd i

/-- THE FLAT GATHER READ AT `e`. Gathering entries of `x : [N]` at the indices `idx : [E, 1]`: entry `e` of the
    result is `x[r]`, where `r` is the index `idx[e, 0]` read as a signed integer and clamped into `[0, N − 1]`.
    Stated for any dimension record whose data are those of a flat gather (no offset axis, collapsed axis `0`,
    index map `[0]`, index vector on axis `1`, slices of one entry, no batching axes). -/
theorem gather_flat_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  subst h1 h2 h3 h4 h5 h6 h7
  unfold Host.gather
  congr 1
  funext a
  refine Fin.ext ?_
  match a with
  | ⟨0, _⟩ =>
    show (⟨[], [0], [], [], [0], 1, ![1], wf⟩ : GatherDims ⟨1, ![N]⟩ ⟨2, ![E, 1]⟩ ⟨1, ![E]⟩).start (ix1 e) idx 0 + (⟨[], [0], [], [], [0], 1, ![1], wf⟩ : GatherDims ⟨1, ![N]⟩ ⟨2, ![E, 1]⟩ ⟨1, ![E]⟩).batchCoord (ix1 e) 0 + (⟨[], [0], [], [], [0], 1, ![1], wf⟩ : GatherDims ⟨1, ![N]⟩ ⟨2, ![E, 1]⟩ ⟨1, ![E]⟩).offCoord (ix1 e) 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ [(0 : Fin 1)] from List.mem_singleton.mpr rfl)]
    have hsi : (⟨[], [0], [], [], [0], 1, ![1], wf⟩ : GatherDims ⟨1, ![N]⟩ ⟨2, ![E, 1]⟩ ⟨1, ![E]⟩).siIdx (ix1 e) ⟨List.idxOf (0 : Fin 1) [(0 : Fin 1)],
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Flat

/-! ## Two flat arrays laid end to end -/

section Concat
variable {α : Type}

/-- THE CONCATENATION OF TWO FLAT ARRAYS READ AT `e`: below `A` it is the first array at `e`, from `A` on the
    second array at `e − A`. -/
theorem concatenate_flat_apply {A B C : Nat} (hC : C = A + B)
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) :
    concatenate ⟨1, ![C]⟩ 0 [⟨⟨1, ![A]⟩, a⟩, ⟨⟨1, ![B]⟩, b⟩] h (ix1 e)
      = if hlt : e.val < A then a (ix1 ⟨e.val, hlt⟩) else b (ix1 ⟨e.val - A, by omega⟩) := by
  by_cases hlt : e.val < A
  · rw [dif_pos hlt]
    refine concatenate_pair_apply_left 0 a b h (ix1 e) rfl (ix1 ⟨e.val, hlt⟩) ?_
    intro b1
    match b1 with
    | ⟨0, _⟩ => rfl
  · rw [dif_neg hlt]
    refine concatenate_pair_apply_right 0 a b h (ix1 e) rfl rfl (ix1 ⟨e.val - A, by omega⟩) ?_ ?_
    · intro b1 hb
      match b1 with
      | ⟨0, _⟩ => exact absurd rfl hb
    · show e.val - A + A = e.val
      omega

end Concat

/-! ## The column of start indices, the iota, and the normalisation of a signed index -/

section Words
variable {α : Type}

/-- A flat array `v : [E]` broadcast to a column `[E, 1]` along axis 0 reads `v[e]` at `(e, 0)`. -/
theorem broadcastInDim_col_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e 0) = v (ix1 e) := by
  unfold broadcastInDim
  congr 1
  funext a
  refine Fin.ext ?_
  match a with
  | ⟨0, _⟩ =>
    show (if h1 : E = 1 then (⟨0, by omega⟩ : Fin E) else ⟨e.val, e.isLt⟩).val = e.val
    split
    · have := e.isLt; show 0 = e.val; omega
    · rfl

/-- The iota along the one axis of a flat array reads the position `k`, as a 32-bit word. -/
theorem iotaInDim_flat_apply {N : Nat} (k : Fin N) : iotaInDim ⟨1, ![N]⟩ 32 0 (ix1 k) = BitVec.ofNat 32 k.val := rfl

/-- A natural number below `2³¹`, written as a 32-bit word and read back signed, is itself. -/
theorem toInt_ofNat_small (k : Nat) (hk : k < 2 ^ 31) : (BitVec.ofNat 32 k).toInt = (k : ℤ) := by
  rw [BitVec.toInt_ofNat']
  unfold Int.bmod
  simp only []
  split <;> omega

/-- THE NORMALISATION OF A SIGNED INDEX. "If `s` is negative take `s + n`, else `s`", computed on 32-bit words
    with `n` below `2³¹`, is the same computation on the integers: the sum cannot wrap, since a negative `s` is at
    least `−2³¹`, so `s + n` lies in `[−2³¹, 2³¹)`. -/
theorem nrm_toInt (s : BitVec 32) (n : Nat) (hn : n < 2 ^ 31) :
    (Scalar.select (IntOp.cmpi .slt s 0#32) (IntOp.addi s (BitVec.ofNat 32 n)) s).toInt
      = if s.toInt < 0 then s.toInt + (n : ℤ) else s.toInt := by
  have hlo : -2 ^ (32 - 1) ≤ s.toInt := BitVec.le_toInt s
  have hhi : s.toInt < 2 ^ (32 - 1) := BitVec.toInt_lt
  unfold Scalar.select IntOp.cmpi IntOp.addi
  simp only [BitVec.slt_eq_decide, BitVec.toInt_zero]
  by_cases h : s.toInt < 0
  · rw [if_pos (by simp [h]), if_pos h, BitVec.toInt_add, toInt_ofNat_small n hn]
    unfold Int.bmod
    simp only []
    split <;> omega
  · rw [if_neg (by simp [h]), if_neg h]

end Words

/-! ## A sum over `A + B` terms -/

/-- A finite sum over `C = A + B` terms is the sum of its first `A` terms plus the sum of its last `B` terms. -/
theorem sum_fin_add {M : Type*} [AddCommMonoid M] {A B C : Nat} (hC : C = A + B) (f : Fin C → M) :
    ∑ e : Fin C, f e = ∑ e : Fin A, f ⟨e.val, by omega⟩ + ∑ k : Fin B, f ⟨A + k.val, by omega⟩ := by
  subst hC
  rw [Fin.sum_univ_add]
  rfl

/-- The same splitting for extended-real terms. -/
theorem sum_fin_add_ereal {A B C : Nat} (hC : C = A + B) (f : Fin C → EReal) :
    ∑ e : Fin C, f e = ∑ e : Fin A, f ⟨e.val, by omega⟩ + ∑ k : Fin B, f ⟨A + k.val, by omega⟩ :=
  sum_fin_add hC f

end Cert.Lib.ScatterRows

end
-- ==== Proof.Finite.lean ====
/-
  Finiteness. Under the certificate's precondition every entry of every float argument array is a real number
  (neither infinity), and so is every entry of the two tables that are computed before the first kernel launch:
  the scatter-mean of the edge rows (a finite sum of reals divided by a real that is at least 1) and the gathered
  rows of the graph table (entries of a table of reals).
-/
import proofs.«146512_j36301063586429_1_alg».proof.Defs
import proofs.«146512_j36301063586429_1_alg».proof.Proof.Gen.Pre_finite_inputs
import proofs.«146512_j36301063586429_1_alg».proof.Proof.Gen.KernelIdeal
import proofs.«146512_j36301063586429_1_alg».proof.Proof.KDefs
import proofs.«146512_j36301063586429_1_alg».proof.Proof.Spec
import proofs.«146512_j36301063586429_1_alg».proof.Proof.LibScatterRows
import Idealize.ShloMosaic.Lib.ReduceAll
import Idealize.ShloMosaic.Lib.IdealHost
import Idealize.ShloMosaic.Lib.ValueIdx
import Idealize.ShloMosaic.Lib.Pipeline.Value

noncomputable section

namespace Cert.KernelIdeal.Fin

open Idealize.ShloMosaic Idealize.ShloMosaic.TcCoe Idealize.SL.Sem Idealize.ShloMosaic.ValueIdx Cert.KernelIdeal Cert.NodeMlp

/-! ## Real numbers among the extended reals: closure under the operations used here -/

/-- A real number, seen as an extended real, is a real number. -/
theorem real_coe (r : ℝ) : IsReal (r : EReal) := ⟨r, rfl⟩

theorem real_zero : IsReal (0 : EReal) := ⟨0, EReal.coe_zero.symm⟩

theorem real_one : IsReal (1 : EReal) := ⟨1, EReal.coe_one.symm⟩

theorem real_add {x y : EReal} (hx : IsReal x) (hy : IsReal y) : IsReal (x + y) := by
  obtain ⟨a, rfl⟩ := hx
  obtain ⟨b, rfl⟩ := hy
  exact ⟨a + b, (EReal.coe_add a b).symm⟩

theorem real_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem real_sum {ι : Type} (s : Finset ι) (f : ι → EReal) (hf : ∀ i ∈ s, IsReal (f i)) : IsReal (∑ i ∈ s, f i) :=
  Finset.sum_induction f IsReal (fun _ _ => real_add) real_zero hf

/-- A term that is either a real or zero is real. -/
theorem real_ite {p : Prop} [Decidable p] {x : EReal} (hx : IsReal x) : IsReal (if p then x else 0) := by
  split
  · exact hx
  · exact real_zero

/-- The larger of a real and 1 is a real that is not zero. -/
theorem max_one_real {x : EReal} (hx : IsReal x) : ∃ r : ℝ, max x 1 = (r : EReal) ∧ r ≠ 0 := by
  obtain ⟨a, rfl⟩ := hx
  rcases le_total a 1 with h | h
  · exact ⟨1, by rw [max_eq_right (by exact_mod_cast h)]; exact EReal.coe_one.symm, one_ne_zero⟩
  · exact ⟨a, max_eq_left (by exact_mod_cast h), by intro h0; rw [h0] at h; exact absurd h (by norm_num)⟩

/-- A real divided by a nonzero real is real. -/
theorem real_div {x : EReal} {y : ℝ} (hx : IsReal x) (hy : y ≠ 0) : IsReal (Ideal.div x (y : EReal)) := by
  rw [Ideal.div_coe hy]
  exact real_mul hx (real_coe _)

/-- An extended real whose absolute value `max x (-x)` is below `+∞` is a real number. -/
theorem real_of_abs_lt_top {x : EReal} (h : max x (-x) < ⊤) : IsReal x := by
  have h1 : x ≠ ⊤ := by rintro rfl; simp at h
  have h2 : x ≠ ⊥ := by rintro rfl; simp at h
  exact ⟨x.toReal, (EReal.coe_toReal h1 h2).symm⟩

/-! ## The words the programs spell -/

/-- The single-precision word `0x7F800000` is `+∞`. -/
theorem ofBits_inf : Ideal.ofBits .f32 0x7F800000#32 = ⊤ := by
  simp [Ideal.ofBits, Ideal.ieee]

/-! ## Every entry of an array that passes `all (|x| < +∞)` is real -/

/-- One entry: the comparison of `|x|` against the word of `+∞` comes out 1 only at a real `x`. -/
theorem real_of_cmp {x : Ideal .f32}
    (h : FloatOps.cmpf (F := Ideal) .olt (FloatOps.hostAbsf x) (FloatOps.ofBits .f32 0x7F800000#32) = 1#1) : IsReal x := by
  change Ideal.cmp .olt (max x (-x)) (Ideal.ofBits .f32 0x7F800000#32) = 1#1 at h
  rw [ofBits_inf] at h
  by_cases hlt : max x (-x) < ⊤
  · exact real_of_abs_lt_top hlt
  · exfalso
    simp [Ideal.cmp, hlt] at h

/-- A whole array: if the conjunction over all entries of `|x| < +∞` is 1, every entry is real. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (x : FVec Ideal s .f32)
    (h : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1) (i : s.Idx) : IsReal (x i) := by
  -- the result of a reduction over every axis has one index
  haveI : Subsingleton (⟨0, ![]⟩ : Shape).Idx := ⟨fun a b => funext fun d => d.elim0⟩
  exact real_of_cmp (Host.reduce_andi_all _ _ hr hu ix0 h i)

/-- Under the precondition every entry of every float argument is a real number. -/
theorem args_real [hK : Cert.KernelIdeal.Facts] [hP : Cert.Pre_finite_inputs.Facts]
    (m : (ℓ : Loc nD τ sig) → Buf (Elt Ideal) ℓ) (hpre : Cert.Pre_KernelIdeal m) (c : Dev nD) :
    (∀ (i : Fin 100000) (k : Fin 128), IsReal (m ((c.tc : Thread nD τ).loc main_arg0) (ix2 i k)))
    ∧ (∀ (e : Fin 1600000) (k : Fin 128), IsReal (m ((c.tc : Thread nD τ).loc main_arg1) (ix2 e k)))
    ∧ (∀ (g : Fin 64) (k : Fin 128), IsReal (m ((c.tc : Thread nD τ).loc main_arg2) (ix2 g k)))
    ∧ (∀ (j : Fin 128) (k : Fin 384), IsReal (m ((c.tc : Thread nD τ).loc main_arg3) (ix2 j k)))
    ∧ (∀ j : Fin 128, IsReal (m ((c.tc : Thread nD τ).loc main_arg4) (ix1 j)))
    ∧ (∀ (j k : Fin 128), IsReal (m ((c.tc : Thread nD τ).loc main_arg5) (ix2 j k)))
    ∧ (∀ j : Fin 128, IsReal (m ((c.tc : Thread nD τ).loc main_arg6) (ix1 j)))
    ∧ (∀ (j k : Fin 128), IsReal (m ((c.tc : Thread nD τ).loc main_arg7) (ix2 j k)))
    ∧ (∀ j : Fin 128, IsReal (m ((c.tc : Thread nD τ).loc main_arg8) (ix1 j)))
    ∧ (∀ j : Fin 128, IsReal (m ((c.tc : Thread nD τ).loc main_arg9) (ix1 j)))
    ∧ (∀ j : Fin 128, IsReal (m ((c.tc : Thread nD τ).loc main_arg10) (ix1 j)))
    ∧ (∀ j : Fin 128, IsReal (m ((c.tc : Thread nD τ).loc main_arg11) (ix1 j)))
    ∧ (∀ j : Fin 128, IsReal (m ((c.tc : Thread nD τ).loc main_arg12) (ix1 j)))
    ∧ (∀ j : Fin 128, IsReal (m ((c.tc : Thread nD τ).loc main_arg13) (ix1 j)))
    ∧ (∀ j : Fin 128, IsReal (m ((c.tc : Thread nD τ).loc main_arg14) (ix1 j))) := by
  have h := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, andi] at h
  simp only [IntOp.andi_eq_one] at h
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h
  exact ⟨fun i k => all_real _ _ _ _ h0 (ix2 i k), fun e k => all_real _ _ _ _ h1 (ix2 e k),
    fun g k => all_real _ _ _ _ h2 (ix2 g k), fun j k => all_real _ _ _ _ h3 (ix2 j k),
    fun j => all_real _ _ _ _ h4 (ix1 j), fun j k => all_real _ _ _ _ h5 (ix2 j k),
    fun j => all_real _ _ _ _ h6 (ix1 j), fun j k => all_real _ _ _ _ h7 (ix2 j k),
    fun j => all_real _ _ _ _ h8 (ix1 j), fun j => all_real _ _ _ _ h9 (ix1 j),
    fun j => all_real _ _ _ _ h10 (ix1 j), fun j => all_real _ _ _ _ h11 (ix1 j),
    fun j => all_real _ _ _ _ h12 (ix1 j), fun j => all_real _ _ _ _ h13 (ix1 j),
    fun j => all_real _ _ _ _ h14 (ix1 j)⟩

/-! ## The two tables computed before the first launch -/

/-- A property of every entry of an array holds of every entry of any broadcast of it. -/
theorem bcast_all {α : Type} {s t : Shape} (dims : Fin s.rank → Fin t.rank) (h : s.BroadcastsInDim t dims)
    (x : s.Idx → α) (P : α → Prop) (hx : ∀ i, P (x i)) (j : t.Idx) : P (broadcastInDim t dims h x j) := by
  unfold broadcastInDim
  exact hx _

/-- The array that is `0.0` everywhere is real everywhere. -/
theorem const_zero_real (s : Shape) (j : s.Idx) : IsReal (constant (F := Ideal) s .f32 0x00000000#32 j) := by
  rw [constant_apply, Ideal.ofBits_zero_f32]
  exact real_zero

/-- The array that is `1.0` everywhere reads 1. -/
theorem const_one_apply (s : Shape) (j : s.Idx) : constant (F := Ideal) s .f32 0x3F800000#32 j = 1 := by
  rw [constant_apply, Ideal.ofBits_one_f32]

section Scatter
variable {N D E w : Nat}

/-- Rows of reals added into rows of reals: every entry of the accumulating row scatter is real. -/
theorem scatterRows_real (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ .f32) (idx : IVec ⟨2, ![E, 1]⟩ w) (upd : FVec Ideal ⟨2, ![E, D]⟩ .f32)
    (hx : ∀ j, IsReal (x j)) (hupd : ∀ (e : Fin E) (k : Fin D), IsReal (upd (ix2 e k))) (i : Fin N) (k : Fin D) :
    IsReal (Host.scatterAdd (F := Ideal) d x idx upd (ix2 i k)) := by
  rw [Cert.Lib.ScatterRows.host_scatterAdd_rows_apply d h1 h2 h3 h4]
  exact real_add (hx _) (real_sum _ _ fun e _ => real_ite (hupd e k))

/-- Reals added into a flat array of reals: every entry of the accumulating flat scatter is real. -/
theorem scatterFlat_real (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w) (upd : FVec Ideal ⟨1, ![E]⟩ .f32)
    (hx : ∀ j, IsReal (x j)) (hupd : ∀ j, IsReal (upd j)) (j : (⟨1, ![N]⟩ : Shape).Idx) :
    IsReal (Host.scatterAdd (F := Ideal) d x idx upd j) := by
  obtain ⟨a, rfl⟩ : ∃ a : Fin N, j = ix1 a := ⟨j 0, eq_ix1 j⟩
  rw [Cert.Lib.ScatterRows.host_scatterAdd_flat_apply d h1 h2 h3 h4]
  exact real_add (hx _) (real_sum _ _ fun e _ => real_ite (hupd _))

end Scatter

/-- A real entry over an entry that is a nonzero real: the host's quotient is real there. -/
theorem hostDivf_real {s : Shape} (a b : FVec Ideal s .f32) (j : s.Idx) (ha : IsReal (a j))
    (hb : ∃ r : ℝ, b j = (r : EReal) ∧ r ≠ 0) : IsReal (Host.divf a b j) := by
  obtain ⟨r, hr, hr0⟩ := hb
  rw [hostDivf_apply, hr]
  exact real_div ha hr0

section Stage
variable [Facts]
open Facts₀ Facts

/-- The scatter-mean of real rows is real at every entry: a finite sum of reals over a real that is at least 1. -/
theorem prefixV_real (ea : (⟨S1600000x128, .f32⟩ : BufTy).Contents (Elt Ideal)) (ei : (⟨S2x1600000, .i32⟩ : BufTy).Contents (Elt Ideal))
    (hea : ∀ (e : Fin 1600000) (k : Fin 128), IsReal (ea (ix2 e k))) :
    ∀ (i : Fin 100000) (k : Fin 128), IsReal (Stage.prefixV ea ei (ix2 i k)) := by
  intro i k
  unfold Stage.prefixV
  refine hostDivf_real _ _ _ ?_ ?_
  · -- the row sums: zero plus the sum of the rows whose source is this node
    exact scatterRows_real _ rfl rfl rfl rfl _ _ _
      (fun j => bcast_all _ _ _ IsReal (fun j' => const_zero_real _ j') j) hea i k
  · -- the count column: the larger of (zero plus a sum of ones) and 1, the same in every column
    refine bcast_all _ _ _ (fun v => ∃ r : ℝ, v = (r : EReal) ∧ r ≠ 0) (fun j1 => ?_) _
    refine bcast_all _ _ _ (fun v => ∃ r : ℝ, v = (r : EReal) ∧ r ≠ 0) (fun j => ?_) _
    rw [maximumf_apply, bcast_all _ _ _ (fun v => v = (1 : EReal)) (fun j' => const_one_apply _ j') j]
    exact max_one_real (scatterFlat_real _ rfl rfl rfl rfl _ _ _
      (fun j' => bcast_all _ _ _ IsReal (fun j'' => const_zero_real _ j'') j')
      (fun j' => by rw [bcast_all _ _ _ (fun v => v = (1 : EReal)) (fun j'' => const_one_apply _ j'') j']; exact real_one) j)

/-- A gathered row of a real table is real at every entry. -/
theorem prefixU_real (u : (⟨S64x128, .f32⟩ : BufTy).Contents (Elt Ideal)) (batch : (⟨S100000, .i32⟩ : BufTy).Contents (Elt Ideal))
    (hu : ∀ (g : Fin 64) (k : Fin 128), IsReal (u (ix2 g k))) :
    ∀ (i : Fin 100000) (k : Fin 128), IsReal (Stage.prefixU u batch (ix2 i k)) := by
  intro i k
  unfold Stage.prefixU
  rw [Cert.Lib.ScatterRows.gather_rows_apply (by decide : 0 < 64) _ rfl rfl rfl rfl rfl rfl rfl]
  exact hu _ _

end Stage

end Cert.KernelIdeal.Fin

end
-- ==== Proof.lean ====
/-
  A node update of a graph network, certified equal in two programs over the extended reals.

  Each of 100000 nodes carries 128 features. The update joins a node's own features, the mean of the features of the
  edges leaving it (a scatter-mean over 1.6 million edges) and the row of its graph in a small table, and sends the
  384 joined features through three linear layers, each followed by a rectifier and by a standardisation of every
  feature column over all 100000 rows (mean and variance taken over the rows, then scale gamma and offset beta).

  The kernel program computes each layer in 20 tiles of 5000 rows and accumulates, tile by tile, the column sums of the
  layer's output and of its square; from those it forms one scale and one shift per column, which the next layer's
  kernel applies as an affine map: var = mean(h²) - mean(h)², h ↦ h · s + t. Its first layer multiplies the three
  tables by three blocks of the weight table and adds. The reference joins the tables, multiplies once, and
  standardises in the textbook way: var = mean((h - mean h)²), h ↦ (h - mean h) · (var + eps)^(-1/2) · gamma + beta.

  Over the extended reals the two variances and the two affine forms agree exactly where every entry is a real
  number; the precondition (every float input finite) makes the inputs real, the scatter-mean and the gathered rows
  of real tables are real, and each layer maps real tables to real tables. The split of the first layer's sum over
  384 features into three sums over 128 needs no finiteness.

  The frames of the two kernel programs are the generated frame certificates; the reference's frame is its run with
  the result dropped; the ideal pass rewrote nothing, so the kernel program's idealization is its own text.
-/
import proofs.«146512_j36301063586429_1_alg».proof.Defs
import proofs.«146512_j36301063586429_1_alg».proof.Proof.Gen.Kernel
import proofs.«146512_j36301063586429_1_alg».proof.Proof.Gen.Kernel.Skeleton
import proofs.«146512_j36301063586429_1_alg».proof.Proof.Gen.Kernel.Launch
import proofs.«146512_j36301063586429_1_alg».proof.Proof.Gen.Kernel.Points
import proofs.«146512_j36301063586429_1_alg».proof.Proof.Gen.Kernel.Frame
import proofs.«146512_j36301063586429_1_alg».proof.Proof.Gen.KernelIdeal
import proofs.«146512_j36301063586429_1_alg».proof.Proof.Gen.KernelIdeal.Skeleton
import proofs.«146512_j36301063586429_1_alg».proof.Proof.Gen.KernelIdeal.Launch
import proofs.«146512_j36301063586429_1_alg».proof.Proof.Gen.KernelIdeal.Points
import proofs.«146512_j36301063586429_1_alg».proof.Proof.Gen.KernelIdeal.Frame
import proofs.«146512_j36301063586429_1_alg».proof.Proof.Gen.ReferenceIdeal
import proofs.«146512_j36301063586429_1_alg».proof.Proof.Gen.Pre_finite_inputs
import proofs.«146512_j36301063586429_1_alg».proof.Proof.Spec
import proofs.«146512_j36301063586429_1_alg».proof.Proof.HostSpec
import proofs.«146512_j36301063586429_1_alg».proof.Proof.Algebra
import proofs.«146512_j36301063586429_1_alg».proof.Proof.KDefs
import proofs.«146512_j36301063586429_1_alg».proof.Proof.RefDefs
import proofs.«146512_j36301063586429_1_alg».proof.Proof.PrefixEq
import proofs.«146512_j36301063586429_1_alg».proof.Proof.KRun
import proofs.«146512_j36301063586429_1_alg».proof.Proof.KChain
import proofs.«146512_j36301063586429_1_alg».proof.Proof.RefRun
import proofs.«146512_j36301063586429_1_alg».proof.Proof.RefRead
import proofs.«146512_j36301063586429_1_alg».proof.Proof.Finite
import Idealize.ShloMosaic.Lib.StableHlo.Run
import Idealize.ShloMosaic.Lib.ValueIdx
import Idealize.ShloMosaic.Adequacy
import Idealize.ShloMosaic.Init

set_option maxRecDepth 16384

noncomputable section

open Idealize.ShloMosaic Idealize.ShloMosaic.TcCoe Idealize.SL.Sem Idealize.ShloMosaic.ValueIdx Cert.NodeMlp

/-! # The claims

  Both idealized programs compute, index by index, the same three-layer node update of the same argument tables: the
  kernel program in the form `netK` (running column sums, the standardisation folded into one affine map per column,
  the first layer as three products), the reference in the form `netR` (centred variance, textbook standardisation,
  the first layer over the joined table). The host operations before the first layer — the scatter-mean of the edge
  rows and the gathered graph rows — are the same operations in both programs. Under the precondition every entry
  of every table is a real number, and there the two forms agree. -/

namespace Cert.Proof

open Cert.KernelIdeal.Chain

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Under the precondition the tables the two forms are applied to hold real numbers, so the two forms agree. -/
theorem forms_agree (m : (ℓ : Loc Cert.KernelIdeal.nD Cert.KernelIdeal.τ Cert.KernelIdeal.sig) → Buf (Elt Ideal) ℓ)
    (hpre : Cert.Pre_KernelIdeal m) (c : Dev Cert.KernelIdeal.nD) :
    netK (X m c) (VE m c) (UB m c) (w0 m c) (b0 m c) (w1 m c) (b1 m c) (w2 m c) (b2 m c) (g0 m c) (bt0 m c) (g1 m c) (bt1 m c) (g2 m c) (bt2 m c)
      = netR (X m c) (VE m c) (UB m c) (w0 m c) (b0 m c) (w1 m c) (b1 m c) (w2 m c) (b2 m c) (g0 m c) (bt0 m c) (g1 m c) (bt1 m c) (g2 m c) (bt2 m c) := by
  obtain ⟨hx, hea, hu, hw0, hb0, hw1, hb1, hw2, hb2, hg0, hbt0, hg1, hbt1, hg2, hbt2⟩ := Cert.KernelIdeal.Fin.args_real m hpre c
  exact netK_eq_netR _ _ _ _ _ _ _ _ _ _ _ _ _ _ _
    (fun i k => hx i k) (Cert.KernelIdeal.Fin.prefixV_real _ _ hea) (Cert.KernelIdeal.Fin.prefixU_real _ _ hu)
    (fun k j => hw0 j k) hb0 (fun k j => hw1 j k) hb1 (fun k j => hw2 j k) hb2 hg0 hbt0 hg1 hbt1 hg2 hbt2

theorem algebraic : Cert.algebraic_KernelIdeal_ReferenceIdeal := by
  intro m ρ m' ρ' hpre hagree
  refine ⟨fun c => Cert.KernelIdeal.Gen.W8 m ρ c (Proc.devRef .tc Cert.KernelIdeal.main_v77),
    Cert.KernelIdeal.RunV.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  funext idx
  obtain ⟨i, j, rfl⟩ : ∃ (i : Fin 100000) (j : Fin 128), idx = ix2 i j := ⟨idx 0, idx 1, eq_ix2 idx⟩
  refine (Cert.ReferenceIdeal.StageAt.out_apply _ _ _ _ _ _ _ _ _ _ _ _ _ _ _ _ _ i j).trans ?_
  rw [Cert.PrefixEq.prefixV_eq, Cert.PrefixEq.prefixU_eq]
  exact ((congrFun (congrFun (forms_agree m hpre c) i) j).symm).trans (result_eq m ρ c i j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
